-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v78)) (v1 : (c : Dev Cert.KernelIdeal.nD) → Buf (Elt Ideal) ((c.tc : Thread Cert.KernelIdeal.nD Cert.KernelIdeal.τ).loc Cert.KernelIdeal.main_v85)) (v2 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_v85) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x4x4 : Shape := ⟨3, ![1600000, 4, 4]⟩
abbrev S800000 : Shape := ⟨1, ![800000]⟩
abbrev S1600000 : Shape := ⟨1, ![1600000]⟩
abbrev S2x12800000 : Shape := ⟨2, ![2, 12800000]⟩
abbrev S2x800000 : Shape := ⟨2, ![2, 800000]⟩
abbrev S_ : Shape := ⟨0, ![]⟩

class Facts : Prop where
  bcast_S_S1600000x4x4 : S_.BroadcastsInDim S1600000x4x4 (![] : Fin 0 → Fin S1600000x4x4.rank)
  reducesTo_S1600000x4x4_S_d0_1_2 : S1600000x4x4.ReducesTo [0, 1, 2] S_
  h_S_ : 0 < S_.numel

variable [Facts]

def fn {F : FTy → Type} [FloatOps F] (main_arg0 : FVec F S1600000x4x4 .f32) (main_arg1 : IVec S800000 32) (main_arg2 : IVec S800000 32) (main_arg3 : IVec S1600000 32) (main_arg4 : IVec S2x12800000 32) (main_arg5 : IVec S2x800000 32) : IVec S_ 1 :=
  let main_v0 : FVec F S1600000x4x4 .f32 := Host.absf main_arg0
  let main_cst : FVec F S_ .f32 := constant S_ .f32 0x7F800000#32
  let main_v1 : FVec F S1600000x4x4 .f32 := broadcastInDim S1600000x4x4 ![] bcast_S_S1600000x4x4 main_cst
  let main_v2 : IVec S1600000x4x4 1 := cmpf .olt main_v0 main_v1
  let main_c : IVec S_ 1 := constantI S_ 1 1#1
  let main_v3 : IVec S_ 1 := (fun x v => Host.reduce IntOp.andi x v reducesTo_S1600000x4x4_S_d0_1_2 h_S_) main_v2 main_c
  main_v3
-- ==== Kernel.lean ====
abbrev S1600000x4x4 : Shape := ⟨3, ![1600000, 4, 4]⟩
abbrev S800000 : Shape := ⟨1, ![800000]⟩
abbrev S1600000 : Shape := ⟨1, ![1600000]⟩
abbrev S2x12800000 : Shape := ⟨2, ![2, 12800000]⟩
abbrev S2x800000 : Shape := ⟨2, ![2, 800000]⟩
abbrev S_ : Shape := ⟨0, ![]⟩
abbrev S800000x1 : Shape := ⟨2, ![800000, 1]⟩
abbrev S800000x4x4 : Shape := ⟨3, ![800000, 4, 4]⟩
abbrev S4x4x800000 : Shape := ⟨3, ![4, 4, 800000]⟩
abbrev S16x800000 : Shape := ⟨2, ![16, 800000]⟩
abbrev S4x4x1600000 : Shape := ⟨3, ![4, 4, 1600000]⟩
abbrev S16x1600000 : Shape := ⟨2, ![16, 1600000]⟩
abbrev S16x32000 : Shape := ⟨2, ![16, 32000]⟩
abbrev S1x32000 : Shape := ⟨2, ![1, 32000]⟩
abbrev S32000 : Shape := ⟨1, ![32000]⟩
abbrev S50000x4x4 : Shape := ⟨3, ![50000, 4, 4]⟩
abbrev S1600000x1 : Shape := ⟨2, ![1600000, 1]⟩
abbrev S12800000 : Shape := ⟨1, ![12800000]⟩
abbrev S1x12800000 : Shape := ⟨2, ![1, 12800000]⟩
abbrev S1x800000 : Shape := ⟨2, ![1, 800000]⟩
abbrev S26400000 : Shape := ⟨1, ![26400000]⟩
abbrev S26400000x1 : Shape := ⟨2, ![26400000, 1]⟩
abbrev S1x26400000 : Shape := ⟨2, ![1, 26400000]⟩
abbrev S2x26400000 : Shape := ⟨2, ![2, 26400000]⟩

abbrev nBuf : Space → Nat
  | .hbm => 111
  | .vmem => 10
  | .smem => 0
  | _ => 0

abbrev bufTy : (tb : Table) → Fin (tcTables nBuf tb) → BufTy
  | .hbm, ⟨0, _⟩ => ⟨S1600000x4x4, .f32⟩
  | .hbm, ⟨1, _⟩ => ⟨S800000, .i32⟩
  | .hbm, ⟨2, _⟩ => ⟨S800000, .i32⟩
  | .hbm, ⟨3, _⟩ => ⟨S1600000, .i32⟩
  | .hbm, ⟨4, _⟩ => ⟨S2x12800000, .i32⟩
  | .hbm, ⟨5, _⟩ => ⟨S2x800000, .i32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x4x4, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x4x4, .f32⟩
  | .hbm, ⟨24, _⟩ => ⟨S4x4x800000, .f32⟩
  | .hbm, ⟨25, _⟩ => ⟨S16x800000, .f32⟩
  | .hbm, ⟨26, _⟩ => ⟨S4x4x800000, .f32⟩
  | .hbm, ⟨27, _⟩ => ⟨S16x800000, .f32⟩
  | .hbm, ⟨28, _⟩ => ⟨S4x4x1600000, .f32⟩
  | .hbm, ⟨29, _⟩ => ⟨S16x1600000, .f32⟩
  | .hbm, ⟨30, _⟩ => ⟨S16x800000, .f32⟩
  | .hbm, ⟨31, _⟩ => ⟨S16x1600000, .f32⟩
  | .hbm, ⟨32, _⟩ => ⟨S4x4x800000, .f32⟩
  | .hbm, ⟨33, _⟩ => ⟨S800000x4x4, .f32⟩
  | .hbm, ⟨34, _⟩ => ⟨S4x4x1600000, .f32⟩
  | .hbm, ⟨35, _⟩ => ⟨S1600000x4x4, .f32⟩
  | .hbm, ⟨36, _⟩ => ⟨S_, .f32⟩
  | .hbm, ⟨37, _⟩ => ⟨S50000x4x4, .f32⟩
  | .hbm, ⟨38, _⟩ => ⟨S1600000x1, .i32⟩
  | .hbm, ⟨39, _⟩ => ⟨S50000x4x4, .f32⟩
  | .hbm, ⟨40, _⟩ => ⟨S12800000, .f32⟩
  | .hbm, ⟨41, _⟩ => ⟨S1x12800000, .i32⟩
  | .hbm, ⟨42, _⟩ => ⟨S12800000, .i32⟩
  | .hbm, ⟨43, _⟩ => ⟨S1x12800000, .i32⟩
  | .hbm, ⟨44, _⟩ => ⟨S12800000, .i32⟩
  | .hbm, ⟨45, _⟩ => ⟨S1x800000, .i32⟩
  | .hbm, ⟨46, _⟩ => ⟨S800000, .i32⟩
  | .hbm, ⟨47, _⟩ => ⟨S26400000, .i32⟩
  | .hbm, ⟨48, _⟩ => ⟨S1x12800000, .i32⟩
  | .hbm, ⟨49, _⟩ => ⟨S12800000, .i32⟩
  | .hbm, ⟨50, _⟩ => ⟨S1x12800000, .i32⟩
  | .hbm, ⟨51, _⟩ => ⟨S12800000, .i32⟩
  | .hbm, ⟨52, _⟩ => ⟨S1x800000, .i32⟩
  | .hbm, ⟨53, _⟩ => ⟨S800000, .i32⟩
  | .hbm, ⟨54, _⟩ => ⟨S26400000, .i32⟩
  | .hbm, ⟨55, _⟩ => ⟨S800000, .f32⟩
  | .hbm, ⟨56, _⟩ => ⟨S26400000, .f32⟩
  | .hbm, ⟨57, _⟩ => ⟨S26400000, .i32⟩
  | .hbm, ⟨58, _⟩ => ⟨S26400000, .i32⟩
  | .hbm, ⟨59, _⟩ => ⟨S26400000, .i32⟩
  | .hbm, ⟨60, _⟩ => ⟨S_, .i32⟩
  | .hbm, ⟨61, _⟩ => ⟨S26400000, .i32⟩
  | .hbm, ⟨62, _⟩ => ⟨S26400000, .i1⟩
  | .hbm, ⟨63, _⟩ => ⟨S_, .i32⟩
  | .hbm, ⟨64, _⟩ => ⟨S26400000, .i32⟩
  | .hbm, ⟨65, _⟩ => ⟨S26400000, .i32⟩
  | .hbm, ⟨66, _⟩ => ⟨S26400000, .i32⟩
  | .hbm, ⟨67, _⟩ => ⟨S26400000x1, .i32⟩
  | .hbm, ⟨68, _⟩ => ⟨S26400000, .i32⟩
  | .hbm, ⟨69, _⟩ => ⟨S26400000, .i32⟩
  | .hbm, ⟨70, _⟩ => ⟨S26400000, .i32⟩
  | .hbm, ⟨71, _⟩ => ⟨S26400000, .i32⟩
  | .hbm, ⟨72, _⟩ => ⟨S_, .i32⟩
  | .hbm, ⟨73, _⟩ => ⟨S26400000, .i32⟩
  | .hbm, ⟨74, _⟩ => ⟨S26400000, .i1⟩
  | .hbm, ⟨75, _⟩ => ⟨S_, .i32⟩
  | .hbm, ⟨76, _⟩ => ⟨S26400000, .i32⟩
  | .hbm, ⟨77, _⟩ => ⟨S26400000, .i32⟩
  | .hbm, ⟨78, _⟩ => ⟨S26400000, .i32⟩
  | .hbm, ⟨79, _⟩ => ⟨S26400000x1, .i32⟩
  | .hbm, ⟨80, _⟩ => ⟨S26400000, .i32⟩
  | .hbm, ⟨81, _⟩ => ⟨S_, .i32⟩
  | .hbm, ⟨82, _⟩ => ⟨S26400000, .i32⟩
  | .hbm, ⟨83, _⟩ => ⟨S26400000, .i1⟩
  | .hbm, ⟨84, _⟩ => ⟨S_, .i32⟩
  | .hbm, ⟨85, _⟩ => ⟨S26400000, .i32⟩
  | .hbm, ⟨86, _⟩ => ⟨S26400000, .i32⟩
  | .hbm, ⟨87, _⟩ => ⟨S26400000, .i32⟩
  | .hbm, ⟨88, _⟩ => ⟨S26400000x1, .i32⟩
  | .hbm, ⟨89, _⟩ => ⟨S26400000, .i32⟩
  | .hbm, ⟨90, _⟩ => ⟨S_, .i32⟩
  | .hbm, ⟨91, _⟩ => ⟨S26400000, .i32⟩
  | .hbm, ⟨92, _⟩ => ⟨S26400000, .i1⟩
  | .hbm, ⟨93, _⟩ => ⟨S_, .i32⟩
  | .hbm, ⟨94, _⟩ => ⟨S26400000, .i32⟩
  | .hbm, ⟨95, _⟩ => ⟨S26400000, .i32⟩
  | .hbm, ⟨96, _⟩ => ⟨S26400000, .i32⟩
  | .hbm, ⟨97, _⟩ => ⟨S26400000x1, .i32⟩
  | .hbm, ⟨98, _⟩ => ⟨S26400000, .i32⟩
  | .hbm, ⟨99, _⟩ => ⟨S1x26400000, .i32⟩
  | .hbm, ⟨100, _⟩ => ⟨S1x26400000, .i32⟩
  | .hbm, ⟨101, _⟩ => ⟨S2x26400000, .i32⟩
  | .hbm, ⟨102, _⟩ => ⟨S_, .i32⟩
  | .hbm, ⟨103, _⟩ => ⟨S26400000, .i32⟩
  | .hbm, ⟨104, _⟩ => ⟨S26400000, .i1⟩
  | .hbm, ⟨105, _⟩ => ⟨S_, .i32⟩
  | .hbm, ⟨106, _⟩ => ⟨S26400000, .i32⟩
  | .hbm, ⟨107, _⟩ => ⟨S26400000, .i32⟩
  | .hbm, ⟨108, _⟩ => ⟨S26400000, .i32⟩
  | .hbm, ⟨109, _⟩ => ⟨S26400000x1, .i32⟩
  | .hbm, ⟨110, _⟩ => ⟨S26400000, .f32⟩
  | .local _ .vmem, ⟨0, _⟩ => ⟨S16x32000, .f32⟩
  | .local _ .vmem, ⟨1, _⟩ => ⟨S16x32000, .f32⟩
  | .local _ .vmem, ⟨2, _⟩ => ⟨S16x32000, .f32⟩
  | .local _ .vmem, ⟨3, _⟩ => ⟨S16x32000, .f32⟩
  | .local _ .vmem, ⟨4, _⟩ => ⟨S16x32000, .f32⟩
  | .local _ .vmem, ⟨5, _⟩ => ⟨S16x32000, .f32⟩
  | .local _ .vmem, ⟨6, _⟩ => ⟨S16x32000, .f32⟩
  | .local _ .vmem, ⟨7, _⟩ => ⟨S16x32000, .f32⟩
  | .local _ .vmem, ⟨8, _⟩ => ⟨S16x32000, .f32⟩
  | .local _ .vmem, ⟨9, _⟩ => ⟨S16x32000, .f32⟩
  | _, _ => ⟨S1600000x4x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_call0_v0 : Ref sig .tc := ⟨.hbm, 57, rfl⟩
abbrev main_call0_v1_0 : Ref sig .tc := ⟨.hbm, 58, rfl⟩
abbrev main_v46 : Ref sig .tc := ⟨.hbm, 59, rfl⟩
abbrev main_c_3 : Ref sig .tc := ⟨.hbm, 60, rfl⟩
abbrev main_v47 : Ref sig .tc := ⟨.hbm, 61, rfl⟩
abbrev main_v48 : Ref sig .tc := ⟨.hbm, 62, rfl⟩
abbrev main_c_4 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_call1_v0 : Ref sig .tc := ⟨.hbm, 69, rfl⟩
abbrev main_call1_v1_0 : Ref sig .tc := ⟨.hbm, 70, rfl⟩
abbrev main_v54 : Ref sig .tc := ⟨.hbm, 71, rfl⟩
abbrev main_c_5 : Ref sig .tc := ⟨.hbm, 72, rfl⟩
abbrev main_v55 : Ref sig .tc := ⟨.hbm, 73, rfl⟩
abbrev main_v56 : Ref sig .tc := ⟨.hbm, 74, rfl⟩
abbrev main_c_6 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_c_7 : Ref sig .tc := ⟨.hbm, 81, rfl⟩
abbrev main_v62 : Ref sig .tc := ⟨.hbm, 82, rfl⟩
abbrev main_v63 : Ref sig .tc := ⟨.hbm, 83, rfl⟩
abbrev main_c_8 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_c_9 : Ref sig .tc := ⟨.hbm, 90, rfl⟩
abbrev main_v69 : Ref sig .tc := ⟨.hbm, 91, rfl⟩
abbrev main_v70 : Ref sig .tc := ⟨.hbm, 92, rfl⟩
abbrev main_c_10 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_c_11 : Ref sig .tc := ⟨.hbm, 102, rfl⟩
abbrev main_v79 : Ref sig .tc := ⟨.hbm, 103, rfl⟩
abbrev main_v80 : Ref sig .tc := ⟨.hbm, 104, rfl⟩
abbrev main_c_12 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x32000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S16x32000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x32000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  transposes_S800000x4x4_S4x4x800000_1_2_0 : S800000x4x4.Transposes [1, 2, 0] S4x4x800000
  shapeCasts_S4x4x800000_S16x800000 : S4x4x800000.ShapeCasts S16x800000
  transposes_S1600000x4x4_S4x4x1600000_1_2_0 : S1600000x4x4.Transposes [1, 2, 0] S4x4x1600000
  shapeCasts_S4x4x1600000_S16x1600000 : S4x4x1600000.ShapeCasts S16x1600000
  inb_S16x32000_S16x32000_0_0 : ∀ a, (![0, 0] : Fin 2 → Nat) a + S16x32000.size a ≤ S16x32000.size a
  h_S16x32000 : 0 < S16x32000.numel
  shapeCasts_S16x32000_S16x32000 : S16x32000.ShapeCasts S16x32000
  slices_S16x32000_o0_0_S1x32000 : S16x32000.Slices ![0, 0] S1x32000
  shapeCasts_S1x32000_S32000 : S1x32000.ShapeCasts S32000
  slices_S16x32000_o4_0_S1x32000 : S16x32000.Slices ![4, 0] S1x32000
  slices_S16x32000_o8_0_S1x32000 : S16x32000.Slices ![8, 0] S1x32000
  slices_S16x32000_o12_0_S1x32000 : S16x32000.Slices ![12, 0] S1x32000
  inb_S16x32000_S1x32000_0_0 : ∀ a, (![0, 0] : Fin 2 → Nat) a + S1x32000.size a ≤ S16x32000.size a
  h_S1x32000 : 0 < S1x32000.numel
  shapeCasts_S32000_S1x32000 : S32000.ShapeCasts S1x32000
  slices_S16x32000_o1_0_S1x32000 : S16x32000.Slices ![1, 0] S1x32000
  slices_S16x32000_o5_0_S1x32000 : S16x32000.Slices ![5, 0] S1x32000
  slices_S16x32000_o9_0_S1x32000 : S16x32000.Slices ![9, 0] S1x32000
  slices_S16x32000_o13_0_S1x32000 : S16x32000.Slices ![13, 0] S1x32000
  inb_S16x32000_S1x32000_1_0 : ∀ a, (![1, 0] : Fin 2 → Nat) a + S1x32000.size a ≤ S16x32000.size a
  slices_S16x32000_o2_0_S1x32000 : S16x32000.Slices ![2, 0] S1x32000
  slices_S16x32000_o6_0_S1x32000 : S16x32000.Slices ![6, 0] S1x32000
  slices_S16x32000_o10_0_S1x32000 : S16x32000.Slices ![10, 0] S1x32000
  slices_S16x32000_o14_0_S1x32000 : S16x32000.Slices ![14, 0] S1x32000
  inb_S16x32000_S1x32000_2_0 : ∀ a, (![2, 0] : Fin 2 → Nat) a + S1x32000.size a ≤ S16x32000.size a
  slices_S16x32000_o3_0_S1x32000 : S16x32000.Slices ![3, 0] S1x32000
  slices_S16x32000_o7_0_S1x32000 : S16x32000.Slices ![7, 0] S1x32000
  slices_S16x32000_o11_0_S1x32000 : S16x32000.Slices ![11, 0] S1x32000
  slices_S16x32000_o15_0_S1x32000 : S16x32000.Slices ![15, 0] S1x32000
  inb_S16x32000_S1x32000_3_0 : ∀ a, (![3, 0] : Fin 2 → Nat) a + S1x32000.size a ≤ S16x32000.size a
  inb_S16x32000_S1x32000_4_0 : ∀ a, (![4, 0] : Fin 2 → Nat) a + S1x32000.size a ≤ S16x32000.size a
  inb_S16x32000_S1x32000_5_0 : ∀ a, (![5, 0] : Fin 2 → Nat) a + S1x32000.size a ≤ S16x32000.size a
  inb_S16x32000_S1x32000_6_0 : ∀ a, (![6, 0] : Fin 2 → Nat) a + S1x32000.size a ≤ S16x32000.size a
  inb_S16x32000_S1x32000_7_0 : ∀ a, (![7, 0] : Fin 2 → Nat) a + S1x32000.size a ≤ S16x32000.size a
  inb_S16x32000_S1x32000_8_0 : ∀ a, (![8, 0] : Fin 2 → Nat) a + S1x32000.size a ≤ S16x32000.size a
  inb_S16x32000_S1x32000_9_0 : ∀ a, (![9, 0] : Fin 2 → Nat) a + S1x32000.size a ≤ S16x32000.size a
  inb_S16x32000_S1x32000_10_0 : ∀ a, (![10, 0] : Fin 2 → Nat) a + S1x32000.size a ≤ S16x32000.size a
  inb_S16x32000_S1x32000_11_0 : ∀ a, (![11, 0] : Fin 2 → Nat) a + S1x32000.size a ≤ S16x32000.size a
  inb_S16x32000_S1x32000_12_0 : ∀ a, (![12, 0] : Fin 2 → Nat) a + S1x32000.size a ≤ S16x32000.size a
  inb_S16x32000_S1x32000_13_0 : ∀ a, (![13, 0] : Fin 2 → Nat) a + S1x32000.size a ≤ S16x32000.size a
  inb_S16x32000_S1x32000_14_0 : ∀ a, (![14, 0] : Fin 2 → Nat) a + S1x32000.size a ≤ S16x32000.size a
  inb_S16x32000_S1x32000_15_0 : ∀ a, (![15, 0] : Fin 2 → Nat) a + S1x32000.size a ≤ S16x32000.size a
  shapeCasts_S16x800000_S4x4x800000 : S16x800000.ShapeCasts S4x4x800000
  transposes_S4x4x800000_S800000x4x4_2_0_1 : S4x4x800000.Transposes [2, 0, 1] S800000x4x4
  shapeCasts_S16x1600000_S4x4x1600000 : S16x1600000.ShapeCasts S4x4x1600000
  transposes_S4x4x1600000_S1600000x4x4_2_0_1 : S4x4x1600000.Transposes [2, 0, 1] S1600000x4x4
  bcast_S_S50000x4x4 : S_.BroadcastsInDim S50000x4x4 (![] : Fin 0 → Fin S50000x4x4.rank)
  bcast_S1600000_S1600000x1_0 : S1600000.BroadcastsInDim S1600000x1 (![0] : Fin 1 → Fin S1600000x1.rank)
  shapeCasts_S800000x4x4_S12800000 : S800000x4x4.ShapeCasts S12800000
  slices_S2x12800000_S1x12800000_0_0 : S2x12800000.Slices ![0, 0] S1x12800000
  shapeCasts_S1x12800000_S12800000 : S1x12800000.ShapeCasts S12800000
  slices_S2x12800000_S1x12800000_1_0 : S2x12800000.Slices ![1, 0] S1x12800000
  slices_S2x800000_S1x800000_0_0 : S2x800000.Slices ![0, 0] S1x800000
  shapeCasts_S1x800000_S800000 : S1x800000.ShapeCasts S800000
  concatenates_S12800000_S12800000_S800000_S26400000_d0 : Shape.Concatenates [S12800000, S12800000, S800000] S26400000 0
  slices_S2x800000_S1x800000_1_0 : S2x800000.Slices ![1, 0] S1x800000
  shapeCasts_S50000x4x4_S800000 : S50000x4x4.ShapeCasts S800000
  bcast_S_S26400000 : S_.BroadcastsInDim S26400000 (![] : Fin 0 → Fin S26400000.rank)
  bcast_S26400000_S26400000x1_0 : S26400000.BroadcastsInDim S26400000x1 (![0] : Fin 1 → Fin S26400000x1.rank)
  bcast_S26400000_S1x26400000_1 : S26400000.BroadcastsInDim S1x26400000 (![1] : Fin 1 → Fin S1x26400000.rank)
  concatenates_S1x26400000_S1x26400000_S2x26400000_d0 : Shape.Concatenates [S1x26400000, S1x26400000] S2x26400000 0
  gather_S1600000x4x4_S800000x1_S800000x4x4_12_0_n_n_0_1_144_wf : GatherDims.WF S1600000x4x4 S800000x1 S800000x4x4 [1, 2] [0] [] [0] [] 1 ![1, 4, 4]
  scatter_S50000x4x4_S1600000x1_S1600000x4x4_12_0_0_1_wf : ScatterDims.WF S50000x4x4 S1600000x1 S1600000x4x4 [1, 2] [0] [0] 1
  gather_S26400000_S26400000x1_S26400000_n_0_n_n_0_1_1_wf : GatherDims.WF S26400000 S26400000x1 S26400000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x32000.size a ≤ S16x800000.size a
  hwx0_0 : ∀ i : grid0.Coords, EltTy.bits .f32 = 32 ∨ (Rect.block (s := S16x800000) S16x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x32000.size a ≤ S16x800000.size a
  hwx0_1 : ∀ i : grid0.Coords, EltTy.bits .f32 = 32 ∨ (Rect.block (s := S16x800000) S16x32000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x32000.size a ≤ S16x800000.size a
  hwx0_2 : ∀ i : grid0.Coords, EltTy.bits .f32 = 32 ∨ (Rect.block (s := S16x800000) S16x32000.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x32000.size a ≤ S16x1600000.size a
  hwx1_0 : ∀ i : grid1.Coords, EltTy.bits .f32 = 32 ∨ (Rect.block (s := S16x1600000) S16x32000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x32000.size a ≤ S16x1600000.size a
  hwx1_1 : ∀ i : grid1.Coords, EltTy.bits .f32 = 32 ∨ (Rect.block (s := S16x1600000) S16x32000.size (cc1_transform_1 i) (hinb1_1 i)).WholeWords (EltTy.packing .f32)

variable [Facts₀]

def gather_S1600000x4x4_S800000x1_S800000x4x4_12_0_n_n_0_1_144 : GatherDims S1600000x4x4 S800000x1 S800000x4x4 where
  offsetDims := [1, 2]
  collapsedSliceDims := [0]
  operandBatchingDims := []
  startIndicesBatchingDims := []
  startIndexMap := [0]
  indexVectorDim := 1
  sliceSizes := ![1, 4, 4]
  wf := gather_S1600000x4x4_S800000x1_S800000x4x4_12_0_n_n_0_1_144_wf
def scatter_S50000x4x4_S1600000x1_S1600000x4x4_12_0_0_1 : ScatterDims S50000x4x4 S1600000x1 S1600000x4x4 where
  updateWindowDims := [1, 2]
  insertedWindowDims := [0]
  scatterDimsToOperandDims := [0]
  indexVectorDim := 1
  wf := scatter_S50000x4x4_S1600000x1_S1600000x4x4_12_0_0_1_wf
def comparator_i32_i32_d0 : BitVec 32 × BitVec 32 → BitVec 32 × BitVec 32 → BitVec 1 :=
  fun l r =>
    let v2 := IntOp.cmpi .slt l.1 r.1
    v2
def gather_S26400000_S26400000x1_S26400000_n_0_n_n_0_1_1 : GatherDims S26400000 S26400000x1 S26400000 where
  offsetDims := []
  collapsedSliceDims := [0]
  operandBatchingDims := []
  startIndicesBatchingDims := []
  startIndexMap := [0]
  indexVectorDim := 1
  sliceSizes := ![1]
  wf := gather_S26400000_S26400000x1_S26400000_n_0_n_n_0_1_1_wf

abbrev win0_0 : Pipeline.Window sig grid0 :=
  Pipeline.Window.ofSpec (Memref.whole main_v15) S16x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S16x32000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S16x32000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v19) S16x32000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S16x32000.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S1600000x4x4 : Shape := ⟨3, ![1600000, 4, 4]⟩
abbrev S800000 : Shape := ⟨1, ![800000]⟩
abbrev S1600000 : Shape := ⟨1, ![1600000]⟩
abbrev S2x12800000 : Shape := ⟨2, ![2, 12800000]⟩
abbrev S2x800000 : Shape := ⟨2, ![2, 800000]⟩
abbrev S_ : Shape := ⟨0, ![]⟩
abbrev S800000x1 : Shape := ⟨2, ![800000, 1]⟩
abbrev S800000x4x4 : Shape := ⟨3, ![800000, 4, 4]⟩
abbrev S50000x4x4 : Shape := ⟨3, ![50000, 4, 4]⟩
abbrev S1600000x1 : Shape := ⟨2, ![1600000, 1]⟩
abbrev S12800000 : Shape := ⟨1, ![12800000]⟩
abbrev S1x12800000 : Shape := ⟨2, ![1, 12800000]⟩
abbrev S1x800000 : Shape := ⟨2, ![1, 800000]⟩
abbrev S26400000 : Shape := ⟨1, ![26400000]⟩
abbrev S26400000x1 : Shape := ⟨2, ![26400000, 1]⟩
abbrev S1x26400000 : Shape := ⟨2, ![1, 26400000]⟩
abbrev S2x26400000 : Shape := ⟨2, ![2, 26400000]⟩

abbrev nBuf : Space → Nat
  | .hbm => 102
  | .vmem => 0
  | .smem => 0
  | _ => 0

abbrev bufTy : (tb : Table) → Fin (tcTables nBuf tb) → BufTy
  | .hbm, ⟨0, _⟩ => ⟨S1600000x4x4, .f32⟩
  | .hbm, ⟨1, _⟩ => ⟨S800000, .i32⟩
  | .hbm, ⟨2, _⟩ => ⟨S800000, .i32⟩
  | .hbm, ⟨3, _⟩ => ⟨S1600000, .i32⟩
  | .hbm, ⟨4, _⟩ => ⟨S2x12800000, .i32⟩
  | .hbm, ⟨5, _⟩ => ⟨S2x800000, .i32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x4x4, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x4x4, .f32⟩
  | .hbm, ⟨24, _⟩ => ⟨S800000x4x4, .f32⟩
  | .hbm, ⟨25, _⟩ => ⟨S800000x4x4, .f32⟩
  | .hbm, ⟨26, _⟩ => ⟨S1600000x4x4, .f32⟩
  | .hbm, ⟨27, _⟩ => ⟨S_, .f32⟩
  | .hbm, ⟨28, _⟩ => ⟨S50000x4x4, .f32⟩
  | .hbm, ⟨29, _⟩ => ⟨S1600000x1, .i32⟩
  | .hbm, ⟨30, _⟩ => ⟨S50000x4x4, .f32⟩
  | .hbm, ⟨31, _⟩ => ⟨S12800000, .f32⟩
  | .hbm, ⟨32, _⟩ => ⟨S1x12800000, .i32⟩
  | .hbm, ⟨33, _⟩ => ⟨S12800000, .i32⟩
  | .hbm, ⟨34, _⟩ => ⟨S1x12800000, .i32⟩
  | .hbm, ⟨35, _⟩ => ⟨S12800000, .i32⟩
  | .hbm, ⟨36, _⟩ => ⟨S1x800000, .i32⟩
  | .hbm, ⟨37, _⟩ => ⟨S800000, .i32⟩
  | .hbm, ⟨38, _⟩ => ⟨S26400000, .i32⟩
  | .hbm, ⟨39, _⟩ => ⟨S1x12800000, .i32⟩
  | .hbm, ⟨40, _⟩ => ⟨S12800000, .i32⟩
  | .hbm, ⟨41, _⟩ => ⟨S1x12800000, .i32⟩
  | .hbm, ⟨42, _⟩ => ⟨S12800000, .i32⟩
  | .hbm, ⟨43, _⟩ => ⟨S1x800000, .i32⟩
  | .hbm, ⟨44, _⟩ => ⟨S800000, .i32⟩
  | .hbm, ⟨45, _⟩ => ⟨S26400000, .i32⟩
  | .hbm, ⟨46, _⟩ => ⟨S800000, .f32⟩
  | .hbm, ⟨47, _⟩ => ⟨S26400000, .f32⟩
  | .hbm, ⟨48, _⟩ => ⟨S26400000, .i32⟩
  | .hbm, ⟨49, _⟩ => ⟨S26400000, .i32⟩
  | .hbm, ⟨50, _⟩ => ⟨S26400000, .i32⟩
  | .hbm, ⟨51, _⟩ => ⟨S_, .i32⟩
  | .hbm, ⟨52, _⟩ => ⟨S26400000, .i32⟩
  | .hbm, ⟨53, _⟩ => ⟨S26400000, .i1⟩
  | .hbm, ⟨54, _⟩ => ⟨S_, .i32⟩
  | .hbm, ⟨55, _⟩ => ⟨S26400000, .i32⟩
  | .hbm, ⟨56, _⟩ => ⟨S26400000, .i32⟩
  | .hbm, ⟨57, _⟩ => ⟨S26400000, .i32⟩
  | .hbm, ⟨58, _⟩ => ⟨S26400000x1, .i32⟩
  | .hbm, ⟨59, _⟩ => ⟨S26400000, .i32⟩
  | .hbm, ⟨60, _⟩ => ⟨S26400000, .i32⟩
  | .hbm, ⟨61, _⟩ => ⟨S26400000, .i32⟩
  | .hbm, ⟨62, _⟩ => ⟨S26400000, .i32⟩
  | .hbm, ⟨63, _⟩ => ⟨S_, .i32⟩
  | .hbm, ⟨64, _⟩ => ⟨S26400000, .i32⟩
  | .hbm, ⟨65, _⟩ => ⟨S26400000, .i1⟩
  | .hbm, ⟨66, _⟩ => ⟨S_, .i32⟩
  | .hbm, ⟨67, _⟩ => ⟨S26400000, .i32⟩
  | .hbm, ⟨68, _⟩ => ⟨S26400000, .i32⟩
  | .hbm, ⟨69, _⟩ => ⟨S26400000, .i32⟩
  | .hbm, ⟨70, _⟩ => ⟨S26400000x1, .i32⟩
  | .hbm, ⟨71, _⟩ => ⟨S26400000, .i32⟩
  | .hbm, ⟨72, _⟩ => ⟨S_, .i32⟩
  | .hbm, ⟨73, _⟩ => ⟨S26400000, .i32⟩
  | .hbm, ⟨74, _⟩ => ⟨S26400000, .i1⟩
  | .hbm, ⟨75, _⟩ => ⟨S_, .i32⟩
  | .hbm, ⟨76, _⟩ => ⟨S26400000, .i32⟩
  | .hbm, ⟨77, _⟩ => ⟨S26400000, .i32⟩
  | .hbm, ⟨78, _⟩ => ⟨S26400000, .i32⟩
  | .hbm, ⟨79, _⟩ => ⟨S26400000x1, .i32⟩
  | .hbm, ⟨80, _⟩ => ⟨S26400000, .i32⟩
  | .hbm, ⟨81, _⟩ => ⟨S_, .i32⟩
  | .hbm, ⟨82, _⟩ => ⟨S26400000, .i32⟩
  | .hbm, ⟨83, _⟩ => ⟨S26400000, .i1⟩
  | .hbm, ⟨84, _⟩ => ⟨S_, .i32⟩
  | .hbm, ⟨85, _⟩ => ⟨S26400000, .i32⟩
  | .hbm, ⟨86, _⟩ => ⟨S26400000, .i32⟩
  | .hbm, ⟨87, _⟩ => ⟨S26400000, .i32⟩
  | .hbm, ⟨88, _⟩ => ⟨S26400000x1, .i32⟩
  | .hbm, ⟨89, _⟩ => ⟨S26400000, .i32⟩
  | .hbm, ⟨90, _⟩ => ⟨S1x26400000, .i32⟩
  | .hbm, ⟨91, _⟩ => ⟨S1x26400000, .i32⟩
  | .hbm, ⟨92, _⟩ => ⟨S2x26400000, .i32⟩
  | .hbm, ⟨93, _⟩ => ⟨S_, .i32⟩
  | .hbm, ⟨94, _⟩ => ⟨S26400000, .i32⟩
  | .hbm, ⟨95, _⟩ => ⟨S26400000, .i1⟩
  | .hbm, ⟨96, _⟩ => ⟨S_, .i32⟩
  | .hbm, ⟨97, _⟩ => ⟨S26400000, .i32⟩
  | .hbm, ⟨98, _⟩ => ⟨S26400000, .i32⟩
  | .hbm, ⟨99, _⟩ => ⟨S26400000, .i32⟩
  | .hbm, ⟨100, _⟩ => ⟨S26400000x1, .i32⟩
  | .hbm, ⟨101, _⟩ => ⟨S26400000, .f32⟩
  | _, _ => ⟨S1600000x4x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_call0_v0 : Ref sig .tc := ⟨.hbm, 48, rfl⟩
abbrev main_call0_v1_0 : Ref sig .tc := ⟨.hbm, 49, rfl⟩
abbrev main_v37 : Ref sig .tc := ⟨.hbm, 50, rfl⟩
abbrev main_c_3 : Ref sig .tc := ⟨.hbm, 51, rfl⟩
abbrev main_v38 : Ref sig .tc := ⟨.hbm, 52, rfl⟩
abbrev main_v39 : Ref sig .tc := ⟨.hbm, 53, rfl⟩
abbrev main_c_4 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call1_v0 : Ref sig .tc := ⟨.hbm, 60, rfl⟩
abbrev main_call1_v1_0 : Ref sig .tc := ⟨.hbm, 61, rfl⟩
abbrev main_v45 : Ref sig .tc := ⟨.hbm, 62, rfl⟩
abbrev main_c_5 : Ref sig .tc := ⟨.hbm, 63, rfl⟩
abbrev main_v46 : Ref sig .tc := ⟨.hbm, 64, rfl⟩
abbrev main_v47 : Ref sig .tc := ⟨.hbm, 65, rfl⟩
abbrev main_c_6 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_7 : Ref sig .tc := ⟨.hbm, 72, rfl⟩
abbrev main_v53 : Ref sig .tc := ⟨.hbm, 73, rfl⟩
abbrev main_v54 : Ref sig .tc := ⟨.hbm, 74, rfl⟩
abbrev main_c_8 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_9 : Ref sig .tc := ⟨.hbm, 81, rfl⟩
abbrev main_v60 : Ref sig .tc := ⟨.hbm, 82, rfl⟩
abbrev main_v61 : Ref sig .tc := ⟨.hbm, 83, rfl⟩
abbrev main_c_10 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_11 : Ref sig .tc := ⟨.hbm, 93, rfl⟩
abbrev main_v70 : Ref sig .tc := ⟨.hbm, 94, rfl⟩
abbrev main_v71 : Ref sig .tc := ⟨.hbm, 95, rfl⟩
abbrev main_c_12 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x4x4 : S_.BroadcastsInDim S50000x4x4 (![] : Fin 0 → Fin S50000x4x4.rank)
  bcast_S1600000_S1600000x1_0 : S1600000.BroadcastsInDim S1600000x1 (![0] : Fin 1 → Fin S1600000x1.rank)
  shapeCasts_S800000x4x4_S12800000 : S800000x4x4.ShapeCasts S12800000
  slices_S2x12800000_S1x12800000_0_0 : S2x12800000.Slices ![0, 0] S1x12800000
  shapeCasts_S1x12800000_S12800000 : S1x12800000.ShapeCasts S12800000
  slices_S2x12800000_S1x12800000_1_0 : S2x12800000.Slices ![1, 0] S1x12800000
  slices_S2x800000_S1x800000_0_0 : S2x800000.Slices ![0, 0] S1x800000
  shapeCasts_S1x800000_S800000 : S1x800000.ShapeCasts S800000
  concatenates_S12800000_S12800000_S800000_S26400000_d0 : Shape.Concatenates [S12800000, S12800000, S800000] S26400000 0
  slices_S2x800000_S1x800000_1_0 : S2x800000.Slices ![1, 0] S1x800000
  shapeCasts_S50000x4x4_S800000 : S50000x4x4.ShapeCasts S800000
  bcast_S_S26400000 : S_.BroadcastsInDim S26400000 (![] : Fin 0 → Fin S26400000.rank)
  bcast_S26400000_S26400000x1_0 : S26400000.BroadcastsInDim S26400000x1 (![0] : Fin 1 → Fin S26400000x1.rank)
  bcast_S26400000_S1x26400000_1 : S26400000.BroadcastsInDim S1x26400000 (![1] : Fin 1 → Fin S1x26400000.rank)
  concatenates_S1x26400000_S1x26400000_S2x26400000_d0 : Shape.Concatenates [S1x26400000, S1x26400000] S2x26400000 0
  gather_S1600000x4x4_S800000x1_S800000x4x4_12_0_n_n_0_1_144_wf : GatherDims.WF S1600000x4x4 S800000x1 S800000x4x4 [1, 2] [0] [] [0] [] 1 ![1, 4, 4]
  dot_S800000x4x4_S800000x4x4_S800000x4x4_1_1_2_2_0_0_wf : DotDims.WF S800000x4x4 S800000x4x4 S800000x4x4 [1] [1] [2] [2] [0] [0]
  dot_S1600000x4x4_S1600000x4x4_S1600000x4x4_1_1_2_2_0_0_wf : DotDims.WF S1600000x4x4 S1600000x4x4 S1600000x4x4 [1] [1] [2] [2] [0] [0]
  scatter_S50000x4x4_S1600000x1_S1600000x4x4_12_0_0_1_wf : ScatterDims.WF S50000x4x4 S1600000x1 S1600000x4x4 [1, 2] [0] [0] 1
  gather_S26400000_S26400000x1_S26400000_n_0_n_n_0_1_1_wf : GatherDims.WF S26400000 S26400000x1 S26400000 [] [0] [] [0] [] 1 ![1]

variable [Facts₀]

def gather_S1600000x4x4_S800000x1_S800000x4x4_12_0_n_n_0_1_144 : GatherDims S1600000x4x4 S800000x1 S800000x4x4 where
  offsetDims := [1, 2]
  collapsedSliceDims := [0]
  operandBatchingDims := []
  startIndicesBatchingDims := []
  startIndexMap := [0]
  indexVectorDim := 1
  sliceSizes := ![1, 4, 4]
  wf := gather_S1600000x4x4_S800000x1_S800000x4x4_12_0_n_n_0_1_144_wf
def dot_S800000x4x4_S800000x4x4_S800000x4x4_1_1_2_2_0_0 : DotDims S800000x4x4 S800000x4x4 S800000x4x4 where
  lhsContracting := [1]
  rhsContracting := [1]
  lhsNonContracting := [2]
  rhsNonContracting := [2]
  lhsBatch := [0]
  rhsBatch := [0]
  wf := dot_S800000x4x4_S800000x4x4_S800000x4x4_1_1_2_2_0_0_wf
def dot_S1600000x4x4_S1600000x4x4_S1600000x4x4_1_1_2_2_0_0 : DotDims S1600000x4x4 S1600000x4x4 S1600000x4x4 where
  lhsContracting := [1]
  rhsContracting := [1]
  lhsNonContracting := [2]
  rhsNonContracting := [2]
  lhsBatch := [0]
  rhsBatch := [0]
  wf := dot_S1600000x4x4_S1600000x4x4_S1600000x4x4_1_1_2_2_0_0_wf
def scatter_S50000x4x4_S1600000x1_S1600000x4x4_12_0_0_1 : ScatterDims S50000x4x4 S1600000x1 S1600000x4x4 where
  updateWindowDims := [1, 2]
  insertedWindowDims := [0]
  scatterDimsToOperandDims := [0]
  indexVectorDim := 1
  wf := scatter_S50000x4x4_S1600000x1_S1600000x4x4_12_0_0_1_wf
def comparator_i32_i32_d0 : BitVec 32 × BitVec 32 → BitVec 32 × BitVec 32 → BitVec 1 :=
  fun l r =>
    let v2 := IntOp.cmpi .slt l.1 r.1
    v2
def gather_S26400000_S26400000x1_S26400000_n_0_n_n_0_1_1 : GatherDims S26400000 S26400000x1 S26400000 where
  offsetDims := []
  collapsedSliceDims := [0]
  operandBatchingDims := []
  startIndicesBatchingDims := []
  startIndexMap := [0]
  indexVectorDim := 1
  sliceSizes := ![1]
  wf := gather_S26400000_S26400000x1_S26400000_n_0_n_n_0_1_1_wf

class Facts : Prop extends Facts₀ where

variable [Facts]
-- ==== Proof.KOut.lean ====
import proofs.«133138_j18459769438526_1_alg».proof.Proof.Gen.Kernel.Launch
import proofs.«133138_j18459769438526_1_alg».proof.Proof.Gen.Kernel.Skeleton
import proofs.«133138_j18459769438526_1_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! # The two kernels' blocks, stored rows and proof data

Both kernels see a 16 × 32000 block of each operand: row `4·i + j` of a block holds entry `(i, j)` of the 4 × 4
matrices of 32000 consecutive edges, one edge per lane. Each kernel writes its result block one row at a time: row
`4·j + k` is the lane-wise sum over `i` of row `4·i + j` of the first operand times row `4·i + k` of the second
(the first kernel negates it; the second kernel's two operands are the same block). -/

section Regions
-- the TensorCore's buffer contents when a region is entered
variable (V : (c : Dev nD) → (b : Ref sig .tc) → Buf (Elt F) ((c : Thread nD τ).loc b))

/-- The whole 16 × 32000 block, as the rectangle both kernels load. -/
abbrev rF : Rect S16x32000 := Rect.unit (s := S16x32000) ![0, 0] S16x32000.size inb_S16x32000_S16x32000_0_0
/-- Row 0 of the block: the rectangle store 0 writes. -/
abbrev row0 : Rect S16x32000 := Rect.unit (s := S16x32000) ![0, 0] S1x32000.size inb_S16x32000_S1x32000_0_0
/-- Row 1 of the block: the rectangle store 1 writes. -/
abbrev row1 : Rect S16x32000 := Rect.unit (s := S16x32000) ![1, 0] S1x32000.size inb_S16x32000_S1x32000_1_0
/-- Row 2 of the block: the rectangle store 2 writes. -/
abbrev row2 : Rect S16x32000 := Rect.unit (s := S16x32000) ![2, 0] S1x32000.size inb_S16x32000_S1x32000_2_0
/-- Row 3 of the block: the rectangle store 3 writes. -/
abbrev row3 : Rect S16x32000 := Rect.unit (s := S16x32000) ![3, 0] S1x32000.size inb_S16x32000_S1x32000_3_0
/-- Row 4 of the block: the rectangle store 4 writes. -/
abbrev row4 : Rect S16x32000 := Rect.unit (s := S16x32000) ![4, 0] S1x32000.size inb_S16x32000_S1x32000_4_0
/-- Row 5 of the block: the rectangle store 5 writes. -/
abbrev row5 : Rect S16x32000 := Rect.unit (s := S16x32000) ![5, 0] S1x32000.size inb_S16x32000_S1x32000_5_0
/-- Row 6 of the block: the rectangle store 6 writes. -/
abbrev row6 : Rect S16x32000 := Rect.unit (s := S16x32000) ![6, 0] S1x32000.size inb_S16x32000_S1x32000_6_0
/-- Row 7 of the block: the rectangle store 7 writes. -/
abbrev row7 : Rect S16x32000 := Rect.unit (s := S16x32000) ![7, 0] S1x32000.size inb_S16x32000_S1x32000_7_0
/-- Row 8 of the block: the rectangle store 8 writes. -/
abbrev row8 : Rect S16x32000 := Rect.unit (s := S16x32000) ![8, 0] S1x32000.size inb_S16x32000_S1x32000_8_0
/-- Row 9 of the block: the rectangle store 9 writes. -/
abbrev row9 : Rect S16x32000 := Rect.unit (s := S16x32000) ![9, 0] S1x32000.size inb_S16x32000_S1x32000_9_0
/-- Row 10 of the block: the rectangle store 10 writes. -/
abbrev row10 : Rect S16x32000 := Rect.unit (s := S16x32000) ![10, 0] S1x32000.size inb_S16x32000_S1x32000_10_0
/-- Row 11 of the block: the rectangle store 11 writes. -/
abbrev row11 : Rect S16x32000 := Rect.unit (s := S16x32000) ![11, 0] S1x32000.size inb_S16x32000_S1x32000_11_0
/-- Row 12 of the block: the rectangle store 12 writes. -/
abbrev row12 : Rect S16x32000 := Rect.unit (s := S16x32000) ![12, 0] S1x32000.size inb_S16x32000_S1x32000_12_0
/-- Row 13 of the block: the rectangle store 13 writes. -/
abbrev row13 : Rect S16x32000 := Rect.unit (s := S16x32000) ![13, 0] S1x32000.size inb_S16x32000_S1x32000_13_0
/-- Row 14 of the block: the rectangle store 14 writes. -/
abbrev row14 : Rect S16x32000 := Rect.unit (s := S16x32000) ![14, 0] S1x32000.size inb_S16x32000_S1x32000_14_0
/-- Row 15 of the block: the rectangle store 15 writes. -/
abbrev row15 : Rect S16x32000 := Rect.unit (s := S16x32000) ![15, 0] S1x32000.size inb_S16x32000_S1x32000_15_0

/-! ## The first kernel (the negated product of the two gathered operands) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The result block after the body, from the two operand blocks: its sixteen row stores as pieces, last first. -/
def out0_2 (x0 x1 : Vec F S16x32000 .f32) : Vec F S16x32000 .f32 :=
  View.canon [
    ⟨row15, k0_pay2 (k0_pay3 (View.ld x0 rF)) (k0_pay4 (View.ld x1 rF))⟩,
    ⟨row14, k0_pay1 (k0_pay30 (k0_pay3 (View.ld x0 rF)) (k0_pay4 (View.ld x1 rF)))⟩,
    ⟨row13, k0_pay29 (k0_pay3 (View.ld x0 rF)) (k0_pay4 (View.ld x1 rF))⟩,
    ⟨row12, k0_pay28 (k0_pay27 (k0_pay3 (View.ld x0 rF)) (k0_pay4 (View.ld x1 rF)))⟩,
    ⟨row11, k0_pay26 (k0_pay3 (View.ld x0 rF)) (k0_pay4 (View.ld x1 rF))⟩,
    ⟨row10, k0_pay25 (k0_pay3 (View.ld x0 rF)) (k0_pay4 (View.ld x1 rF))⟩,
    ⟨row9, k0_pay24 (k0_pay3 (View.ld x0 rF)) (k0_pay4 (View.ld x1 rF)) (k0_pay22 (k0_pay3 (View.ld x0 rF))) (k0_pay23 (k0_pay4 (View.ld x1 rF)))⟩,
    ⟨row8, k0_pay21 (k0_pay3 (View.ld x0 rF)) (k0_pay4 (View.ld x1 rF))⟩,
    ⟨row7, k0_pay20 (k0_pay3 (View.ld x0 rF)) (k0_pay4 (View.ld x1 rF)) (k0_pay18 (k0_pay3 (View.ld x0 rF)) (k0_pay4 (View.ld x1 rF))) (k0_pay19 (k0_pay3 (View.ld x0 rF)))⟩,
    ⟨row6, k0_pay17 (k0_pay3 (View.ld x0 rF)) (k0_pay4 (View.ld x1 rF))⟩,
    ⟨row5, k0_pay16 (k0_pay3 (View.ld x0 rF)) (k0_pay4 (View.ld x1 rF)) (k0_pay15 (k0_pay3 (View.ld x0 rF)) (k0_pay4 (View.ld x1 rF)))⟩,
    ⟨row4, k0_pay14 (k0_pay3 (View.ld x0 rF)) (k0_pay4 (View.ld x1 rF))⟩,
    ⟨row3, k0_pay13 (k0_pay3 (View.ld x0 rF)) (k0_pay4 (View.ld x1 rF)) (k0_pay10 (k0_pay3 (View.ld x0 rF)) (k0_pay4 (View.ld x1 rF))) (k0_pay11 (k0_pay3 (View.ld x0 rF))) (k0_pay12 (k0_pay4 (View.ld x1 rF)))⟩,
    ⟨row2, k0_pay9 (k0_pay3 (View.ld x0 rF)) (k0_pay4 (View.ld x1 rF))⟩,
    ⟨row1, k0_pay8 (k0_pay4 (View.ld x1 rF)) (k0_pay6 (View.ld x0 rF) (View.ld x1 rF)) (k0_pay7 (View.ld x0 rF))⟩,
    ⟨row0, k0_pay5 (View.ld x0 rF) (View.ld x1 rF)⟩]

/-- The sixteen rows tile the block, so they cover it. -/
theorem cover0_2 (p0 : Vec F S1x32000 .f32) (p1 : Vec F S1x32000 .f32) (p2 : Vec F S1x32000 .f32) (p3 : Vec F S1x32000 .f32) (p4 : Vec F S1x32000 .f32) (p5 : Vec F S1x32000 .f32) (p6 : Vec F S1x32000 .f32) (p7 : Vec F S1x32000 .f32) (p8 : Vec F S1x32000 .f32) (p9 : Vec F S1x32000 .f32) (p10 : Vec F S1x32000 .f32) (p11 : Vec F S1x32000 .f32) (p12 : Vec F S1x32000 .f32) (p13 : Vec F S1x32000 .f32) (p14 : Vec F S1x32000 .f32) (p15 : Vec F S1x32000 .f32) (y : S16x32000.Idx) :
    ∃ pc ∈ ([⟨row15, p15⟩, ⟨row14, p14⟩, ⟨row13, p13⟩, ⟨row12, p12⟩, ⟨row11, p11⟩, ⟨row10, p10⟩, ⟨row9, p9⟩, ⟨row8, p8⟩, ⟨row7, p7⟩, ⟨row6, p6⟩, ⟨row5, p5⟩, ⟨row4, p4⟩, ⟨row3, p3⟩, ⟨row2, p2⟩, ⟨row1, p1⟩, ⟨row0, p0⟩] : List (View.Piece (Elt F) S16x32000 .f32)), y ∈ pc.1.set :=
  View.cover_of_tiled [⟨row15, p15⟩, ⟨row14, p14⟩, ⟨row13, p13⟩, ⟨row12, p12⟩, ⟨row11, p11⟩, ⟨row10, p10⟩, ⟨row9, p9⟩, ⟨row8, p8⟩, ⟨row7, p7⟩, ⟨row6, p6⟩, ⟨row5, p5⟩, ⟨row4, p4⟩, ⟨row3, p3⟩, ⟨row2, p2⟩, ⟨row1, p1⟩, ⟨row0, p0⟩] S1x32000.size (by rfl) y

/-- The proof data of the first pipeline on core `c`: the arrays as the region finds them; after the body at point
    `t` each operand's buffer still at its block and the result's at `out0_2` of the two operand blocks; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## The second kernel (the product of the whole operand with itself) -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The result block after the body, from the operand block: its sixteen row stores as pieces, last first. -/
def out1_1 (x0 : Vec F S16x32000 .f32) : Vec F S16x32000 .f32 :=
  View.canon [
    ⟨row15, k1_pay2 (k1_pay3 (View.ld x0 rF))⟩,
    ⟨row14, k1_pay1 (k1_pay3 (View.ld x0 rF)) (k1_pay25 (k1_pay3 (View.ld x0 rF))) (k1_pay26 (k1_pay3 (View.ld x0 rF))) (k1_pay27 (k1_pay3 (View.ld x0 rF)))⟩,
    ⟨row13, k1_pay24 (k1_pay3 (View.ld x0 rF))⟩,
    ⟨row12, k1_pay23 (k1_pay3 (View.ld x0 rF)) (k1_pay21 (k1_pay3 (View.ld x0 rF))) (k1_pay22 (k1_pay3 (View.ld x0 rF)))⟩,
    ⟨row11, k1_pay20 (k1_pay3 (View.ld x0 rF))⟩,
    ⟨row10, k1_pay19 (k1_pay3 (View.ld x0 rF)) (k1_pay18 (k1_pay3 (View.ld x0 rF)))⟩,
    ⟨row9, k1_pay17 (k1_pay3 (View.ld x0 rF))⟩,
    ⟨row8, k1_pay16 (k1_pay3 (View.ld x0 rF)) (k1_pay14 (k1_pay3 (View.ld x0 rF))) (k1_pay15 (k1_pay3 (View.ld x0 rF)))⟩,
    ⟨row7, k1_pay13 (k1_pay3 (View.ld x0 rF))⟩,
    ⟨row6, k1_pay12 (k1_pay3 (View.ld x0 rF)) (k1_pay11 (k1_pay3 (View.ld x0 rF)))⟩,
    ⟨row5, k1_pay10 (k1_pay3 (View.ld x0 rF))⟩,
    ⟨row4, k1_pay9 (k1_pay3 (View.ld x0 rF))⟩,
    ⟨row3, k1_pay8 (k1_pay3 (View.ld x0 rF))⟩,
    ⟨row2, k1_pay7 (k1_pay3 (View.ld x0 rF))⟩,
    ⟨row1, k1_pay6 (k1_pay5 (View.ld x0 rF))⟩,
    ⟨row0, k1_pay4 (View.ld x0 rF)⟩]

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

end Regions

end Cert.Kernel.Reg

end
-- ==== Proof.KBody0.lean ====
import proofs.«133138_j18459769438526_1_alg».proof.Proof.KOut

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! # The first kernel's body: its triple and the body obligation -/

section Regions
variable (V : (c : Dev nD) → (b : Ref sig .tc) → Buf (Elt F) ((c : Thread nD τ).loc b))

set_option maxHeartbeats 1000000 in
/-- The first kernel's body on whole staging memrefs, the operands' at read contents `x0`, `x1` and the result's at
    anything, runs to the continuation holding the operands' as they were and the result's at `out0_2 x0 x1`. -/
theorem sound_kernel0 (c : Dev nD) (E : Set ℕ) (i : grid0.Coords)
    (arg1 : Memref sig .tc .vmem S16x32000 .f32) (harg1 : arg1.IsWhole) (arg2 : Memref sig .tc .vmem S16x32000 .f32) (harg2 : arg2.IsWhole)
    (arg3 : Memref sig .tc .vmem S16x32000 .f32) (harg3 : arg3.IsWhole) (x0 x1 : Vec F S16x32000 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__contract_kernel i arg1 harg1 arg2 harg2 arg3 harg3) K := by
  simp only [cc0__contract_kernel_eq_skeleton]; unfold cc0__contract_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _ _ _ _ _ _ _ _ _ _ _ _ _ _)

/-! ## What each operand's staging buffer holds when the body runs -/

/-- The first operand's current staging buffer holds its block at every point, fetched there or not: the window is
    uncut and never idle, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The second operand's current staging buffer holds its block at every point, for the same reasons. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Reg

end
-- ==== Proof.KBody1.lean ====
import proofs.«133138_j18459769438526_1_alg».proof.Proof.KOut

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! # The second kernel's body: its triple and the body obligation -/

section Regions
variable (V : (c : Dev nD) → (b : Ref sig .tc) → Buf (Elt F) ((c : Thread nD τ).loc b))

set_option maxHeartbeats 1000000 in
/-- The second kernel's body on whole staging memrefs, the operand's at read contents `x0` and the result's at
    anything, runs to the continuation holding the operand's as it was and the result's at `out1_1 x0`. -/
theorem sound_kernel1 (c : Dev nD) (E : Set ℕ) (i : grid1.Coords)
    (arg1 : Memref sig .tc .vmem S16x32000 .f32) (harg1 : arg1.IsWhole) (arg2 : Memref sig .tc .vmem S16x32000 .f32) (harg2 : arg2.IsWhole)
    (x0 : Vec F S16x32000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__self_contract_kernel i arg1 harg1 arg2 harg2) K := by
  simp only [cc1__self_contract_kernel_eq_skeleton]; unfold cc1__self_contract_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_2 _ _ _ _ _ _ _ _ _ _ _ _ _ _ _ _)

/-! ## What the operand's staging buffer holds when the body runs -/

/-- The operand's current staging buffer holds its block at every point, fetched there or not: the window is
    uncut and never idle, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the operand's memref holds its block, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Reg

end
-- ==== Proof.KRun.lean ====
import proofs.«133138_j18459769438526_1_alg».proof.Proof.Gen.Kernel.Launch
import proofs.«133138_j18459769438526_1_alg».proof.Proof.Gen.Kernel.Skeleton
import proofs.«133138_j18459769438526_1_alg».proof.Proof.Gen.Kernel.Points
import proofs.«133138_j18459769438526_1_alg».proof.Proof.Gen.Kernel.Regions
import proofs.«133138_j18459769438526_1_alg».proof.Proof.KOut
import proofs.«133138_j18459769438526_1_alg».proof.Proof.KBody0
import proofs.«133138_j18459769438526_1_alg».proof.Proof.KBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen Cert.Kernel.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)

variable {F : FTy → Type} [FloatOps F]

local notation "𝕄" => MT nD τ sig Unit (Elt F) ℕ (UR sig nD τ) ℕ

/-! # The run of @main: two kernel regions among stretches of host operations

Between two items of @main every unscoped buffer is held whole at a known valuation. The first region leaves its result
array (the negated products) at what its twenty-five write-backs fold to, the second its result (the self-products) at
what its fifty leave; no other buffer changes in a region. Each region enters by splitting its windows' arrays out of
the held buffers and leaves by putting them back. -/

variable (m : (ℓ : Loc nD τ sig) → Buf (Elt F) ℓ) (ρ : Dev nD → PrngReg)

/-- The buffers as the first region finds them, at the TensorCore's references. -/
abbrev E1 : (c : Dev nD) → (b : Ref sig .tc) → Buf (Elt F) ((c : Thread nD τ).loc b) := fun c b => V1 m c b

/-- What the first region leaves in its result array: its write-backs folded over the grid. -/
def X0 (c : Dev nD) : Buf (Elt F) ((c : Thread nD τ).loc main_v20) := (dat0 (E1 m) c).arrAt 2 cfg0.N

/-- The buffers between the two regions. -/
def Vmid (c : Dev nD) : Valuation τ sig (Elt F) := Function.update (V1 m c) main_v20 (X0 m c)

/-- The same at the TensorCore's references: what the second region finds. -/
abbrev E2 : (c : Dev nD) → (b : Ref sig .tc) → Buf (Elt F) ((c : Thread nD τ).loc b) := fun c b => Vmid m c b

/-- What the second region leaves in its result array. -/
def X1 (c : Dev nD) : Buf (Elt F) ((c : Thread nD τ).loc main_v21) := (dat1 (E2 m) c).arrAt 1 cfg1.N

/-- The buffers after both regions. -/
def Vend (c : Dev nD) : Valuation τ sig (Elt F) := Function.update (Vmid m c) main_v21 (X1 m c)

/-- The contents the regions leave, as the family the valuations between items are written over. -/
def outsOf : Outs (F := F) := fun _ r c => Vend m c r

theorem outs_20 (c : Dev nD) : outsOf m 2 main_v20 c = X0 m c := by
  unfold outsOf Vend Vmid
  rw [Function.update_of_ne (StableHlo.devRef_ne_of_ne (by decide) : (Proc.devRef .tc main_v20 : DevRef τ sig) ≠ Proc.devRef .tc main_v21)]
  exact Function.update_self ..

theorem outs_21 (c : Dev nD) : outsOf m 3 main_v21 c = X1 m c := by
  unfold outsOf Vend
  exact Function.update_self ..

theorem V2_eq (c : Dev nD) : V2 m (outsOf m) c = Vmid m c := by
  unfold Vmid; rw [← outs_20]

theorem V3_eq (c : Dev nD) : V3 m (outsOf m) c = Vend m c := by
  unfold Vend; rw [← outs_21, ← V2_eq]

/-! ## The proof data family and what rides along -/

/-- Each pipeline's proof data at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-! ## The first region -/

theorem V2_v20 (c : Dev nD) : V2 m (outsOf m) c main_v20 = X0 m c :=
  (Function.update_self (Proc.devRef .tc main_v20 : DevRef τ sig) (outsOf m 2 main_v20 c) (V1 m c)).trans (outs_20 m c)

theorem hF0 (c : Dev nD) (w : Fin cfg0.W) : (dat0 (E1 m) c).arrAt w cfg0.N = V2 m (outsOf m) c (Pipeline.arrRef spec0 w) := by
  fin_cases w
  · exact ((dat0 (E1 m) c).arrAt_in 0 rfl _).trans (V2_of m (outsOf m) c main_v15 (by decide)).symm
  · exact ((dat0 (E1 m) c).arrAt_in 1 rfl _).trans (V2_of m (outsOf m) c main_v17 (by decide)).symm
  · exact (V2_v20 m c).symm

theorem hrest0 (c : Dev nD) : ∀ b, b ∉ Finset.univ.image (Pipeline.arrRef spec0) → V2 m (outsOf m) c b = V1 m c b :=
  fun b hb => V2_of m (outsOf m) c b fun h => hb (by
    rw [List.mem_singleton] at h; subst h
    exact Finset.mem_image.mpr ⟨2, Finset.mem_univ _, rfl⟩)

set_option backward.isDefEq.respectTransparency.types false in
/-- The first region over the thread state: entered from every unscoped buffer at the contents after the first host
    stretch, left with its result array at its write-backs' fold. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outsOf m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => V2 m (outsOf m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region -/

theorem V3_v21 (c : Dev nD) : V3 m (outsOf m) c main_v21 = X1 m c :=
  (Function.update_self (Proc.devRef .tc main_v21 : DevRef τ sig) (outsOf m 3 main_v21 c) (V2 m (outsOf m) c)).trans (outs_21 m c)

theorem hF1 (c : Dev nD) (w : Fin cfg1.W) : (dat1 (E2 m) c).arrAt w cfg1.N = V3 m (outsOf m) c (Pipeline.arrRef spec1 w) := by
  fin_cases w
  · refine ((dat1 (E2 m) c).arrAt_in 0 rfl _).trans ?_
    rw [V3_of m (outsOf m) c main_v19 (by decide), V2_eq]
    rfl
  · exact (V3_v21 m c).symm

theorem hrest1 (c : Dev nD) : ∀ b, b ∉ Finset.univ.image (Pipeline.arrRef spec1) → V3 m (outsOf m) c b = E2 m c b :=
  fun b hb => by
    rw [V3_of m (outsOf m) c b fun h => hb (by
      rw [List.mem_singleton] at h; subst h
      exact Finset.mem_image.mpr ⟨1, Finset.mem_univ _, rfl⟩), V2_eq]

set_option backward.isDefEq.respectTransparency.types false in
/-- The second region over the thread state: entered from the contents the first region left, left with its own
    result array at its write-backs' fold. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (V2 m (outsOf m) c) ∗ R c)
  post c := iprop(StableHlo.held (c : Thread nD τ) (Pipeline.ucRefs τ sig) (V3 m (outsOf m) c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none, V2_eq]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (fun b => V3 m (outsOf m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's resources -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((fun _ => 0 : Dev nD → CellTallies nD τ sig Unit) c) ∅ ∗ Pipeline.launchCred (fun _ => 0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : R (F := F) c ⊢ (iprop(∃ W, owes (c : Thread nD τ) (0 : CellTallies nD τ sig Unit) W) : sProp 𝕄) := by
  iintro ⟨-, HO⟩; iexact HO

/-! ## The frame -/

/-- Every weakly fair execution of @main terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond m emb₁ () 𝒱₀ L lv (fun _ _ => rfl) ρ (outsOf m) (pdats m) (fun _ => 0) (fun _ => BI.emp)
    (initOf (Pipeline.cells cfgs cellOf_inj) (Pipeline.launchToks cfgs cellOf_inj)) hu₀
    (fun _ c => R c) (hE0 ρ) hE2
    (reg0 m) (fun _ => .rfl) (fun _ => .rfl) (reg1 m) (fun _ => .rfl) (fun _ => .rfl)

end Cert.Kernel.Run

end
-- ==== Proof.IOut.lean ====
import proofs.«133138_j18459769438526_1_alg».proof.Proof.Gen.KernelIdeal.Launch
import proofs.«133138_j18459769438526_1_alg».proof.Proof.Gen.KernelIdeal.Skeleton
import proofs.«133138_j18459769438526_1_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! # The two kernels' blocks, stored rows and proof data

Both kernels see a 16 × 32000 block of each operand: row `4·i + j` of a block holds entry `(i, j)` of the 4 × 4
matrices of 32000 consecutive edges, one edge per lane. Each kernel writes its result block one row at a time: row
`4·j + k` is the lane-wise sum over `i` of row `4·i + j` of the first operand times row `4·i + k` of the second
(the first kernel negates it; the second kernel's two operands are the same block). -/

section Regions
-- the TensorCore's buffer contents when a region is entered
variable (V : (c : Dev nD) → (b : Ref sig .tc) → Buf (Elt F) ((c : Thread nD τ).loc b))

/-- The whole 16 × 32000 block, as the rectangle both kernels load. -/
abbrev rF : Rect S16x32000 := Rect.unit (s := S16x32000) ![0, 0] S16x32000.size inb_S16x32000_S16x32000_0_0
/-- Row 0 of the block: the rectangle store 0 writes. -/
abbrev row0 : Rect S16x32000 := Rect.unit (s := S16x32000) ![0, 0] S1x32000.size inb_S16x32000_S1x32000_0_0
/-- Row 1 of the block: the rectangle store 1 writes. -/
abbrev row1 : Rect S16x32000 := Rect.unit (s := S16x32000) ![1, 0] S1x32000.size inb_S16x32000_S1x32000_1_0
/-- Row 2 of the block: the rectangle store 2 writes. -/
abbrev row2 : Rect S16x32000 := Rect.unit (s := S16x32000) ![2, 0] S1x32000.size inb_S16x32000_S1x32000_2_0
/-- Row 3 of the block: the rectangle store 3 writes. -/
abbrev row3 : Rect S16x32000 := Rect.unit (s := S16x32000) ![3, 0] S1x32000.size inb_S16x32000_S1x32000_3_0
/-- Row 4 of the block: the rectangle store 4 writes. -/
abbrev row4 : Rect S16x32000 := Rect.unit (s := S16x32000) ![4, 0] S1x32000.size inb_S16x32000_S1x32000_4_0
/-- Row 5 of the block: the rectangle store 5 writes. -/
abbrev row5 : Rect S16x32000 := Rect.unit (s := S16x32000) ![5, 0] S1x32000.size inb_S16x32000_S1x32000_5_0
/-- Row 6 of the block: the rectangle store 6 writes. -/
abbrev row6 : Rect S16x32000 := Rect.unit (s := S16x32000) ![6, 0] S1x32000.size inb_S16x32000_S1x32000_6_0
/-- Row 7 of the block: the rectangle store 7 writes. -/
abbrev row7 : Rect S16x32000 := Rect.unit (s := S16x32000) ![7, 0] S1x32000.size inb_S16x32000_S1x32000_7_0
/-- Row 8 of the block: the rectangle store 8 writes. -/
abbrev row8 : Rect S16x32000 := Rect.unit (s := S16x32000) ![8, 0] S1x32000.size inb_S16x32000_S1x32000_8_0
/-- Row 9 of the block: the rectangle store 9 writes. -/
abbrev row9 : Rect S16x32000 := Rect.unit (s := S16x32000) ![9, 0] S1x32000.size inb_S16x32000_S1x32000_9_0
/-- Row 10 of the block: the rectangle store 10 writes. -/
abbrev row10 : Rect S16x32000 := Rect.unit (s := S16x32000) ![10, 0] S1x32000.size inb_S16x32000_S1x32000_10_0
/-- Row 11 of the block: the rectangle store 11 writes. -/
abbrev row11 : Rect S16x32000 := Rect.unit (s := S16x32000) ![11, 0] S1x32000.size inb_S16x32000_S1x32000_11_0
/-- Row 12 of the block: the rectangle store 12 writes. -/
abbrev row12 : Rect S16x32000 := Rect.unit (s := S16x32000) ![12, 0] S1x32000.size inb_S16x32000_S1x32000_12_0
/-- Row 13 of the block: the rectangle store 13 writes. -/
abbrev row13 : Rect S16x32000 := Rect.unit (s := S16x32000) ![13, 0] S1x32000.size inb_S16x32000_S1x32000_13_0
/-- Row 14 of the block: the rectangle store 14 writes. -/
abbrev row14 : Rect S16x32000 := Rect.unit (s := S16x32000) ![14, 0] S1x32000.size inb_S16x32000_S1x32000_14_0
/-- Row 15 of the block: the rectangle store 15 writes. -/
abbrev row15 : Rect S16x32000 := Rect.unit (s := S16x32000) ![15, 0] S1x32000.size inb_S16x32000_S1x32000_15_0

/-! ## The first kernel (the negated product of the two gathered operands) -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The result block after the body, from the two operand blocks: its sixteen row stores as pieces, last first. -/
def out0_2 (x0 x1 : Vec F S16x32000 .f32) : Vec F S16x32000 .f32 :=
  View.canon [
    ⟨row15, k0_pay2 (k0_pay3 (View.ld x0 rF)) (k0_pay4 (View.ld x1 rF))⟩,
    ⟨row14, k0_pay1 (k0_pay30 (k0_pay3 (View.ld x0 rF)) (k0_pay4 (View.ld x1 rF)))⟩,
    ⟨row13, k0_pay29 (k0_pay3 (View.ld x0 rF)) (k0_pay4 (View.ld x1 rF))⟩,
    ⟨row12, k0_pay28 (k0_pay27 (k0_pay3 (View.ld x0 rF)) (k0_pay4 (View.ld x1 rF)))⟩,
    ⟨row11, k0_pay26 (k0_pay3 (View.ld x0 rF)) (k0_pay4 (View.ld x1 rF))⟩,
    ⟨row10, k0_pay25 (k0_pay3 (View.ld x0 rF)) (k0_pay4 (View.ld x1 rF))⟩,
    ⟨row9, k0_pay24 (k0_pay3 (View.ld x0 rF)) (k0_pay4 (View.ld x1 rF)) (k0_pay22 (k0_pay3 (View.ld x0 rF))) (k0_pay23 (k0_pay4 (View.ld x1 rF)))⟩,
    ⟨row8, k0_pay21 (k0_pay3 (View.ld x0 rF)) (k0_pay4 (View.ld x1 rF))⟩,
    ⟨row7, k0_pay20 (k0_pay3 (View.ld x0 rF)) (k0_pay4 (View.ld x1 rF)) (k0_pay18 (k0_pay3 (View.ld x0 rF)) (k0_pay4 (View.ld x1 rF))) (k0_pay19 (k0_pay3 (View.ld x0 rF)))⟩,
    ⟨row6, k0_pay17 (k0_pay3 (View.ld x0 rF)) (k0_pay4 (View.ld x1 rF))⟩,
    ⟨row5, k0_pay16 (k0_pay3 (View.ld x0 rF)) (k0_pay4 (View.ld x1 rF)) (k0_pay15 (k0_pay3 (View.ld x0 rF)) (k0_pay4 (View.ld x1 rF)))⟩,
    ⟨row4, k0_pay14 (k0_pay3 (View.ld x0 rF)) (k0_pay4 (View.ld x1 rF))⟩,
    ⟨row3, k0_pay13 (k0_pay3 (View.ld x0 rF)) (k0_pay4 (View.ld x1 rF)) (k0_pay10 (k0_pay3 (View.ld x0 rF)) (k0_pay4 (View.ld x1 rF))) (k0_pay11 (k0_pay3 (View.ld x0 rF))) (k0_pay12 (k0_pay4 (View.ld x1 rF)))⟩,
    ⟨row2, k0_pay9 (k0_pay3 (View.ld x0 rF)) (k0_pay4 (View.ld x1 rF))⟩,
    ⟨row1, k0_pay8 (k0_pay4 (View.ld x1 rF)) (k0_pay6 (View.ld x0 rF) (View.ld x1 rF)) (k0_pay7 (View.ld x0 rF))⟩,
    ⟨row0, k0_pay5 (View.ld x0 rF) (View.ld x1 rF)⟩]

/-- The sixteen rows tile the block, so they cover it. -/
theorem cover0_2 (p0 : Vec F S1x32000 .f32) (p1 : Vec F S1x32000 .f32) (p2 : Vec F S1x32000 .f32) (p3 : Vec F S1x32000 .f32) (p4 : Vec F S1x32000 .f32) (p5 : Vec F S1x32000 .f32) (p6 : Vec F S1x32000 .f32) (p7 : Vec F S1x32000 .f32) (p8 : Vec F S1x32000 .f32) (p9 : Vec F S1x32000 .f32) (p10 : Vec F S1x32000 .f32) (p11 : Vec F S1x32000 .f32) (p12 : Vec F S1x32000 .f32) (p13 : Vec F S1x32000 .f32) (p14 : Vec F S1x32000 .f32) (p15 : Vec F S1x32000 .f32) (y : S16x32000.Idx) :
    ∃ pc ∈ ([⟨row15, p15⟩, ⟨row14, p14⟩, ⟨row13, p13⟩, ⟨row12, p12⟩, ⟨row11, p11⟩, ⟨row10, p10⟩, ⟨row9, p9⟩, ⟨row8, p8⟩, ⟨row7, p7⟩, ⟨row6, p6⟩, ⟨row5, p5⟩, ⟨row4, p4⟩, ⟨row3, p3⟩, ⟨row2, p2⟩, ⟨row1, p1⟩, ⟨row0, p0⟩] : List (View.Piece (Elt F) S16x32000 .f32)), y ∈ pc.1.set :=
  View.cover_of_tiled [⟨row15, p15⟩, ⟨row14, p14⟩, ⟨row13, p13⟩, ⟨row12, p12⟩, ⟨row11, p11⟩, ⟨row10, p10⟩, ⟨row9, p9⟩, ⟨row8, p8⟩, ⟨row7, p7⟩, ⟨row6, p6⟩, ⟨row5, p5⟩, ⟨row4, p4⟩, ⟨row3, p3⟩, ⟨row2, p2⟩, ⟨row1, p1⟩, ⟨row0, p0⟩] S1x32000.size (by rfl) y

/-- The proof data of the first pipeline on core `c`: the arrays as the region finds them; after the body at point
    `t` each operand's buffer still at its block and the result's at `out0_2` of the two operand blocks; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-! ## The second kernel (the product of the whole operand with itself) -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The result block after the body, from the operand block: its sixteen row stores as pieces, last first. -/
def out1_1 (x0 : Vec F S16x32000 .f32) : Vec F S16x32000 .f32 :=
  View.canon [
    ⟨row15, k1_pay2 (k1_pay3 (View.ld x0 rF))⟩,
    ⟨row14, k1_pay1 (k1_pay3 (View.ld x0 rF)) (k1_pay25 (k1_pay3 (View.ld x0 rF))) (k1_pay26 (k1_pay3 (View.ld x0 rF))) (k1_pay27 (k1_pay3 (View.ld x0 rF)))⟩,
    ⟨row13, k1_pay24 (k1_pay3 (View.ld x0 rF))⟩,
    ⟨row12, k1_pay23 (k1_pay3 (View.ld x0 rF)) (k1_pay21 (k1_pay3 (View.ld x0 rF))) (k1_pay22 (k1_pay3 (View.ld x0 rF)))⟩,
    ⟨row11, k1_pay20 (k1_pay3 (View.ld x0 rF))⟩,
    ⟨row10, k1_pay19 (k1_pay3 (View.ld x0 rF)) (k1_pay18 (k1_pay3 (View.ld x0 rF)))⟩,
    ⟨row9, k1_pay17 (k1_pay3 (View.ld x0 rF))⟩,
    ⟨row8, k1_pay16 (k1_pay3 (View.ld x0 rF)) (k1_pay14 (k1_pay3 (View.ld x0 rF))) (k1_pay15 (k1_pay3 (View.ld x0 rF)))⟩,
    ⟨row7, k1_pay13 (k1_pay3 (View.ld x0 rF))⟩,
    ⟨row6, k1_pay12 (k1_pay3 (View.ld x0 rF)) (k1_pay11 (k1_pay3 (View.ld x0 rF)))⟩,
    ⟨row5, k1_pay10 (k1_pay3 (View.ld x0 rF))⟩,
    ⟨row4, k1_pay9 (k1_pay3 (View.ld x0 rF))⟩,
    ⟨row3, k1_pay8 (k1_pay3 (View.ld x0 rF))⟩,
    ⟨row2, k1_pay7 (k1_pay3 (View.ld x0 rF))⟩,
    ⟨row1, k1_pay6 (k1_pay5 (View.ld x0 rF))⟩,
    ⟨row0, k1_pay4 (View.ld x0 rF)⟩]

/-- The proof data of the second pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

end Regions

end Cert.KernelIdeal.Reg

end
-- ==== Proof.IBody0.lean ====
import proofs.«133138_j18459769438526_1_alg».proof.Proof.IOut

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! # The first kernel's body: its triple and the body obligation -/

section Regions
variable (V : (c : Dev nD) → (b : Ref sig .tc) → Buf (Elt F) ((c : Thread nD τ).loc b))

set_option maxHeartbeats 1000000 in
/-- The first kernel's body on whole staging memrefs, the operands' at read contents `x0`, `x1` and the result's at
    anything, runs to the continuation holding the operands' as they were and the result's at `out0_2 x0 x1`. -/
theorem sound_kernel0 (c : Dev nD) (E : Set ℕ) (i : grid0.Coords)
    (arg1 : Memref sig .tc .vmem S16x32000 .f32) (harg1 : arg1.IsWhole) (arg2 : Memref sig .tc .vmem S16x32000 .f32) (harg2 : arg2.IsWhole)
    (arg3 : Memref sig .tc .vmem S16x32000 .f32) (harg3 : arg3.IsWhole) (x0 x1 : Vec F S16x32000 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__contract_kernel i arg1 harg1 arg2 harg2 arg3 harg3) K := by
  simp only [cc0__contract_kernel_eq_skeleton]; unfold cc0__contract_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _ _ _ _ _ _ _ _ _ _ _ _ _ _)

/-! ## What each operand's staging buffer holds when the body runs -/

/-- The first operand's current staging buffer holds its block at every point, fetched there or not: the window is
    uncut and never idle, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The second operand's current staging buffer holds its block at every point, for the same reasons. -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the operands' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Reg

end
-- ==== Proof.IBody1.lean ====
import proofs.«133138_j18459769438526_1_alg».proof.Proof.IOut

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! # The second kernel's body: its triple and the body obligation -/

section Regions
variable (V : (c : Dev nD) → (b : Ref sig .tc) → Buf (Elt F) ((c : Thread nD τ).loc b))

set_option maxHeartbeats 1000000 in
/-- The second kernel's body on whole staging memrefs, the operand's at read contents `x0` and the result's at
    anything, runs to the continuation holding the operand's as it was and the result's at `out1_1 x0`. -/
theorem sound_kernel1 (c : Dev nD) (E : Set ℕ) (i : grid1.Coords)
    (arg1 : Memref sig .tc .vmem S16x32000 .f32) (harg1 : arg1.IsWhole) (arg2 : Memref sig .tc .vmem S16x32000 .f32) (harg2 : arg2.IsWhole)
    (x0 : Vec F S16x32000 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1_1 x0)) -∗ K ⟨⟩))
      ⊢ wp frame (wpE (defs₀ (F := F)) Variants.none c none) E (cc1__self_contract_kernel i arg1 harg1 arg2 harg2) K := by
  simp only [cc1__self_contract_kernel_eq_skeleton]; unfold cc1__self_contract_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_2 _ _ _ _ _ _ _ _ _ _ _ _ _ _ _ _)

/-! ## What the operand's staging buffer holds when the body runs -/

/-- The operand's current staging buffer holds its block at every point, fetched there or not: the window is
    uncut and never idle, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the operand's memref holds its block, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Reg

end
-- ==== Proof.IRun.lean ====
import proofs.«133138_j18459769438526_1_alg».proof.Proof.Gen.KernelIdeal.Launch
import proofs.«133138_j18459769438526_1_alg».proof.Proof.Gen.KernelIdeal.Skeleton
import proofs.«133138_j18459769438526_1_alg».proof.Proof.Gen.KernelIdeal.Points
import proofs.«133138_j18459769438526_1_alg».proof.Proof.Gen.KernelIdeal.Regions
import proofs.«133138_j18459769438526_1_alg».proof.Proof.IOut
import proofs.«133138_j18459769438526_1_alg».proof.Proof.IBody0
import proofs.«133138_j18459769438526_1_alg».proof.Proof.IBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen Cert.KernelIdeal.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)

variable {F : FTy → Type} [FloatOps F]

local notation "𝕄" => MT nD τ sig Unit (Elt F) ℕ (UR sig nD τ) ℕ

/-! # The run of @main: two kernel regions among stretches of host operations

Between two items of @main every unscoped buffer is held whole at a known valuation. The first region leaves its result
array (the negated products) at what its twenty-five write-backs fold to, the second its result (the self-products) at
what its fifty leave; no other buffer changes in a region. Each region enters by splitting its windows' arrays out of
the held buffers and leaves by putting them back. -/

variable (m : (ℓ : Loc nD τ sig) → Buf (Elt F) ℓ) (ρ : Dev nD → PrngReg)

/-- The buffers as the first region finds them, at the TensorCore's references. -/
abbrev E1 : (c : Dev nD) → (b : Ref sig .tc) → Buf (Elt F) ((c : Thread nD τ).loc b) := fun c b => V1 m c b

/-- What the first region leaves in its result array: its write-backs folded over the grid. -/
def X0 (c : Dev nD) : Buf (Elt F) ((c : Thread nD τ).loc main_v20) := (dat0 (E1 m) c).arrAt 2 cfg0.N

/-- The buffers between the two regions. -/
def Vmid (c : Dev nD) : Valuation τ sig (Elt F) := Function.update (V1 m c) main_v20 (X0 m c)

/-- The same at the TensorCore's references: what the second region finds. -/
abbrev E2 : (c : Dev nD) → (b : Ref sig .tc) → Buf (Elt F) ((c : Thread nD τ).loc b) := fun c b => Vmid m c b

/-- What the second region leaves in its result array. -/
def X1 (c : Dev nD) : Buf (Elt F) ((c : Thread nD τ).loc main_v21) := (dat1 (E2 m) c).arrAt 1 cfg1.N

/-- The buffers after both regions. -/
def Vend (c : Dev nD) : Valuation τ sig (Elt F) := Function.update (Vmid m c) main_v21 (X1 m c)

/-- The contents the regions leave, as the family the valuations between items are written over. -/
def outsOf : Outs (F := F) := fun _ r c => Vend m c r

theorem outs_20 (c : Dev nD) : outsOf m 2 main_v20 c = X0 m c := by
  unfold outsOf Vend Vmid
  rw [Function.update_of_ne (StableHlo.devRef_ne_of_ne (by decide) : (Proc.devRef .tc main_v20 : DevRef τ sig) ≠ Proc.devRef .tc main_v21)]
  exact Function.update_self ..

theorem outs_21 (c : Dev nD) : outsOf m 3 main_v21 c = X1 m c := by
  unfold outsOf Vend
  exact Function.update_self ..

theorem V2_eq (c : Dev nD) : V2 m (outsOf m) c = Vmid m c := by
  unfold Vmid; rw [← outs_20]

theorem V3_eq (c : Dev nD) : V3 m (outsOf m) c = Vend m c := by
  unfold Vend; rw [← outs_21, ← V2_eq]

/-! ## The proof data family and what rides along -/

/-- Each pipeline's proof data at its region's entry contents. -/
def pdats : (p : Fin 2) → (c : Dev nD) → Dat τ (Elt F) Unit ℕ (UR sig nD τ) ℕ (cfgs p) c
  | ⟨0, _⟩ => fun c => dat0 (E1 m) c
  | ⟨1, _⟩ => fun c => dat1 (E2 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

/-! ## The first region -/

theorem V2_v20 (c : Dev nD) : V2 m (outsOf m) c main_v20 = X0 m c :=
  (Function.update_self (Proc.devRef .tc main_v20 : DevRef τ sig) (outsOf m 2 main_v20 c) (V1 m c)).trans (outs_20 m c)

theorem hF0 (c : Dev nD) (w : Fin cfg0.W) : (dat0 (E1 m) c).arrAt w cfg0.N = V2 m (outsOf m) c (Pipeline.arrRef spec0 w) := by
  fin_cases w
  · exact ((dat0 (E1 m) c).arrAt_in 0 rfl _).trans (V2_of m (outsOf m) c main_v15 (by decide)).symm
  · exact ((dat0 (E1 m) c).arrAt_in 1 rfl _).trans (V2_of m (outsOf m) c main_v17 (by decide)).symm
  · exact (V2_v20 m c).symm

theorem hrest0 (c : Dev nD) : ∀ b, b ∉ Finset.univ.image (Pipeline.arrRef spec0) → V2 m (outsOf m) c b = V1 m c b :=
  fun b hb => V2_of m (outsOf m) c b fun h => hb (by
    rw [List.mem_singleton] at h; subst h
    exact Finset.mem_image.mpr ⟨2, Finset.mem_univ _, rfl⟩)

set_option backward.isDefEq.respectTransparency.types false in
/-- The first region over the thread state: entered from every unscoped buffer at the contents after the first host
    stretch, left with its result array at its write-backs' fold. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outsOf m) c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => V2 m (outsOf m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region -/

theorem V3_v21 (c : Dev nD) : V3 m (outsOf m) c main_v21 = X1 m c :=
  (Function.update_self (Proc.devRef .tc main_v21 : DevRef τ sig) (outsOf m 3 main_v21 c) (V2 m (outsOf m) c)).trans (outs_21 m c)

theorem hF1 (c : Dev nD) (w : Fin cfg1.W) : (dat1 (E2 m) c).arrAt w cfg1.N = V3 m (outsOf m) c (Pipeline.arrRef spec1 w) := by
  fin_cases w
  · refine ((dat1 (E2 m) c).arrAt_in 0 rfl _).trans ?_
    rw [V3_of m (outsOf m) c main_v19 (by decide), V2_eq]
    rfl
  · exact (V3_v21 m c).symm

theorem hrest1 (c : Dev nD) : ∀ b, b ∉ Finset.univ.image (Pipeline.arrRef spec1) → V3 m (outsOf m) c b = E2 m c b :=
  fun b hb => by
    rw [V3_of m (outsOf m) c b fun h => hb (by
      rw [List.mem_singleton] at h; subst h
      exact Finset.mem_image.mpr ⟨1, Finset.mem_univ _, rfl⟩), V2_eq]

set_option backward.isDefEq.respectTransparency.types false in
/-- The second region over the thread state: entered from the contents the first region left, left with its own
    result array at its write-backs' fold. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (V2 m (outsOf m) c) ∗ R c)
  post c := iprop(StableHlo.held (c : Thread nD τ) (Pipeline.ucRefs τ sig) (V3 m (outsOf m) c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none, V2_eq]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (fun b => V3 m (outsOf m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's resources -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((fun _ => 0 : Dev nD → CellTallies nD τ sig Unit) c) ∅ ∗ Pipeline.launchCred (fun _ => 0 : Dev nD → CellTallies nD τ sig Unit) c ∗ prngReg c (ρ c) ∗ (BI.emp : sProp 𝕄))) ∗ levAts L lv)
    ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : R (F := F) c ⊢ (iprop(∃ W, owes (c : Thread nD τ) (0 : CellTallies nD τ sig Unit) W) : sProp 𝕄) := by
  iintro ⟨-, HO⟩; iexact HO

/-! ## The frame -/

/-- Every weakly fair execution of @main terminates, nothing faulting, with the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond m emb₁ () 𝒱₀ L lv (fun _ _ => rfl) ρ (outsOf m) (pdats m) (fun _ => 0) (fun _ => BI.emp)
    (initOf (Pipeline.cells cfgs cellOf_inj) (Pipeline.launchToks cfgs cellOf_inj)) hu₀
    (fun _ c => R c) (hE0 ρ) hE2
    (reg0 m) (fun _ => .rfl) (fun _ => .rfl) (reg1 m) (fun _ => .rfl) (fun _ => .rfl)

/-! ## The run with every buffer's final contents

The same launch as the frame's, read at the end for EVERY unscoped buffer: each holds what the last valuation gives it. -/

/-- Nothing is due at the launch, and no ghost resource rides along. -/
abbrev O₀ : Dev nD → CellTallies nD τ sig Unit := fun _ => 0
abbrev G₀ : Dev nD → sProp 𝕄 := fun _ => BI.emp

/-- Two families held core by core are their product held core by core. -/
theorem bigSep_sep_join (A B : Dev nD → sProp 𝕄) :
    iprop(bigSep Finset.univ A ∗ bigSep Finset.univ B) ⊢ (bigSep Finset.univ fun c => iprop(A c ∗ B c) : sProp 𝕄) := by
  rw [bigSep_sep']

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem ((c : Thread nD τ).1, b) = V8 m (outsOf m) c b) := by
  refine Pipeline.θ_run_regions_kit_dev (pcfgs (F := F)) adm (pdats m) () cellOf_inj emb₁ defs₀ 𝒱₀ L lv m ρ main
    (segs m (outsOf m) 𝒱₀ L lv (fun _ c => R c) () (pdats m) (reg0 m) (reg1 m))
    (fun c Q => by
      rewrite [main_chain c, Seg.run_eq_chain,
        show (segs m (outsOf m) 𝒱₀ L lv (fun _ c => R c) () (pdats m) (reg0 m) (reg1 m) c).map Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2,
          StableHlo.seq hostOps2_3,
          StableHlo.seq hostOps2_4 ] from rfl]
      exact .rfl)
    (fun c => by simp only [segs, Seg.pipes_host, Seg.pipes_region, Seg.pipes_nil]; decide) O₀ (fun _ _ => rfl) G₀
    (initOf (Pipeline.cells cfgs cellOf_inj) (Pipeline.launchToks cfgs cellOf_inj)) hu₀
    (T₀ := fun c => iprop(StableHlo.held (c : Thread nD τ) (Pipeline.ucRefs τ sig) (V0 m c) ∗ R c))
    (Tₙ := fun c => StableHlo.held (c : Thread nD τ) (Pipeline.ucRefs τ sig) (V8 m (outsOf m) c))
    (hch := fun c => ⟨.rfl, .rfl, .rfl, .rfl, .rfl, .rfl, .rfl, .rfl, sep_mono .rfl (hE2 c)⟩)
    (hinit := ?_) (QY := fun c s => ∀ b ∈ Pipeline.ucRefs τ sig, s.mem ((c : Thread nD τ).1, b) = V8 m (outsOf m) c b)
    (hfin := fun c s' => ?_) (hQ := fun _ h => h)
  · -- the launch: the unscoped buffers are held at the launch memory; the rest makes what rides along on every core
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G₀ c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G₀ c))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    iapply (bigSep_sep_join (fun c : Dev nD => StableHlo.held (c : Thread nD τ) (Pipeline.ucRefs τ sig) (V0 m c)) (fun c : Dev nD => R (F := F) c))
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V8 m (outsOf m) c) s') $$ [Hh HSI]
    · isplitl [Hh] <;> iassumption
    icases Hr with ⟨%h, HSI⟩
    imodintro
    isplitr
    · ipureintro
      exact h
    · iexact HSI

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The run with the three results named: each ends at what the last valuation gives it, the arguments as launched. -/
theorem run_results : θ_run defs (onTc (τ := τ) (main (F := F))) ⟨m, fun _ => 0, ρ⟩ (fun r => ∀ c : Dev nD,
      r.2.mem ((c.tc : Thread nD τ).loc main_v78) = V8 m (outsOf m) c main_v78
      ∧ r.2.mem ((c.tc : Thread nD τ).loc main_v85) = V8 m (outsOf m) c main_v85
      ∧ r.2.mem ((c.tc : Thread nD τ).loc main_v23) = V8 m (outsOf m) c main_v23
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v78 (by decide)), h c _ (mem_uc main_v85 (by decide)), h c _ (mem_uc main_v23 (by decide)),
      (h c _ (mem_uc main_arg0 (by decide))).trans (V8_main_arg0 m (outsOf m) c),
      (h c _ (mem_uc main_arg1 (by decide))).trans (V8_main_arg1 m (outsOf m) c),
      (h c _ (mem_uc main_arg2 (by decide))).trans (V8_main_arg2 m (outsOf m) c),
      (h c _ (mem_uc main_arg3 (by decide))).trans (V8_main_arg3 m (outsOf m) c),
      (h c _ (mem_uc main_arg4 (by decide))).trans (V8_main_arg4 m (outsOf m) c),
      (h c _ (mem_uc main_arg5 (by decide))).trans (V8_main_arg5 m (outsOf m) c)⟩) (run_all m ρ)

end Cert.KernelIdeal.Run

end
-- ==== Proof.RefChain.lean ====
import proofs.«133138_j18459769438526_1_alg».proof.Proof.RefOps
import proofs.«133138_j18459769438526_1_alg».proof.Proof.RefRead
import Idealize.ShloMosaic.Lib.StableHlo.Run
import Idealize.ShloMosaic.PureOps.Ideal

/-! # The reference's run, read back stretch by stretch

The reference's @main is 96 host operations in a row. Read from the end in one piece, a result's term repeats every
shared operand (the sorted orders are read many times), so it is read in ten stretches instead: after each stretch the
few buffers later stretches read are named — the negated batched product and the self-product; the joined row, column and
value arrays; the first sorted order; the rows in that order; the second sorted order; the two results — and each is the
reference's own stage function of @main's arguments. -/

noncomputable section

namespace Cert.ReferenceIdeal.RefChain

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Operations 1–21 of @main. -/
abbrev R0 : List (HloOp τ sig (Elt F)) :=
  [ nullary main_c (constantI S_ 32 0#32),
    unary main_c main_v0 (broadcastInDim S800000 ![] bcast_S_S800000 : (⟨S_, .i32⟩ : BufTy).Contents (Elt F) → (⟨S800000, .i32⟩ : BufTy).Contents (Elt F)),
    binary main_arg1 main_v0 main_v1 (cmpi .slt : (⟨S800000, .i32⟩ : BufTy).Contents (Elt F) → (⟨S800000, .i32⟩ : BufTy).Contents (Elt F) → (⟨S800000, .i1⟩ : BufTy).Contents (Elt F)),
    nullary main_c_0 (constantI S_ 32 1600000#32),
    unary main_c_0 main_v2 (broadcastInDim S800000 ![] bcast_S_S800000 : (⟨S_, .i32⟩ : BufTy).Contents (Elt F) → (⟨S800000, .i32⟩ : BufTy).Contents (Elt F)),
    binary main_arg1 main_v2 main_v3 (addi : (⟨S800000, .i32⟩ : BufTy).Contents (Elt F) → (⟨S800000, .i32⟩ : BufTy).Contents (Elt F) → (⟨S800000, .i32⟩ : BufTy).Contents (Elt F)),
    ternary main_v1 main_v3 main_arg1 main_v4 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v4 main_v5 (broadcastInDim S800000x1 ![0] bcast_S800000_S800000x1_0 : (⟨S800000, .i32⟩ : BufTy).Contents (Elt F) → (⟨S800000x1, .i32⟩ : BufTy).Contents (Elt F)),
    binary main_arg0 main_v5 main_v6 ((fun x i => Host.gather gather_S1600000x4x4_S800000x1_S800000x4x4_12_0_n_n_0_1_144 x i) : (⟨S1600000x4x4, .f32⟩ : BufTy).Contents (Elt F) → (⟨S800000x1, .i32⟩ : BufTy).Contents (Elt F) → (⟨S800000x4x4, .f32⟩ : BufTy).Contents (Elt F)),
    nullary main_c_1 (constantI S_ 32 0#32),
    unary main_c_1 main_v7 (broadcastInDim S800000 ![] bcast_S_S800000 : (⟨S_, .i32⟩ : BufTy).Contents (Elt F) → (⟨S800000, .i32⟩ : BufTy).Contents (Elt F)),
    binary main_arg2 main_v7 main_v8 (cmpi .slt : (⟨S800000, .i32⟩ : BufTy).Contents (Elt F) → (⟨S800000, .i32⟩ : BufTy).Contents (Elt F) → (⟨S800000, .i1⟩ : BufTy).Contents (Elt F)),
    nullary main_c_2 (constantI S_ 32 1600000#32),
    unary main_c_2 main_v9 (broadcastInDim S800000 ![] bcast_S_S800000 : (⟨S_, .i32⟩ : BufTy).Contents (Elt F) → (⟨S800000, .i32⟩ : BufTy).Contents (Elt F)),
    binary main_arg2 main_v9 main_v10 (addi : (⟨S800000, .i32⟩ : BufTy).Contents (Elt F) → (⟨S800000, .i32⟩ : BufTy).Contents (Elt F) → (⟨S800000, .i32⟩ : BufTy).Contents (Elt F)),
    ternary main_v8 main_v10 main_arg2 main_v11 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v11 main_v12 (broadcastInDim S800000x1 ![0] bcast_S800000_S800000x1_0 : (⟨S800000, .i32⟩ : BufTy).Contents (Elt F) → (⟨S800000x1, .i32⟩ : BufTy).Contents (Elt F)),
    binary main_arg0 main_v12 main_v13 ((fun x i => Host.gather gather_S1600000x4x4_S800000x1_S800000x4x4_12_0_n_n_0_1_144 x i) : (⟨S1600000x4x4, .f32⟩ : BufTy).Contents (Elt F) → (⟨S800000x1, .i32⟩ : BufTy).Contents (Elt F) → (⟨S800000x4x4, .f32⟩ : BufTy).Contents (Elt F)),
    binary main_v6 main_v13 main_v14 ((fun l r => Host.dotGeneral dot_S800000x4x4_S800000x4x4_S800000x4x4_1_1_2_2_0_0 none l r) : (⟨S800000x4x4, .f32⟩ : BufTy).Contents (Elt F) → (⟨S800000x4x4, .f32⟩ : BufTy).Contents (Elt F) → (⟨S800000x4x4, .f32⟩ : BufTy).Contents (Elt F)),
    unary main_v14 main_v15 (Host.negf : (⟨S800000x4x4, .f32⟩ : BufTy).Contents (Elt F) → (⟨S800000x4x4, .f32⟩ : BufTy).Contents (Elt F)),
    binary main_arg0 main_arg0 main_v16 ((fun l r => Host.dotGeneral dot_S1600000x4x4_S1600000x4x4_S1600000x4x4_1_1_2_2_0_0 none l r) : (⟨S1600000x4x4, .f32⟩ : BufTy).Contents (Elt F) → (⟨S1600000x4x4, .f32⟩ : BufTy).Contents (Elt F) → (⟨S1600000x4x4, .f32⟩ : BufTy).Contents (Elt F)) ]

/-- Operations 22–42 of @main. -/
abbrev R1 : List (HloOp τ sig (Elt F)) :=
  [ nullary main_cst (constant S_ .f32 0x00000000#32),
    unary main_cst main_v17 (broadcastInDim S50000x4x4 ![] bcast_S_S50000x4x4 : (⟨S_, .f32⟩ : BufTy).Contents (Elt F) → (⟨S50000x4x4, .f32⟩ : BufTy).Contents (Elt F)),
    unary main_arg3 main_v18 (broadcastInDim S1600000x1 ![0] bcast_S1600000_S1600000x1_0 : (⟨S1600000, .i32⟩ : BufTy).Contents (Elt F) → (⟨S1600000x1, .i32⟩ : BufTy).Contents (Elt F)),
    ternary main_v17 main_v18 main_v16 main_v19 ((fun x i u => Host.scatterAdd scatter_S50000x4x4_S1600000x1_S1600000x4x4_12_0_0_1 x i u) : (⟨S50000x4x4, .f32⟩ : BufTy).Contents (Elt F) → (⟨S1600000x1, .i32⟩ : BufTy).Contents (Elt F) → (⟨S1600000x4x4, .f32⟩ : BufTy).Contents (Elt F) → (⟨S50000x4x4, .f32⟩ : BufTy).Contents (Elt F)),
    reshape main_v15 main_v20 rfl shapeCasts_S800000x4x4_S12800000,
    unary main_arg4 main_v21 ((extractStridedSlice S1x12800000 ![0, 0] · slices_S2x12800000_S1x12800000_0_0) : (⟨S2x12800000, .i32⟩ : BufTy).Contents (Elt F) → (⟨S1x12800000, .i32⟩ : BufTy).Contents (Elt F)),
    reshape main_v21 main_v22 rfl shapeCasts_S1x12800000_S12800000,
    unary main_arg4 main_v23 ((extractStridedSlice S1x12800000 ![1, 0] · slices_S2x12800000_S1x12800000_1_0) : (⟨S2x12800000, .i32⟩ : BufTy).Contents (Elt F) → (⟨S1x12800000, .i32⟩ : BufTy).Contents (Elt F)),
    reshape main_v23 main_v24 rfl shapeCasts_S1x12800000_S12800000,
    unary main_arg5 main_v25 ((extractStridedSlice S1x800000 ![0, 0] · slices_S2x800000_S1x800000_0_0) : (⟨S2x800000, .i32⟩ : BufTy).Contents (Elt F) → (⟨S1x800000, .i32⟩ : BufTy).Contents (Elt F)),
    reshape main_v25 main_v26 rfl shapeCasts_S1x800000_S800000,
    nary ![main_v22, main_v24, main_v26] main_v27 (fun u => concatenate S26400000 0 [⟨S12800000, u 0⟩, ⟨S12800000, u 1⟩, ⟨S800000, u 2⟩] concatenates_S12800000_S12800000_S800000_S26400000_d0),
    unary main_arg4 main_v28 ((extractStridedSlice S1x12800000 ![1, 0] · slices_S2x12800000_S1x12800000_1_0) : (⟨S2x12800000, .i32⟩ : BufTy).Contents (Elt F) → (⟨S1x12800000, .i32⟩ : BufTy).Contents (Elt F)),
    reshape main_v28 main_v29 rfl shapeCasts_S1x12800000_S12800000,
    unary main_arg4 main_v30 ((extractStridedSlice S1x12800000 ![0, 0] · slices_S2x12800000_S1x12800000_0_0) : (⟨S2x12800000, .i32⟩ : BufTy).Contents (Elt F) → (⟨S1x12800000, .i32⟩ : BufTy).Contents (Elt F)),
    reshape main_v30 main_v31 rfl shapeCasts_S1x12800000_S12800000,
    unary main_arg5 main_v32 ((extractStridedSlice S1x800000 ![1, 0] · slices_S2x800000_S1x800000_1_0) : (⟨S2x800000, .i32⟩ : BufTy).Contents (Elt F) → (⟨S1x800000, .i32⟩ : BufTy).Contents (Elt F)),
    reshape main_v32 main_v33 rfl shapeCasts_S1x800000_S800000,
    nary ![main_v29, main_v31, main_v33] main_v34 (fun u => concatenate S26400000 0 [⟨S12800000, u 0⟩, ⟨S12800000, u 1⟩, ⟨S800000, u 2⟩] concatenates_S12800000_S12800000_S800000_S26400000_d0),
    reshape main_v19 main_v35 rfl shapeCasts_S50000x4x4_S800000,
    nary ![main_v20, main_v20, main_v35] main_v36 (fun u => concatenate S26400000 0 [⟨S12800000, u 0⟩, ⟨S12800000, u 1⟩, ⟨S800000, u 2⟩] concatenates_S12800000_S12800000_S800000_S26400000_d0) ]

/-- Operations 43–45 of @main. -/
abbrev R2 : List (HloOp τ sig (Elt F)) :=
  [ TRef.nullary (TRef.of (T := ⟨S26400000, .i32⟩) main_call0_v0) (iotaInDim S26400000 32 0),
    TRef.binary (TRef.of (T := ⟨S26400000, .i32⟩) main_v34) (TRef.of (T := ⟨S26400000, .i32⟩) main_call0_v0) (TRef.of (T := ⟨S26400000, .i32⟩) main_call0_v1_0) (fun x y => (Host.sort2 S26400000 0 comparator_i32_i32_d0 x y).1),
    TRef.binary (TRef.of (T := ⟨S26400000, .i32⟩) main_v34) (TRef.of (T := ⟨S26400000, .i32⟩) main_call0_v0) (TRef.of (T := ⟨S26400000, .i32⟩) main_v37) (fun x y => (Host.sort2 S26400000 0 comparator_i32_i32_d0 x y).2) ]

/-- Operations 46–54 of @main. -/
abbrev R3 : List (HloOp τ sig (Elt F)) :=
  [ nullary main_c_3 (constantI S_ 32 0#32),
    unary main_c_3 main_v38 (broadcastInDim S26400000 ![] bcast_S_S26400000 : (⟨S_, .i32⟩ : BufTy).Contents (Elt F) → (⟨S26400000, .i32⟩ : BufTy).Contents (Elt F)),
    binary main_v37 main_v38 main_v39 (cmpi .slt : (⟨S26400000, .i32⟩ : BufTy).Contents (Elt F) → (⟨S26400000, .i32⟩ : BufTy).Contents (Elt F) → (⟨S26400000, .i1⟩ : BufTy).Contents (Elt F)),
    nullary main_c_4 (constantI S_ 32 26400000#32),
    unary main_c_4 main_v40 (broadcastInDim S26400000 ![] bcast_S_S26400000 : (⟨S_, .i32⟩ : BufTy).Contents (Elt F) → (⟨S26400000, .i32⟩ : BufTy).Contents (Elt F)),
    binary main_v37 main_v40 main_v41 (addi : (⟨S26400000, .i32⟩ : BufTy).Contents (Elt F) → (⟨S26400000, .i32⟩ : BufTy).Contents (Elt F) → (⟨S26400000, .i32⟩ : BufTy).Contents (Elt F)),
    ternary main_v39 main_v41 main_v37 main_v42 (select : (⟨S26400000, .i1⟩ : BufTy).Contents (Elt F) → (⟨S26400000, .i32⟩ : BufTy).Contents (Elt F) → (⟨S26400000, .i32⟩ : BufTy).Contents (Elt F) → (⟨S26400000, .i32⟩ : BufTy).Contents (Elt F)),
    unary main_v42 main_v43 (broadcastInDim S26400000x1 ![0] bcast_S26400000_S26400000x1_0 : (⟨S26400000, .i32⟩ : BufTy).Contents (Elt F) → (⟨S26400000x1, .i32⟩ : BufTy).Contents (Elt F)),
    binary main_v27 main_v43 main_v44 ((fun x i => Host.gather gather_S26400000_S26400000x1_S26400000_n_0_n_n_0_1_1 x i) : (⟨S26400000, .i32⟩ : BufTy).Contents (Elt F) → (⟨S26400000x1, .i32⟩ : BufTy).Contents (Elt F) → (⟨S26400000, .i32⟩ : BufTy).Contents (Elt F)) ]

/-- Operations 55–57 of @main. -/
abbrev R4 : List (HloOp τ sig (Elt F)) :=
  [ TRef.nullary (TRef.of (T := ⟨S26400000, .i32⟩) main_call1_v0) (iotaInDim S26400000 32 0),
    TRef.binary (TRef.of (T := ⟨S26400000, .i32⟩) main_v44) (TRef.of (T := ⟨S26400000, .i32⟩) main_call1_v0) (TRef.of (T := ⟨S26400000, .i32⟩) main_call1_v1_0) (fun x y => (Host.sort2 S26400000 0 comparator_i32_i32_d0 x y).1),
    TRef.binary (TRef.of (T := ⟨S26400000, .i32⟩) main_v44) (TRef.of (T := ⟨S26400000, .i32⟩) main_call1_v0) (TRef.of (T := ⟨S26400000, .i32⟩) main_v45) (fun x y => (Host.sort2 S26400000 0 comparator_i32_i32_d0 x y).2) ]

/-- Operations 58–66 of @main. -/
abbrev R5 : List (HloOp τ sig (Elt F)) :=
  [ nullary main_c_5 (constantI S_ 32 0#32),
    unary main_c_5 main_v46 (broadcastInDim S26400000 ![] bcast_S_S26400000 : (⟨S_, .i32⟩ : BufTy).Contents (Elt F) → (⟨S26400000, .i32⟩ : BufTy).Contents (Elt F)),
    binary main_v45 main_v46 main_v47 (cmpi .slt : (⟨S26400000, .i32⟩ : BufTy).Contents (Elt F) → (⟨S26400000, .i32⟩ : BufTy).Contents (Elt F) → (⟨S26400000, .i1⟩ : BufTy).Contents (Elt F)),
    nullary main_c_6 (constantI S_ 32 26400000#32),
    unary main_c_6 main_v48 (broadcastInDim S26400000 ![] bcast_S_S26400000 : (⟨S_, .i32⟩ : BufTy).Contents (Elt F) → (⟨S26400000, .i32⟩ : BufTy).Contents (Elt F)),
    binary main_v45 main_v48 main_v49 (addi : (⟨S26400000, .i32⟩ : BufTy).Contents (Elt F) → (⟨S26400000, .i32⟩ : BufTy).Contents (Elt F) → (⟨S26400000, .i32⟩ : BufTy).Contents (Elt F)),
    ternary main_v47 main_v49 main_v45 main_v50 (select : (⟨S26400000, .i1⟩ : BufTy).Contents (Elt F) → (⟨S26400000, .i32⟩ : BufTy).Contents (Elt F) → (⟨S26400000, .i32⟩ : BufTy).Contents (Elt F) → (⟨S26400000, .i32⟩ : BufTy).Contents (Elt F)),
    unary main_v50 main_v51 (broadcastInDim S26400000x1 ![0] bcast_S26400000_S26400000x1_0 : (⟨S26400000, .i32⟩ : BufTy).Contents (Elt F) → (⟨S26400000x1, .i32⟩ : BufTy).Contents (Elt F)),
    binary main_v37 main_v51 main_v52 ((fun x i => Host.gather gather_S26400000_S26400000x1_S26400000_n_0_n_n_0_1_1 x i) : (⟨S26400000, .i32⟩ : BufTy).Contents (Elt F) → (⟨S26400000x1, .i32⟩ : BufTy).Contents (Elt F) → (⟨S26400000, .i32⟩ : BufTy).Contents (Elt F)) ]

/-- Operations 67–75 of @main. -/
abbrev R6 : List (HloOp τ sig (Elt F)) :=
  [ nullary main_c_7 (constantI S_ 32 0#32),
    unary main_c_7 main_v53 (broadcastInDim S26400000 ![] bcast_S_S26400000 : (⟨S_, .i32⟩ : BufTy).Contents (Elt F) → (⟨S26400000, .i32⟩ : BufTy).Contents (Elt F)),
    binary main_v52 main_v53 main_v54 (cmpi .slt : (⟨S26400000, .i32⟩ : BufTy).Contents (Elt F) → (⟨S26400000, .i32⟩ : BufTy).Contents (Elt F) → (⟨S26400000, .i1⟩ : BufTy).Contents (Elt F)),
    nullary main_c_8 (constantI S_ 32 26400000#32),
    unary main_c_8 main_v55 (broadcastInDim S26400000 ![] bcast_S_S26400000 : (⟨S_, .i32⟩ : BufTy).Contents (Elt F) → (⟨S26400000, .i32⟩ : BufTy).Contents (Elt F)),
    binary main_v52 main_v55 main_v56 (addi : (⟨S26400000, .i32⟩ : BufTy).Contents (Elt F) → (⟨S26400000, .i32⟩ : BufTy).Contents (Elt F) → (⟨S26400000, .i32⟩ : BufTy).Contents (Elt F)),
    ternary main_v54 main_v56 main_v52 main_v57 (select : (⟨S26400000, .i1⟩ : BufTy).Contents (Elt F) → (⟨S26400000, .i32⟩ : BufTy).Contents (Elt F) → (⟨S26400000, .i32⟩ : BufTy).Contents (Elt F) → (⟨S26400000, .i32⟩ : BufTy).Contents (Elt F)),
    unary main_v57 main_v58 (broadcastInDim S26400000x1 ![0] bcast_S26400000_S26400000x1_0 : (⟨S26400000, .i32⟩ : BufTy).Contents (Elt F) → (⟨S26400000x1, .i32⟩ : BufTy).Contents (Elt F)),
    binary main_v27 main_v58 main_v59 ((fun x i => Host.gather gather_S26400000_S26400000x1_S26400000_n_0_n_n_0_1_1 x i) : (⟨S26400000, .i32⟩ : BufTy).Contents (Elt F) → (⟨S26400000x1, .i32⟩ : BufTy).Contents (Elt F) → (⟨S26400000, .i32⟩ : BufTy).Contents (Elt F)) ]

/-- Operations 76–84 of @main. -/
abbrev R7 : List (HloOp τ sig (Elt F)) :=
  [ nullary main_c_9 (constantI S_ 32 0#32),
    unary main_c_9 main_v60 (broadcastInDim S26400000 ![] bcast_S_S26400000 : (⟨S_, .i32⟩ : BufTy).Contents (Elt F) → (⟨S26400000, .i32⟩ : BufTy).Contents (Elt F)),
    binary main_v52 main_v60 main_v61 (cmpi .slt : (⟨S26400000, .i32⟩ : BufTy).Contents (Elt F) → (⟨S26400000, .i32⟩ : BufTy).Contents (Elt F) → (⟨S26400000, .i1⟩ : BufTy).Contents (Elt F)),
    nullary main_c_10 (constantI S_ 32 26400000#32),
    unary main_c_10 main_v62 (broadcastInDim S26400000 ![] bcast_S_S26400000 : (⟨S_, .i32⟩ : BufTy).Contents (Elt F) → (⟨S26400000, .i32⟩ : BufTy).Contents (Elt F)),
    binary main_v52 main_v62 main_v63 (addi : (⟨S26400000, .i32⟩ : BufTy).Contents (Elt F) → (⟨S26400000, .i32⟩ : BufTy).Contents (Elt F) → (⟨S26400000, .i32⟩ : BufTy).Contents (Elt F)),
    ternary main_v61 main_v63 main_v52 main_v64 (select : (⟨S26400000, .i1⟩ : BufTy).Contents (Elt F) → (⟨S26400000, .i32⟩ : BufTy).Contents (Elt F) → (⟨S26400000, .i32⟩ : BufTy).Contents (Elt F) → (⟨S26400000, .i32⟩ : BufTy).Contents (Elt F)),
    unary main_v64 main_v65 (broadcastInDim S26400000x1 ![0] bcast_S26400000_S26400000x1_0 : (⟨S26400000, .i32⟩ : BufTy).Contents (Elt F) → (⟨S26400000x1, .i32⟩ : BufTy).Contents (Elt F)),
    binary main_v34 main_v65 main_v66 ((fun x i => Host.gather gather_S26400000_S26400000x1_S26400000_n_0_n_n_0_1_1 x i) : (⟨S26400000, .i32⟩ : BufTy).Contents (Elt F) → (⟨S26400000x1, .i32⟩ : BufTy).Contents (Elt F) → (⟨S26400000, .i32⟩ : BufTy).Contents (Elt F)) ]

/-- Operations 85–87 of @main. -/
abbrev R8 : List (HloOp τ sig (Elt F)) :=
  [ unary main_v59 main_v67 (broadcastInDim S1x26400000 ![1] bcast_S26400000_S1x26400000_1 : (⟨S26400000, .i32⟩ : BufTy).Contents (Elt F) → (⟨S1x26400000, .i32⟩ : BufTy).Contents (Elt F)),
    unary main_v66 main_v68 (broadcastInDim S1x26400000 ![1] bcast_S26400000_S1x26400000_1 : (⟨S26400000, .i32⟩ : BufTy).Contents (Elt F) → (⟨S1x26400000, .i32⟩ : BufTy).Contents (Elt F)),
    binary main_v67 main_v68 main_v69 ((fun a b => concatenate S2x26400000 0 [⟨S1x26400000, a⟩, ⟨S1x26400000, b⟩] concatenates_S1x26400000_S1x26400000_S2x26400000_d0) : (⟨S1x26400000, .i32⟩ : BufTy).Contents (Elt F) → (⟨S1x26400000, .i32⟩ : BufTy).Contents (Elt F) → (⟨S2x26400000, .i32⟩ : BufTy).Contents (Elt F)) ]

/-- Operations 88–96 of @main. -/
abbrev R9 : List (HloOp τ sig (Elt F)) :=
  [ nullary main_c_11 (constantI S_ 32 0#32),
    unary main_c_11 main_v70 (broadcastInDim S26400000 ![] bcast_S_S26400000 : (⟨S_, .i32⟩ : BufTy).Contents (Elt F) → (⟨S26400000, .i32⟩ : BufTy).Contents (Elt F)),
    binary main_v52 main_v70 main_v71 (cmpi .slt : (⟨S26400000, .i32⟩ : BufTy).Contents (Elt F) → (⟨S26400000, .i32⟩ : BufTy).Contents (Elt F) → (⟨S26400000, .i1⟩ : BufTy).Contents (Elt F)),
    nullary main_c_12 (constantI S_ 32 26400000#32),
    unary main_c_12 main_v72 (broadcastInDim S26400000 ![] bcast_S_S26400000 : (⟨S_, .i32⟩ : BufTy).Contents (Elt F) → (⟨S26400000, .i32⟩ : BufTy).Contents (Elt F)),
    binary main_v52 main_v72 main_v73 (addi : (⟨S26400000, .i32⟩ : BufTy).Contents (Elt F) → (⟨S26400000, .i32⟩ : BufTy).Contents (Elt F) → (⟨S26400000, .i32⟩ : BufTy).Contents (Elt F)),
    ternary main_v71 main_v73 main_v52 main_v74 (select : (⟨S26400000, .i1⟩ : BufTy).Contents (Elt F) → (⟨S26400000, .i32⟩ : BufTy).Contents (Elt F) → (⟨S26400000, .i32⟩ : BufTy).Contents (Elt F) → (⟨S26400000, .i32⟩ : BufTy).Contents (Elt F)),
    unary main_v74 main_v75 (broadcastInDim S26400000x1 ![0] bcast_S26400000_S26400000x1_0 : (⟨S26400000, .i32⟩ : BufTy).Contents (Elt F) → (⟨S26400000x1, .i32⟩ : BufTy).Contents (Elt F)),
    binary main_v36 main_v75 main_v76 ((fun x i => Host.gather gather_S26400000_S26400000x1_S26400000_n_0_n_n_0_1_1 x i) : (⟨S26400000, .f32⟩ : BufTy).Contents (Elt F) → (⟨S26400000x1, .i32⟩ : BufTy).Contents (Elt F) → (⟨S26400000, .f32⟩ : BufTy).Contents (Elt F)) ]

/-- @main's operations are the ten stretches in a row. -/
theorem ops_split : (ops : List (HloOp τ sig (Elt F))) = R0 ++ (R1 ++ (R2 ++ (R3 ++ (R4 ++ (R5 ++ (R6 ++ (R7 ++ (R8 ++ R9)))))))) := rfl

/-- Running two stretches in a row is running the second from what the first leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

variable (m : (ℓ : Loc nD τ sig) → Buf (Elt F) ℓ) (c : Dev nD)

/-- The buffers after each stretch. -/
abbrev W0 : Valuation τ sig (Elt F) := launchContents m c
abbrev W1 : Valuation τ sig (Elt F) := after R0 (W0 m c)
abbrev W2 : Valuation τ sig (Elt F) := after R1 (W1 m c)
abbrev W3 : Valuation τ sig (Elt F) := after R2 (W2 m c)
abbrev W4 : Valuation τ sig (Elt F) := after R3 (W3 m c)
abbrev W5 : Valuation τ sig (Elt F) := after R4 (W4 m c)
abbrev W6 : Valuation τ sig (Elt F) := after R5 (W5 m c)
abbrev W7 : Valuation τ sig (Elt F) := after R6 (W6 m c)
abbrev W8 : Valuation τ sig (Elt F) := after R7 (W7 m c)
abbrev W9 : Valuation τ sig (Elt F) := after R8 (W8 m c)
abbrev W10 : Valuation τ sig (Elt F) := after R9 (W9 m c)

theorem after_ops : after ops (launchContents m c) = W10 m c := by
  rw [ops_split]; simp only [after_append]

end Cert.ReferenceIdeal.RefChain

end
-- ==== Proof.RefChainA.lean ====
import proofs.«133138_j18459769438526_1_alg».proof.Proof.RefChain

/-! # The first two stretches of the reference

After the first stretch the negated batched product and the self-product are the reference's stage functions of the
arguments; after the second so are the joined row, column and value arrays. -/

noncomputable section

namespace Cert.ReferenceIdeal.RefChain

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

section Three
variable {τ : Topo} {sig : RefSig} {Val : EltTy → Type} {x a b y : Ref sig .tc}
/-- A three-operand operation's result with each operand's contents at its own reference. -/
theorem nary3_result
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl
end Three

/-- Reads one buffer after a stretch of host operations: each operation's result at its own buffer is its function's
    value, and at any other buffer what was there. -/
macro "stretch_results" : tactic =>
  `(tactic| (simp only [after_cons, after_nil]
             repeat (first
               | rw [nary3_result] | rw [nullary_result] | rw [unary_result] | rw [binary_result] | rw [ternary_result]
               | rw [reshape_result] | rw [nary_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

variable (m : (ℓ : Loc nD τ sig) → Buf (Elt Ideal) ℓ) (c : Dev nD)

/-! ## The first stretch -/

set_option maxHeartbeats 4000000 in
theorem w1_v15 : W1 m c (Proc.devRef .tc main_v15) = val_main_v15 (F := Ideal) (m ((c.tc : Thread nD τ).loc main_arg0)) (m ((c.tc : Thread nD τ).loc main_arg1)) (m ((c.tc : Thread nD τ).loc main_arg2)) := by
  show after R0 (launchContents m c) (Proc.devRef .tc main_v15) = _
  after_results_simp
  unfold val_main_v15 val_main_v14 val_main_v6 val_main_v5 val_main_v4 val_main_v1 val_main_v0 val_main_c val_main_v3 val_main_v2
    val_main_c_0 val_main_v13 val_main_v12 val_main_v11 val_main_v8 val_main_v7 val_main_c_1 val_main_v10 val_main_v9 val_main_c_2
  rfl

set_option maxHeartbeats 4000000 in
theorem w1_v16 : W1 m c (Proc.devRef .tc main_v16) = val_main_v16 (F := Ideal) (m ((c.tc : Thread nD τ).loc main_arg0)) := by
  show after R0 (launchContents m c) (Proc.devRef .tc main_v16) = _
  after_results_simp
  unfold val_main_v16
  rfl

set_option maxHeartbeats 4000000 in
theorem w1_arg (b : Ref sig .tc) (hb : b = main_arg0 ∨ b = main_arg1 ∨ b = main_arg2 ∨ b = main_arg3 ∨ b = main_arg4 ∨ b = main_arg5) :
    W1 m c (Proc.devRef .tc b) = m ((c.tc : Thread nD τ).loc b) := by
  show after R0 (launchContents m c) (Proc.devRef .tc b) = _
  rcases hb with rfl | rfl | rfl | rfl | rfl | rfl <;> (after_results_simp <;> rfl)

/-! ## The second stretch -/

section Stretch1
variable (W : Valuation τ sig (Elt Ideal))

set_option maxHeartbeats 4000000 in
/-- The joined row numbers, from the two integer index arrays. -/
theorem r1_v27 (x4 : (⟨S2x12800000, .i32⟩ : BufTy).Contents (Elt Ideal)) (x5 : (⟨S2x800000, .i32⟩ : BufTy).Contents (Elt Ideal))
    (h4 : W (Proc.devRef .tc main_arg4) = x4) (h5 : W (Proc.devRef .tc main_arg5) = x5) :
    after R1 W (Proc.devRef .tc main_v27) = val_main_v27 (F := Ideal) x4 x5 := by
  subst h4; subst h5
  stretch_results
  unfold val_main_v27 val_main_v22 val_main_v21 val_main_v24 val_main_v23 val_main_v26 val_main_v25
  rfl

set_option maxHeartbeats 4000000 in
/-- The joined column numbers. -/
theorem r1_v34 (x4 : (⟨S2x12800000, .i32⟩ : BufTy).Contents (Elt Ideal)) (x5 : (⟨S2x800000, .i32⟩ : BufTy).Contents (Elt Ideal))
    (h4 : W (Proc.devRef .tc main_arg4) = x4) (h5 : W (Proc.devRef .tc main_arg5) = x5) :
    after R1 W (Proc.devRef .tc main_v34) = val_main_v34 (F := Ideal) x4 x5 := by
  subst h4; subst h5
  stretch_results
  unfold val_main_v34 val_main_v29 val_main_v28 val_main_v31 val_main_v30 val_main_v33 val_main_v32
  rfl

set_option maxHeartbeats 4000000 in
/-- The joined values: the negated products twice, then the scatter-added self-products. -/
theorem r1_v36 (x0 : (⟨S1600000x4x4, .f32⟩ : BufTy).Contents (Elt Ideal)) (x1 x2 : (⟨S800000, .i32⟩ : BufTy).Contents (Elt Ideal))
    (x3 : (⟨S1600000, .i32⟩ : BufTy).Contents (Elt Ideal))
    (h15 : W (Proc.devRef .tc main_v15) = val_main_v15 (F := Ideal) x0 x1 x2) (h16 : W (Proc.devRef .tc main_v16) = val_main_v16 (F := Ideal) x0)
    (h3 : W (Proc.devRef .tc main_arg3) = x3) :
    after R1 W (Proc.devRef .tc main_v36) = val_main_v36 (F := Ideal) x0 x1 x2 x3 := by
  subst h3
  stretch_results
  rw [h15, h16]
  unfold val_main_v36 val_main_v20 val_main_v35 val_main_v19 val_main_v17 val_main_cst val_main_v18
  rfl

end Stretch1

theorem w2_v27 : W2 m c (Proc.devRef .tc main_v27) = val_main_v27 (F := Ideal) (m ((c.tc : Thread nD τ).loc main_arg4)) (m ((c.tc : Thread nD τ).loc main_arg5)) :=
  r1_v27 (W1 m c) _ _ (w1_arg m c main_arg4 (Or.inr (Or.inr (Or.inr (Or.inr (Or.inl rfl)))))) (w1_arg m c main_arg5 (Or.inr (Or.inr (Or.inr (Or.inr (Or.inr rfl))))))

theorem w2_v34 : W2 m c (Proc.devRef .tc main_v34) = val_main_v34 (F := Ideal) (m ((c.tc : Thread nD τ).loc main_arg4)) (m ((c.tc : Thread nD τ).loc main_arg5)) :=
  r1_v34 (W1 m c) _ _ (w1_arg m c main_arg4 (Or.inr (Or.inr (Or.inr (Or.inr (Or.inl rfl)))))) (w1_arg m c main_arg5 (Or.inr (Or.inr (Or.inr (Or.inr (Or.inr rfl))))))

theorem w2_v36 : W2 m c (Proc.devRef .tc main_v36) = val_main_v36 (F := Ideal) (m ((c.tc : Thread nD τ).loc main_arg0)) (m ((c.tc : Thread nD τ).loc main_arg1)) (m ((c.tc : Thread nD τ).loc main_arg2)) (m ((c.tc : Thread nD τ).loc main_arg3)) :=
  r1_v36 (W1 m c) _ _ _ _ (w1_v15 m c) (w1_v16 m c) (w1_arg m c main_arg3 (Or.inr (Or.inr (Or.inr (Or.inl rfl)))))

end Cert.ReferenceIdeal.RefChain

end
-- ==== Proof.LibTypedRef.lean ====
/-
  A typed reference carries the type of the tensor value its buffer holds, and moves contents between that type and
  the buffer's own type along the equation between the two.  Moving contents there and back, in either order, is
  the identity.  Nothing here knows a program.
-/
import Idealize.ShloMosaic.Lib.StableHlo

noncomputable section

namespace Cert.TypedRef

open Idealize.ShloMosaic Idealize.ShloMosaic.StableHlo

variable {sig : RefSig} {Val : EltTy → Type} {T : BufTy}

/-- Contents taken to the buffer's own type and back are the contents. -/
theorem ofBuf_toBuf (x : TRef sig T) (v : T.Contents Val) : x.ofBuf (x.toBuf v) = v := by
  obtain ⟨r, h, h1, h2⟩ := x
  subst h
  rfl

/-- Contents of the buffer taken to the value's type and back are the contents. -/
theorem toBuf_ofBuf (x : TRef sig T) (v : x.ref.ty.Contents Val) : x.toBuf (x.ofBuf v) = v := by
  obtain ⟨r, h, h1, h2⟩ := x
  subst h
  rfl

end Cert.TypedRef

end
-- ==== Proof.RefChainB.lean ====
import proofs.«133138_j18459769438526_1_alg».proof.Proof.RefChainA
import proofs.«133138_j18459769438526_1_alg».proof.Proof.LibTypedRef

/-! # The rest of the reference's stretches, and its run

Each later stretch reads a few named buffers and leaves one more: the two stable sorts, the orders taken in one another,
the rows, columns and values in the final order. A buffer a stretch does not write keeps its contents. At the end the
three results are the reference's stage functions of the arguments, and the arguments are as launched. -/

noncomputable section

namespace Cert.ReferenceIdeal.RefChain

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

section Stretches
variable (W : Valuation τ sig (Elt Ideal))

/-! ## What each stretch leaves in the buffer it is read for -/

set_option maxHeartbeats 1000000 in
/-- The first sorted order: the stable sort of the column numbers beside their positions. -/
theorem r2_v37 (x4 : (⟨S2x12800000, .i32⟩ : BufTy).Contents (Elt Ideal)) (x5 : (⟨S2x800000, .i32⟩ : BufTy).Contents (Elt Ideal))
    (h34 : W (Proc.devRef .tc main_v34) = val_main_v34 (F := Ideal) x4 x5) :
    after R2 W (Proc.devRef .tc main_v37) = val_main_v37 (F := Ideal) x4 x5 := by
  stretch_results
  try simp only [Cert.TypedRef.ofBuf_toBuf, Cert.TypedRef.toBuf_ofBuf]
  rw [h34]
  try (unfold val_main_v37 val_main_call0_v0)
  try rfl

set_option maxHeartbeats 1000000 in
/-- The row numbers taken in the first order. -/
theorem r3_v44 (x4 : (⟨S2x12800000, .i32⟩ : BufTy).Contents (Elt Ideal)) (x5 : (⟨S2x800000, .i32⟩ : BufTy).Contents (Elt Ideal))
    (h27 : W (Proc.devRef .tc main_v27) = val_main_v27 (F := Ideal) x4 x5) (h37 : W (Proc.devRef .tc main_v37) = val_main_v37 (F := Ideal) x4 x5) :
    after R3 W (Proc.devRef .tc main_v44) = val_main_v44 (F := Ideal) x4 x5 := by
  stretch_results
  try simp only [Cert.TypedRef.ofBuf_toBuf, Cert.TypedRef.toBuf_ofBuf]
  rw [h27, h37]
  try (unfold val_main_v44 val_main_v43 val_main_v42 val_main_v39 val_main_v38 val_main_c_3 val_main_v41 val_main_v40 val_main_c_4)
  try rfl

set_option maxHeartbeats 1000000 in
/-- The second sorted order, over any key array: the stable sort of the keys beside their positions. -/
theorem r4_sort (X : (⟨S26400000, .i32⟩ : BufTy).Contents (Elt Ideal)) (h44 : W (Proc.devRef .tc main_v44) = X) :
    after R4 W (Proc.devRef .tc main_v45) = (Host.sort2 S26400000 0 comparator_i32_i32_d0 X (iotaInDim S26400000 32 0)).2 := by
  stretch_results
  try simp only [Cert.TypedRef.ofBuf_toBuf, Cert.TypedRef.toBuf_ofBuf]
  rw [h44]
  try rfl

/-- The second sorted order: the stable sort of the row numbers taken in the first order. -/
theorem r4_v45 (x4 : (⟨S2x12800000, .i32⟩ : BufTy).Contents (Elt Ideal)) (x5 : (⟨S2x800000, .i32⟩ : BufTy).Contents (Elt Ideal)) (h44 : W (Proc.devRef .tc main_v44) = val_main_v44 (F := Ideal) x4 x5) :
    after R4 W (Proc.devRef .tc main_v45) = val_main_v45 (F := Ideal) x4 x5 :=
  (r4_sort W _ h44).trans (by unfold val_main_v45 val_main_call1_v0; rfl)

set_option maxHeartbeats 1000000 in
/-- The lexicographic order: the first order taken in the second. -/
theorem r5_v52 (x4 : (⟨S2x12800000, .i32⟩ : BufTy).Contents (Elt Ideal)) (x5 : (⟨S2x800000, .i32⟩ : BufTy).Contents (Elt Ideal))
    (h37 : W (Proc.devRef .tc main_v37) = val_main_v37 (F := Ideal) x4 x5) (h45 : W (Proc.devRef .tc main_v45) = val_main_v45 (F := Ideal) x4 x5) :
    after R5 W (Proc.devRef .tc main_v52) = val_main_v52 (F := Ideal) x4 x5 := by
  stretch_results
  try simp only [Cert.TypedRef.ofBuf_toBuf, Cert.TypedRef.toBuf_ofBuf]
  rw [h37, h45]
  try (unfold val_main_v52 val_main_v51 val_main_v50 val_main_v47 val_main_v46 val_main_c_5 val_main_v49 val_main_v48 val_main_c_6)
  try rfl

set_option maxHeartbeats 1000000 in
/-- The row numbers in the final order. -/
theorem r6_v59 (x4 : (⟨S2x12800000, .i32⟩ : BufTy).Contents (Elt Ideal)) (x5 : (⟨S2x800000, .i32⟩ : BufTy).Contents (Elt Ideal))
    (h27 : W (Proc.devRef .tc main_v27) = val_main_v27 (F := Ideal) x4 x5) (h52 : W (Proc.devRef .tc main_v52) = val_main_v52 (F := Ideal) x4 x5) :
    after R6 W (Proc.devRef .tc main_v59) = val_main_v59 (F := Ideal) x4 x5 := by
  stretch_results
  try simp only [Cert.TypedRef.ofBuf_toBuf, Cert.TypedRef.toBuf_ofBuf]
  rw [h27, h52]
  try (unfold val_main_v59 val_main_v58 val_main_v57 val_main_v54 val_main_v53 val_main_c_7 val_main_v56 val_main_v55 val_main_c_8)
  try rfl

set_option maxHeartbeats 1000000 in
/-- The column numbers in the final order. -/
theorem r7_v66 (x4 : (⟨S2x12800000, .i32⟩ : BufTy).Contents (Elt Ideal)) (x5 : (⟨S2x800000, .i32⟩ : BufTy).Contents (Elt Ideal))
    (h34 : W (Proc.devRef .tc main_v34) = val_main_v34 (F := Ideal) x4 x5) (h52 : W (Proc.devRef .tc main_v52) = val_main_v52 (F := Ideal) x4 x5) :
    after R7 W (Proc.devRef .tc main_v66) = val_main_v66 (F := Ideal) x4 x5 := by
  stretch_results
  try simp only [Cert.TypedRef.ofBuf_toBuf, Cert.TypedRef.toBuf_ofBuf]
  rw [h34, h52]
  try (unfold val_main_v66 val_main_v65 val_main_v64 val_main_v61 val_main_v60 val_main_c_9 val_main_v63 val_main_v62 val_main_c_10)
  try rfl

set_option maxHeartbeats 1000000 in
/-- The first result: the two index rows stacked. -/
theorem r8_v69 (x4 : (⟨S2x12800000, .i32⟩ : BufTy).Contents (Elt Ideal)) (x5 : (⟨S2x800000, .i32⟩ : BufTy).Contents (Elt Ideal))
    (h59 : W (Proc.devRef .tc main_v59) = val_main_v59 (F := Ideal) x4 x5) (h66 : W (Proc.devRef .tc main_v66) = val_main_v66 (F := Ideal) x4 x5) :
    after R8 W (Proc.devRef .tc main_v69) = val_main_v69 (F := Ideal) x4 x5 := by
  stretch_results
  try simp only [Cert.TypedRef.ofBuf_toBuf, Cert.TypedRef.toBuf_ofBuf]
  rw [h59, h66]
  try (unfold val_main_v69 val_main_v67 val_main_v68)
  try rfl

set_option maxHeartbeats 1000000 in
/-- The second result: the joined values in the final order. -/
theorem r9_v76 (x0 : (⟨S1600000x4x4, .f32⟩ : BufTy).Contents (Elt Ideal)) (x1 x2 : (⟨S800000, .i32⟩ : BufTy).Contents (Elt Ideal)) (x3 : (⟨S1600000, .i32⟩ : BufTy).Contents (Elt Ideal)) (x4 : (⟨S2x12800000, .i32⟩ : BufTy).Contents (Elt Ideal)) (x5 : (⟨S2x800000, .i32⟩ : BufTy).Contents (Elt Ideal))
    (h36 : W (Proc.devRef .tc main_v36) = val_main_v36 (F := Ideal) x0 x1 x2 x3) (h52 : W (Proc.devRef .tc main_v52) = val_main_v52 (F := Ideal) x4 x5) :
    after R9 W (Proc.devRef .tc main_v76) = val_main_v76 (F := Ideal) x0 x1 x2 x3 x4 x5 := by
  stretch_results
  try simp only [Cert.TypedRef.ofBuf_toBuf, Cert.TypedRef.toBuf_ofBuf]
  rw [h36, h52]
  try (unfold val_main_v76 val_main_v75 val_main_v74 val_main_v71 val_main_v70 val_main_c_11 val_main_v73 val_main_v72 val_main_c_12)
  try rfl

/-! ## What each stretch does not touch -/

theorem keep1_v15 : after R1 W (Proc.devRef .tc main_v15) = W (Proc.devRef .tc main_v15) := by stretch_results
theorem keep2_v15 : after R2 W (Proc.devRef .tc main_v15) = W (Proc.devRef .tc main_v15) := by stretch_results
theorem keep2_v27 : after R2 W (Proc.devRef .tc main_v27) = W (Proc.devRef .tc main_v27) := by stretch_results
theorem keep2_v34 : after R2 W (Proc.devRef .tc main_v34) = W (Proc.devRef .tc main_v34) := by stretch_results
theorem keep2_v36 : after R2 W (Proc.devRef .tc main_v36) = W (Proc.devRef .tc main_v36) := by stretch_results
theorem keep3_v15 : after R3 W (Proc.devRef .tc main_v15) = W (Proc.devRef .tc main_v15) := by stretch_results
theorem keep3_v27 : after R3 W (Proc.devRef .tc main_v27) = W (Proc.devRef .tc main_v27) := by stretch_results
theorem keep3_v34 : after R3 W (Proc.devRef .tc main_v34) = W (Proc.devRef .tc main_v34) := by stretch_results
theorem keep3_v36 : after R3 W (Proc.devRef .tc main_v36) = W (Proc.devRef .tc main_v36) := by stretch_results
theorem keep3_v37 : after R3 W (Proc.devRef .tc main_v37) = W (Proc.devRef .tc main_v37) := by stretch_results
theorem keep4_v15 : after R4 W (Proc.devRef .tc main_v15) = W (Proc.devRef .tc main_v15) := by stretch_results
theorem keep4_v27 : after R4 W (Proc.devRef .tc main_v27) = W (Proc.devRef .tc main_v27) := by stretch_results
theorem keep4_v34 : after R4 W (Proc.devRef .tc main_v34) = W (Proc.devRef .tc main_v34) := by stretch_results
theorem keep4_v36 : after R4 W (Proc.devRef .tc main_v36) = W (Proc.devRef .tc main_v36) := by stretch_results
theorem keep4_v37 : after R4 W (Proc.devRef .tc main_v37) = W (Proc.devRef .tc main_v37) := by stretch_results
theorem keep5_v15 : after R5 W (Proc.devRef .tc main_v15) = W (Proc.devRef .tc main_v15) := by stretch_results
theorem keep5_v27 : after R5 W (Proc.devRef .tc main_v27) = W (Proc.devRef .tc main_v27) := by stretch_results
theorem keep5_v34 : after R5 W (Proc.devRef .tc main_v34) = W (Proc.devRef .tc main_v34) := by stretch_results
theorem keep5_v36 : after R5 W (Proc.devRef .tc main_v36) = W (Proc.devRef .tc main_v36) := by stretch_results
theorem keep6_v15 : after R6 W (Proc.devRef .tc main_v15) = W (Proc.devRef .tc main_v15) := by stretch_results
theorem keep6_v34 : after R6 W (Proc.devRef .tc main_v34) = W (Proc.devRef .tc main_v34) := by stretch_results
theorem keep6_v36 : after R6 W (Proc.devRef .tc main_v36) = W (Proc.devRef .tc main_v36) := by stretch_results
theorem keep6_v52 : after R6 W (Proc.devRef .tc main_v52) = W (Proc.devRef .tc main_v52) := by stretch_results
theorem keep7_v15 : after R7 W (Proc.devRef .tc main_v15) = W (Proc.devRef .tc main_v15) := by stretch_results
theorem keep7_v36 : after R7 W (Proc.devRef .tc main_v36) = W (Proc.devRef .tc main_v36) := by stretch_results
theorem keep7_v52 : after R7 W (Proc.devRef .tc main_v52) = W (Proc.devRef .tc main_v52) := by stretch_results
theorem keep7_v59 : after R7 W (Proc.devRef .tc main_v59) = W (Proc.devRef .tc main_v59) := by stretch_results
theorem keep8_v15 : after R8 W (Proc.devRef .tc main_v15) = W (Proc.devRef .tc main_v15) := by stretch_results
theorem keep8_v36 : after R8 W (Proc.devRef .tc main_v36) = W (Proc.devRef .tc main_v36) := by stretch_results
theorem keep8_v52 : after R8 W (Proc.devRef .tc main_v52) = W (Proc.devRef .tc main_v52) := by stretch_results
theorem keep9_v15 : after R9 W (Proc.devRef .tc main_v15) = W (Proc.devRef .tc main_v15) := by stretch_results
theorem keep9_v69 : after R9 W (Proc.devRef .tc main_v69) = W (Proc.devRef .tc main_v69) := by stretch_results

end Stretches

variable (m : (ℓ : Loc nD τ sig) → Buf (Elt Ideal) ℓ) (c : Dev nD)

/-! ## The named buffers along the run -/

theorem w2_v15 : W2 m c (Proc.devRef .tc main_v15) = val_main_v15 (F := Ideal) (m ((c.tc : Thread nD τ).loc main_arg0)) (m ((c.tc : Thread nD τ).loc main_arg1)) (m ((c.tc : Thread nD τ).loc main_arg2)) := (keep1_v15 (W1 m c)).trans (w1_v15 m c)
theorem w3_v15 : W3 m c (Proc.devRef .tc main_v15) = val_main_v15 (F := Ideal) (m ((c.tc : Thread nD τ).loc main_arg0)) (m ((c.tc : Thread nD τ).loc main_arg1)) (m ((c.tc : Thread nD τ).loc main_arg2)) := (keep2_v15 (W2 m c)).trans (w2_v15 m c)
theorem w3_v27 : W3 m c (Proc.devRef .tc main_v27) = val_main_v27 (F := Ideal) (m ((c.tc : Thread nD τ).loc main_arg4)) (m ((c.tc : Thread nD τ).loc main_arg5)) := (keep2_v27 (W2 m c)).trans (w2_v27 m c)
theorem w3_v34 : W3 m c (Proc.devRef .tc main_v34) = val_main_v34 (F := Ideal) (m ((c.tc : Thread nD τ).loc main_arg4)) (m ((c.tc : Thread nD τ).loc main_arg5)) := (keep2_v34 (W2 m c)).trans (w2_v34 m c)
theorem w3_v36 : W3 m c (Proc.devRef .tc main_v36) = val_main_v36 (F := Ideal) (m ((c.tc : Thread nD τ).loc main_arg0)) (m ((c.tc : Thread nD τ).loc main_arg1)) (m ((c.tc : Thread nD τ).loc main_arg2)) (m ((c.tc : Thread nD τ).loc main_arg3)) := (keep2_v36 (W2 m c)).trans (w2_v36 m c)
theorem w3_v37 : W3 m c (Proc.devRef .tc main_v37) = val_main_v37 (F := Ideal) (m ((c.tc : Thread nD τ).loc main_arg4)) (m ((c.tc : Thread nD τ).loc main_arg5)) := r2_v37 (W2 m c) _ _ (w2_v34 m c)
theorem w4_v15 : W4 m c (Proc.devRef .tc main_v15) = val_main_v15 (F := Ideal) (m ((c.tc : Thread nD τ).loc main_arg0)) (m ((c.tc : Thread nD τ).loc main_arg1)) (m ((c.tc : Thread nD τ).loc main_arg2)) := (keep3_v15 (W3 m c)).trans (w3_v15 m c)
theorem w4_v27 : W4 m c (Proc.devRef .tc main_v27) = val_main_v27 (F := Ideal) (m ((c.tc : Thread nD τ).loc main_arg4)) (m ((c.tc : Thread nD τ).loc main_arg5)) := (keep3_v27 (W3 m c)).trans (w3_v27 m c)
theorem w4_v34 : W4 m c (Proc.devRef .tc main_v34) = val_main_v34 (F := Ideal) (m ((c.tc : Thread nD τ).loc main_arg4)) (m ((c.tc : Thread nD τ).loc main_arg5)) := (keep3_v34 (W3 m c)).trans (w3_v34 m c)
theorem w4_v36 : W4 m c (Proc.devRef .tc main_v36) = val_main_v36 (F := Ideal) (m ((c.tc : Thread nD τ).loc main_arg0)) (m ((c.tc : Thread nD τ).loc main_arg1)) (m ((c.tc : Thread nD τ).loc main_arg2)) (m ((c.tc : Thread nD τ).loc main_arg3)) := (keep3_v36 (W3 m c)).trans (w3_v36 m c)
theorem w4_v37 : W4 m c (Proc.devRef .tc main_v37) = val_main_v37 (F := Ideal) (m ((c.tc : Thread nD τ).loc main_arg4)) (m ((c.tc : Thread nD τ).loc main_arg5)) := (keep3_v37 (W3 m c)).trans (w3_v37 m c)
theorem w4_v44 : W4 m c (Proc.devRef .tc main_v44) = val_main_v44 (F := Ideal) (m ((c.tc : Thread nD τ).loc main_arg4)) (m ((c.tc : Thread nD τ).loc main_arg5)) := r3_v44 (W3 m c) _ _ (w3_v27 m c) (w3_v37 m c)
theorem w5_v15 : W5 m c (Proc.devRef .tc main_v15) = val_main_v15 (F := Ideal) (m ((c.tc : Thread nD τ).loc main_arg0)) (m ((c.tc : Thread nD τ).loc main_arg1)) (m ((c.tc : Thread nD τ).loc main_arg2)) := (keep4_v15 (W4 m c)).trans (w4_v15 m c)
theorem w5_v27 : W5 m c (Proc.devRef .tc main_v27) = val_main_v27 (F := Ideal) (m ((c.tc : Thread nD τ).loc main_arg4)) (m ((c.tc : Thread nD τ).loc main_arg5)) := (keep4_v27 (W4 m c)).trans (w4_v27 m c)
theorem w5_v34 : W5 m c (Proc.devRef .tc main_v34) = val_main_v34 (F := Ideal) (m ((c.tc : Thread nD τ).loc main_arg4)) (m ((c.tc : Thread nD τ).loc main_arg5)) := (keep4_v34 (W4 m c)).trans (w4_v34 m c)
theorem w5_v36 : W5 m c (Proc.devRef .tc main_v36) = val_main_v36 (F := Ideal) (m ((c.tc : Thread nD τ).loc main_arg0)) (m ((c.tc : Thread nD τ).loc main_arg1)) (m ((c.tc : Thread nD τ).loc main_arg2)) (m ((c.tc : Thread nD τ).loc main_arg3)) := (keep4_v36 (W4 m c)).trans (w4_v36 m c)
theorem w5_v37 : W5 m c (Proc.devRef .tc main_v37) = val_main_v37 (F := Ideal) (m ((c.tc : Thread nD τ).loc main_arg4)) (m ((c.tc : Thread nD τ).loc main_arg5)) := (keep4_v37 (W4 m c)).trans (w4_v37 m c)
theorem w5_v45 : W5 m c (Proc.devRef .tc main_v45) = val_main_v45 (F := Ideal) (m ((c.tc : Thread nD τ).loc main_arg4)) (m ((c.tc : Thread nD τ).loc main_arg5)) := r4_v45 (W4 m c) _ _ (w4_v44 m c)
theorem w6_v15 : W6 m c (Proc.devRef .tc main_v15) = val_main_v15 (F := Ideal) (m ((c.tc : Thread nD τ).loc main_arg0)) (m ((c.tc : Thread nD τ).loc main_arg1)) (m ((c.tc : Thread nD τ).loc main_arg2)) := (keep5_v15 (W5 m c)).trans (w5_v15 m c)
theorem w6_v27 : W6 m c (Proc.devRef .tc main_v27) = val_main_v27 (F := Ideal) (m ((c.tc : Thread nD τ).loc main_arg4)) (m ((c.tc : Thread nD τ).loc main_arg5)) := (keep5_v27 (W5 m c)).trans (w5_v27 m c)
theorem w6_v34 : W6 m c (Proc.devRef .tc main_v34) = val_main_v34 (F := Ideal) (m ((c.tc : Thread nD τ).loc main_arg4)) (m ((c.tc : Thread nD τ).loc main_arg5)) := (keep5_v34 (W5 m c)).trans (w5_v34 m c)
theorem w6_v36 : W6 m c (Proc.devRef .tc main_v36) = val_main_v36 (F := Ideal) (m ((c.tc : Thread nD τ).loc main_arg0)) (m ((c.tc : Thread nD τ).loc main_arg1)) (m ((c.tc : Thread nD τ).loc main_arg2)) (m ((c.tc : Thread nD τ).loc main_arg3)) := (keep5_v36 (W5 m c)).trans (w5_v36 m c)
theorem w6_v52 : W6 m c (Proc.devRef .tc main_v52) = val_main_v52 (F := Ideal) (m ((c.tc : Thread nD τ).loc main_arg4)) (m ((c.tc : Thread nD τ).loc main_arg5)) := r5_v52 (W5 m c) _ _ (w5_v37 m c) (w5_v45 m c)
theorem w7_v15 : W7 m c (Proc.devRef .tc main_v15) = val_main_v15 (F := Ideal) (m ((c.tc : Thread nD τ).loc main_arg0)) (m ((c.tc : Thread nD τ).loc main_arg1)) (m ((c.tc : Thread nD τ).loc main_arg2)) := (keep6_v15 (W6 m c)).trans (w6_v15 m c)
theorem w7_v34 : W7 m c (Proc.devRef .tc main_v34) = val_main_v34 (F := Ideal) (m ((c.tc : Thread nD τ).loc main_arg4)) (m ((c.tc : Thread nD τ).loc main_arg5)) := (keep6_v34 (W6 m c)).trans (w6_v34 m c)
theorem w7_v36 : W7 m c (Proc.devRef .tc main_v36) = val_main_v36 (F := Ideal) (m ((c.tc : Thread nD τ).loc main_arg0)) (m ((c.tc : Thread nD τ).loc main_arg1)) (m ((c.tc : Thread nD τ).loc main_arg2)) (m ((c.tc : Thread nD τ).loc main_arg3)) := (keep6_v36 (W6 m c)).trans (w6_v36 m c)
theorem w7_v52 : W7 m c (Proc.devRef .tc main_v52) = val_main_v52 (F := Ideal) (m ((c.tc : Thread nD τ).loc main_arg4)) (m ((c.tc : Thread nD τ).loc main_arg5)) := (keep6_v52 (W6 m c)).trans (w6_v52 m c)
theorem w7_v59 : W7 m c (Proc.devRef .tc main_v59) = val_main_v59 (F := Ideal) (m ((c.tc : Thread nD τ).loc main_arg4)) (m ((c.tc : Thread nD τ).loc main_arg5)) := r6_v59 (W6 m c) _ _ (w6_v27 m c) (w6_v52 m c)
theorem w8_v15 : W8 m c (Proc.devRef .tc main_v15) = val_main_v15 (F := Ideal) (m ((c.tc : Thread nD τ).loc main_arg0)) (m ((c.tc : Thread nD τ).loc main_arg1)) (m ((c.tc : Thread nD τ).loc main_arg2)) := (keep7_v15 (W7 m c)).trans (w7_v15 m c)
theorem w8_v36 : W8 m c (Proc.devRef .tc main_v36) = val_main_v36 (F := Ideal) (m ((c.tc : Thread nD τ).loc main_arg0)) (m ((c.tc : Thread nD τ).loc main_arg1)) (m ((c.tc : Thread nD τ).loc main_arg2)) (m ((c.tc : Thread nD τ).loc main_arg3)) := (keep7_v36 (W7 m c)).trans (w7_v36 m c)
theorem w8_v52 : W8 m c (Proc.devRef .tc main_v52) = val_main_v52 (F := Ideal) (m ((c.tc : Thread nD τ).loc main_arg4)) (m ((c.tc : Thread nD τ).loc main_arg5)) := (keep7_v52 (W7 m c)).trans (w7_v52 m c)
theorem w8_v59 : W8 m c (Proc.devRef .tc main_v59) = val_main_v59 (F := Ideal) (m ((c.tc : Thread nD τ).loc main_arg4)) (m ((c.tc : Thread nD τ).loc main_arg5)) := (keep7_v59 (W7 m c)).trans (w7_v59 m c)
theorem w8_v66 : W8 m c (Proc.devRef .tc main_v66) = val_main_v66 (F := Ideal) (m ((c.tc : Thread nD τ).loc main_arg4)) (m ((c.tc : Thread nD τ).loc main_arg5)) := r7_v66 (W7 m c) _ _ (w7_v34 m c) (w7_v52 m c)
theorem w9_v15 : W9 m c (Proc.devRef .tc main_v15) = val_main_v15 (F := Ideal) (m ((c.tc : Thread nD τ).loc main_arg0)) (m ((c.tc : Thread nD τ).loc main_arg1)) (m ((c.tc : Thread nD τ).loc main_arg2)) := (keep8_v15 (W8 m c)).trans (w8_v15 m c)
theorem w9_v36 : W9 m c (Proc.devRef .tc main_v36) = val_main_v36 (F := Ideal) (m ((c.tc : Thread nD τ).loc main_arg0)) (m ((c.tc : Thread nD τ).loc main_arg1)) (m ((c.tc : Thread nD τ).loc main_arg2)) (m ((c.tc : Thread nD τ).loc main_arg3)) := (keep8_v36 (W8 m c)).trans (w8_v36 m c)
theorem w9_v52 : W9 m c (Proc.devRef .tc main_v52) = val_main_v52 (F := Ideal) (m ((c.tc : Thread nD τ).loc main_arg4)) (m ((c.tc : Thread nD τ).loc main_arg5)) := (keep8_v52 (W8 m c)).trans (w8_v52 m c)
theorem w9_v69 : W9 m c (Proc.devRef .tc main_v69) = val_main_v69 (F := Ideal) (m ((c.tc : Thread nD τ).loc main_arg4)) (m ((c.tc : Thread nD τ).loc main_arg5)) := r8_v69 (W8 m c) _ _ (w8_v59 m c) (w8_v66 m c)
theorem w10_v15 : W10 m c (Proc.devRef .tc main_v15) = val_main_v15 (F := Ideal) (m ((c.tc : Thread nD τ).loc main_arg0)) (m ((c.tc : Thread nD τ).loc main_arg1)) (m ((c.tc : Thread nD τ).loc main_arg2)) := (keep9_v15 (W9 m c)).trans (w9_v15 m c)
theorem w10_v69 : W10 m c (Proc.devRef .tc main_v69) = val_main_v69 (F := Ideal) (m ((c.tc : Thread nD τ).loc main_arg4)) (m ((c.tc : Thread nD τ).loc main_arg5)) := (keep9_v69 (W9 m c)).trans (w9_v69 m c)
theorem w10_v76 : W10 m c (Proc.devRef .tc main_v76) = val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := r9_v76 (W9 m c) _ _ _ _ _ _ (w9_v36 m c) (w9_v52 m c)

/-! ## The run -/

set_option maxHeartbeats 1000000 in
/-- Every weakly fair execution of the reference's @main terminates with its three results at the stage functions of the
    arguments, and the arguments unchanged. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v69) = val_main_v69 (F := Ideal) (m ((c.tc : Thread nD τ).loc main_arg4)) (m ((c.tc : Thread nD τ).loc main_arg5))
      ∧ r.2.mem ((c.tc : Thread nD τ).loc main_v76) = val_main_v76 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v15) = val_main_v15 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v69).trans ((congrFun (after_ops m c) _).trans (w10_v69 m c)),
      (h c main_v76).trans ((congrFun (after_ops m c) _).trans (w10_v76 m c)),
      (h c main_v15).trans ((congrFun (after_ops m c) _).trans (w10_v15 m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefChain

end
-- ==== Proof.Spec.lean ====
import Idealize.ShloMosaic.PureOps.Ideal
import Idealize.ShloMosaic.Lib.ValueIdx

/-! # What the two kernels compute, as whole-array functions on the extended reals

A 16 × n array holds, in row `4·i + j` and lane `e`, entry `(i, j)` of the 4 × 4 matrix of edge `e`. For two such
arrays `a`, `b` the Gram row `(j, k)` at lane `e` is `Σ_i a(4i+j, e) · b(4i+k, e)`, entry `(j, k)` of `Aₑᵀ Bₑ`, summed
in the order the kernels add it (`i = 0, 1, 2, 3`, left to right). The first kernel stores its negation (a product with
the word of `-1.0`) in row `4·j + k`; the second stores the Gram rows of an array with itself. -/

noncomputable section

namespace Cert.Spec

open Idealize.ShloMosaic Idealize.ShloMosaic.ValueIdx

/-- The float word of `-1.0`, read on the extended reals. -/
abbrev negOne : EReal := Ideal.ofBits .f32 0xBF800000#32

/-- Entry `(r, l)` of a 16-row array, the row given as a natural number below 16. -/
abbrev rowAt {n : ℕ} (a : (⟨2, ![16, n]⟩ : Shape).Idx → EReal) (r : ℕ) (hr : r < 16) (l : Fin n) : EReal :=
  a (ix2 ⟨r, hr⟩ l)

/-- `Σ_i a(4i+j, l) · b(4i+k, l)`, added left to right. -/
def gramRow {n : ℕ} (a b : (⟨2, ![16, n]⟩ : Shape).Idx → EReal) (j k : Fin 4) (l : Fin n) : EReal :=
  ((rowAt a j.val (by omega) l * rowAt b k.val (by omega) l
      + rowAt a (4 + j.val) (by omega) l * rowAt b (4 + k.val) (by omega) l)
    + rowAt a (8 + j.val) (by omega) l * rowAt b (8 + k.val) (by omega) l)
  + rowAt a (12 + j.val) (by omega) l * rowAt b (12 + k.val) (by omega) l

/-- The first kernel's result: row `4·j + k` is the negated Gram row `(j, k)` of the two operands. -/
def gram0 {n : ℕ} (a b : (⟨2, ![16, n]⟩ : Shape).Idx → EReal) : (⟨2, ![16, n]⟩ : Shape).Idx → EReal := fun y =>
  negOne * gramRow a b ⟨(y 0).val / 4, by have := idx2_lt0 y; omega⟩ ⟨(y 0).val % 4, by omega⟩ (y 1)

/-- The second kernel's result: row `4·j + k` is the Gram row `(j, k)` of the operand with itself. -/
def gram1 {n : ℕ} (a : (⟨2, ![16, n]⟩ : Shape).Idx → EReal) : (⟨2, ![16, n]⟩ : Shape).Idx → EReal := fun y =>
  gramRow a a ⟨(y 0).val / 4, by have := idx2_lt0 y; omega⟩ ⟨(y 0).val % 4, by omega⟩ (y 1)

end Cert.Spec

end
-- ==== Proof.IVal0.lean ====
import proofs.«133138_j18459769438526_1_alg».proof.Proof.IOut
import proofs.«133138_j18459769438526_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Cert.KernelIdeal.Reg Cert.Spec
open Idealize.ShloMosaic Idealize.ShloMosaic.TcCoe Idealize.ShloMosaic.ValueIdx
open Idealize.SL.Sem
open Idealize.ShloMosaic.Pipeline (Dat Cfg Window)

/-! # What the first kernel leaves in its result array

Row `4·j + k` of a result block is the word of `-1.0` times `Σ_i a(4i+j, l) · b(4i+k, l)` of the two operand blocks, lane by
lane; a block of the result array is read off the operand arrays' blocks at the same lanes, and the 25 blocks of 32000
lanes tile the 800000 lanes. So the array ends holding `Cert.Spec.gram0` of the two operand arrays. -/

/-! ## One row of a block, read at a lane -/

/-- Row `o` of a 16 × 32000 block, cut out as a 1 × 32000 slice and flattened, reads the block at `(o, l)`. -/
theorem rowRead (x : FVec Ideal S16x32000 .f32) (o : ℕ) (h : S16x32000.Slices ![o, 0] S1x32000)
    (hc : S1x32000.ShapeCasts S32000) (l : Fin 32000) :
    shapeCast S32000 (extractStridedSlice S1x32000 ![o, 0] x h) hc (ix1 l)
      = x (ix2 ⟨o + (0 : Fin 1).val, Nat.lt_of_lt_of_le (Nat.add_lt_add_left (0 : Fin 1).isLt o) (h.2 0)⟩ l) :=
  (shapeCast_1a_a_apply _ hc l).trans (slice2_axis0_eq o x h 0 l)

theorem hz : (![0, 0] : Fin 2 → Nat) = fun _ => 0 := funext fun a => by fin_cases a <;> rfl

/-- At an index whose row is `4·j + k` and whose lane is `l`, `gram0` is the negated Gram row `(j, k)` at `l`. -/
theorem gram0_at {n : ℕ} (a b : (⟨2, ![16, n]⟩ : Shape).Idx → EReal) (y : (⟨2, ![16, n]⟩ : Shape).Idx) (j k : Fin 4) (l : Fin n)
    (h0 : (y 0).val = 4 * j.val + k.val) (h1 : (y 1).val = l.val) : gram0 a b y = negOne * gramRow a b j k l := by
  have ej : (y 0).val / 4 = j.val := by omega
  have ek : (y 0).val % 4 = k.val := by omega
  have el : y 1 = l := Fin.ext h1
  unfold gram0
  simp only [ej, ek, el, Fin.eta]

/-! ## The sixteen stored rows

Each stored row is the body's arithmetic on rows of the two loaded blocks: products of a row of the first with a row of
the second, added left to right, times the word of `-1.0`. Read at lane `l` it is the negated Gram row. -/

/-- Opens the body's arithmetic at a lane: the loads read the blocks, the pointwise operations act lane by lane, each cut
    row reads its block at that row. -/
macro "row_at_lane" : tactic => `(tactic| (
  rw [View.ld_unit_zero (S := S16x32000) hz, View.ld_unit_zero (S := S16x32000) hz]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, shapeCast_self, shapeCast_a_1a_apply,
    mulf_apply, addf_apply, broadcast_apply, rowRead]
  rfl))

theorem row0_0 (x0 x1 : Vec Ideal S16x32000 .f32) (u : Fin 1) (l : Fin 32000) :
    k0_pay5 (View.ld x0 rF) (View.ld x1 rF) (ix2 u l) = negOne * gramRow x0 x1 0 0 l := by
  row_at_lane

theorem row0_1 (x0 x1 : Vec Ideal S16x32000 .f32) (u : Fin 1) (l : Fin 32000) :
    k0_pay8 (k0_pay4 (View.ld x1 rF)) (k0_pay6 (View.ld x0 rF) (View.ld x1 rF)) (k0_pay7 (View.ld x0 rF)) (ix2 u l) = negOne * gramRow x0 x1 0 1 l := by
  row_at_lane

theorem row0_2 (x0 x1 : Vec Ideal S16x32000 .f32) (u : Fin 1) (l : Fin 32000) :
    k0_pay9 (k0_pay3 (View.ld x0 rF)) (k0_pay4 (View.ld x1 rF)) (ix2 u l) = negOne * gramRow x0 x1 0 2 l := by
  row_at_lane

theorem row0_3 (x0 x1 : Vec Ideal S16x32000 .f32) (u : Fin 1) (l : Fin 32000) :
    k0_pay13 (k0_pay3 (View.ld x0 rF)) (k0_pay4 (View.ld x1 rF)) (k0_pay10 (k0_pay3 (View.ld x0 rF)) (k0_pay4 (View.ld x1 rF))) (k0_pay11 (k0_pay3 (View.ld x0 rF))) (k0_pay12 (k0_pay4 (View.ld x1 rF))) (ix2 u l) = negOne * gramRow x0 x1 0 3 l := by
  row_at_lane

theorem row0_4 (x0 x1 : Vec Ideal S16x32000 .f32) (u : Fin 1) (l : Fin 32000) :
    k0_pay14 (k0_pay3 (View.ld x0 rF)) (k0_pay4 (View.ld x1 rF)) (ix2 u l) = negOne * gramRow x0 x1 1 0 l := by
  row_at_lane

theorem row0_5 (x0 x1 : Vec Ideal S16x32000 .f32) (u : Fin 1) (l : Fin 32000) :
    k0_pay16 (k0_pay3 (View.ld x0 rF)) (k0_pay4 (View.ld x1 rF)) (k0_pay15 (k0_pay3 (View.ld x0 rF)) (k0_pay4 (View.ld x1 rF))) (ix2 u l) = negOne * gramRow x0 x1 1 1 l := by
  row_at_lane

theorem row0_6 (x0 x1 : Vec Ideal S16x32000 .f32) (u : Fin 1) (l : Fin 32000) :
    k0_pay17 (k0_pay3 (View.ld x0 rF)) (k0_pay4 (View.ld x1 rF)) (ix2 u l) = negOne * gramRow x0 x1 1 2 l := by
  row_at_lane

theorem row0_7 (x0 x1 : Vec Ideal S16x32000 .f32) (u : Fin 1) (l : Fin 32000) :
    k0_pay20 (k0_pay3 (View.ld x0 rF)) (k0_pay4 (View.ld x1 rF)) (k0_pay18 (k0_pay3 (View.ld x0 rF)) (k0_pay4 (View.ld x1 rF))) (k0_pay19 (k0_pay3 (View.ld x0 rF))) (ix2 u l) = negOne * gramRow x0 x1 1 3 l := by
  row_at_lane

theorem row0_8 (x0 x1 : Vec Ideal S16x32000 .f32) (u : Fin 1) (l : Fin 32000) :
    k0_pay21 (k0_pay3 (View.ld x0 rF)) (k0_pay4 (View.ld x1 rF)) (ix2 u l) = negOne * gramRow x0 x1 2 0 l := by
  row_at_lane

theorem row0_9 (x0 x1 : Vec Ideal S16x32000 .f32) (u : Fin 1) (l : Fin 32000) :
    k0_pay24 (k0_pay3 (View.ld x0 rF)) (k0_pay4 (View.ld x1 rF)) (k0_pay22 (k0_pay3 (View.ld x0 rF))) (k0_pay23 (k0_pay4 (View.ld x1 rF))) (ix2 u l) = negOne * gramRow x0 x1 2 1 l := by
  row_at_lane

theorem row0_10 (x0 x1 : Vec Ideal S16x32000 .f32) (u : Fin 1) (l : Fin 32000) :
    k0_pay25 (k0_pay3 (View.ld x0 rF)) (k0_pay4 (View.ld x1 rF)) (ix2 u l) = negOne * gramRow x0 x1 2 2 l := by
  row_at_lane

theorem row0_11 (x0 x1 : Vec Ideal S16x32000 .f32) (u : Fin 1) (l : Fin 32000) :
    k0_pay26 (k0_pay3 (View.ld x0 rF)) (k0_pay4 (View.ld x1 rF)) (ix2 u l) = negOne * gramRow x0 x1 2 3 l := by
  row_at_lane

theorem row0_12 (x0 x1 : Vec Ideal S16x32000 .f32) (u : Fin 1) (l : Fin 32000) :
    k0_pay28 (k0_pay27 (k0_pay3 (View.ld x0 rF)) (k0_pay4 (View.ld x1 rF))) (ix2 u l) = negOne * gramRow x0 x1 3 0 l := by
  row_at_lane

theorem row0_13 (x0 x1 : Vec Ideal S16x32000 .f32) (u : Fin 1) (l : Fin 32000) :
    k0_pay29 (k0_pay3 (View.ld x0 rF)) (k0_pay4 (View.ld x1 rF)) (ix2 u l) = negOne * gramRow x0 x1 3 1 l := by
  row_at_lane

theorem row0_14 (x0 x1 : Vec Ideal S16x32000 .f32) (u : Fin 1) (l : Fin 32000) :
    k0_pay1 (k0_pay30 (k0_pay3 (View.ld x0 rF)) (k0_pay4 (View.ld x1 rF))) (ix2 u l) = negOne * gramRow x0 x1 3 2 l := by
  row_at_lane

theorem row0_15 (x0 x1 : Vec Ideal S16x32000 .f32) (u : Fin 1) (l : Fin 32000) :
    k0_pay2 (k0_pay3 (View.ld x0 rF)) (k0_pay4 (View.ld x1 rF)) (ix2 u l) = negOne * gramRow x0 x1 3 3 l := by
  row_at_lane

/-! ## The block the body leaves -/

/-- The result block after the body is `gram0` of the two operand blocks: each of the sixteen stored rows is `gram0` on
    its row, and the rows cover the block. -/
theorem out0_2_eq (x0 x1 : Vec Ideal S16x32000 .f32) : out0_2 x0 x1 = gram0 x0 x1 := by
  funext y
  unfold out0_2
  refine View.canon_apply_of_pieces (Val := Elt Ideal) (S := S16x32000) (e := .f32) (gram0 x0 x1) _ (fun p hp x => ?_) y (cover0_2 _ _ _ _ _ _ _ _ _ _ _ _ _ _ _ _ y)
  simp only [List.mem_cons, List.mem_nil_iff, or_false] at hp
  rcases hp with rfl | rfl | rfl | rfl | rfl | rfl | rfl | rfl | rfl | rfl | rfl | rfl | rfl | rfl | rfl | rfl
  · obtain ⟨u, l, rfl⟩ : ∃ (u : Fin 1) (l : Fin 32000), x = ix2 u l := ⟨x 0, x 1, eq_ix2 x⟩
    refine (row0_15 x0 x1 u l).trans (gram0_at x0 x1 _ 3 3 l ?_ ?_).symm
    · show 15 + 1 * u.val = 4 * 3 + 3; omega
    · show 0 + 1 * l.val = l.val; omega
  · obtain ⟨u, l, rfl⟩ : ∃ (u : Fin 1) (l : Fin 32000), x = ix2 u l := ⟨x 0, x 1, eq_ix2 x⟩
    refine (row0_14 x0 x1 u l).trans (gram0_at x0 x1 _ 3 2 l ?_ ?_).symm
    · show 14 + 1 * u.val = 4 * 3 + 2; omega
    · show 0 + 1 * l.val = l.val; omega
  · obtain ⟨u, l, rfl⟩ : ∃ (u : Fin 1) (l : Fin 32000), x = ix2 u l := ⟨x 0, x 1, eq_ix2 x⟩
    refine (row0_13 x0 x1 u l).trans (gram0_at x0 x1 _ 3 1 l ?_ ?_).symm
    · show 13 + 1 * u.val = 4 * 3 + 1; omega
    · show 0 + 1 * l.val = l.val; omega
  · obtain ⟨u, l, rfl⟩ : ∃ (u : Fin 1) (l : Fin 32000), x = ix2 u l := ⟨x 0, x 1, eq_ix2 x⟩
    refine (row0_12 x0 x1 u l).trans (gram0_at x0 x1 _ 3 0 l ?_ ?_).symm
    · show 12 + 1 * u.val = 4 * 3 + 0; omega
    · show 0 + 1 * l.val = l.val; omega
  · obtain ⟨u, l, rfl⟩ : ∃ (u : Fin 1) (l : Fin 32000), x = ix2 u l := ⟨x 0, x 1, eq_ix2 x⟩
    refine (row0_11 x0 x1 u l).trans (gram0_at x0 x1 _ 2 3 l ?_ ?_).symm
    · show 11 + 1 * u.val = 4 * 2 + 3; omega
    · show 0 + 1 * l.val = l.val; omega
  · obtain ⟨u, l, rfl⟩ : ∃ (u : Fin 1) (l : Fin 32000), x = ix2 u l := ⟨x 0, x 1, eq_ix2 x⟩
    refine (row0_10 x0 x1 u l).trans (gram0_at x0 x1 _ 2 2 l ?_ ?_).symm
    · show 10 + 1 * u.val = 4 * 2 + 2; omega
    · show 0 + 1 * l.val = l.val; omega
  · obtain ⟨u, l, rfl⟩ : ∃ (u : Fin 1) (l : Fin 32000), x = ix2 u l := ⟨x 0, x 1, eq_ix2 x⟩
    refine (row0_9 x0 x1 u l).trans (gram0_at x0 x1 _ 2 1 l ?_ ?_).symm
    · show 9 + 1 * u.val = 4 * 2 + 1; omega
    · show 0 + 1 * l.val = l.val; omega
  · obtain ⟨u, l, rfl⟩ : ∃ (u : Fin 1) (l : Fin 32000), x = ix2 u l := ⟨x 0, x 1, eq_ix2 x⟩
    refine (row0_8 x0 x1 u l).trans (gram0_at x0 x1 _ 2 0 l ?_ ?_).symm
    · show 8 + 1 * u.val = 4 * 2 + 0; omega
    · show 0 + 1 * l.val = l.val; omega
  · obtain ⟨u, l, rfl⟩ : ∃ (u : Fin 1) (l : Fin 32000), x = ix2 u l := ⟨x 0, x 1, eq_ix2 x⟩
    refine (row0_7 x0 x1 u l).trans (gram0_at x0 x1 _ 1 3 l ?_ ?_).symm
    · show 7 + 1 * u.val = 4 * 1 + 3; omega
    · show 0 + 1 * l.val = l.val; omega
  · obtain ⟨u, l, rfl⟩ : ∃ (u : Fin 1) (l : Fin 32000), x = ix2 u l := ⟨x 0, x 1, eq_ix2 x⟩
    refine (row0_6 x0 x1 u l).trans (gram0_at x0 x1 _ 1 2 l ?_ ?_).symm
    · show 6 + 1 * u.val = 4 * 1 + 2; omega
    · show 0 + 1 * l.val = l.val; omega
  · obtain ⟨u, l, rfl⟩ : ∃ (u : Fin 1) (l : Fin 32000), x = ix2 u l := ⟨x 0, x 1, eq_ix2 x⟩
    refine (row0_5 x0 x1 u l).trans (gram0_at x0 x1 _ 1 1 l ?_ ?_).symm
    · show 5 + 1 * u.val = 4 * 1 + 1; omega
    · show 0 + 1 * l.val = l.val; omega
  · obtain ⟨u, l, rfl⟩ : ∃ (u : Fin 1) (l : Fin 32000), x = ix2 u l := ⟨x 0, x 1, eq_ix2 x⟩
    refine (row0_4 x0 x1 u l).trans (gram0_at x0 x1 _ 1 0 l ?_ ?_).symm
    · show 4 + 1 * u.val = 4 * 1 + 0; omega
    · show 0 + 1 * l.val = l.val; omega
  · obtain ⟨u, l, rfl⟩ : ∃ (u : Fin 1) (l : Fin 32000), x = ix2 u l := ⟨x 0, x 1, eq_ix2 x⟩
    refine (row0_3 x0 x1 u l).trans (gram0_at x0 x1 _ 0 3 l ?_ ?_).symm
    · show 3 + 1 * u.val = 4 * 0 + 3; omega
    · show 0 + 1 * l.val = l.val; omega
  · obtain ⟨u, l, rfl⟩ : ∃ (u : Fin 1) (l : Fin 32000), x = ix2 u l := ⟨x 0, x 1, eq_ix2 x⟩
    refine (row0_2 x0 x1 u l).trans (gram0_at x0 x1 _ 0 2 l ?_ ?_).symm
    · show 2 + 1 * u.val = 4 * 0 + 2; omega
    · show 0 + 1 * l.val = l.val; omega
  · obtain ⟨u, l, rfl⟩ : ∃ (u : Fin 1) (l : Fin 32000), x = ix2 u l := ⟨x 0, x 1, eq_ix2 x⟩
    refine (row0_1 x0 x1 u l).trans (gram0_at x0 x1 _ 0 1 l ?_ ?_).symm
    · show 1 + 1 * u.val = 4 * 0 + 1; omega
    · show 0 + 1 * l.val = l.val; omega
  · obtain ⟨u, l, rfl⟩ : ∃ (u : Fin 1) (l : Fin 32000), x = ix2 u l := ⟨x 0, x 1, eq_ix2 x⟩
    refine (row0_0 x0 x1 u l).trans (gram0_at x0 x1 _ 0 0 l ?_ ?_).symm
    · show 0 + 1 * u.val = 4 * 0 + 0; omega
    · show 0 + 1 * l.val = l.val; omega

/-! ## From blocks to the array

All three windows of the first pipeline have the same index map: block `(0, t)` at point `t`. So an element `(r, l)` of a
block at point `t` sits at `(r, 32000·t + l)` of its array, in the operands and in the result alike. -/

/-- The printed index maps, decided over the grid. -/
theorem idx_facts0 : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- `gram0` of two blocks that are read off two arrays at the same place `e` — same row, lanes moved by one offset — is
    `gram0` of the arrays read at `e`: a Gram row only combines entries of one lane. -/
theorem gram0_block {n : ℕ} (a b : (⟨2, ![16, n]⟩ : Shape).Idx → EReal) (x0 x1 : S16x32000.Idx → EReal)
    (e : S16x32000.Idx → (⟨2, ![16, n]⟩ : Shape).Idx) (o : ℕ)
    (he : ∀ y, (e y 0).val = (y 0).val ∧ (e y 1).val = o + (y 1).val)
    (h0 : ∀ y, x0 y = a (e y)) (h1 : ∀ y, x1 y = b (e y)) (y : S16x32000.Idx) :
    gram0 x0 x1 y = gram0 a b (e y) := by
  have hy : (y 0).val < 16 := (y 0).isLt
  have key : ∀ (r : ℕ) (hr : r < 16), e (ix2 ⟨r, hr⟩ (y 1)) = ix2 ⟨r, hr⟩ (e y 1) := fun r hr => by
    funext d; apply Fin.ext
    match d with
    | ⟨0, _⟩ => exact (he _).1
    | ⟨1, _⟩ => show (e (ix2 ⟨r, hr⟩ (y 1)) 1).val = (e y 1).val; rw [(he _).2, (he y).2]
  rw [gram0_at x0 x1 y ⟨(y 0).val / 4, by omega⟩ ⟨(y 0).val % 4, by omega⟩ (y 1) (by show (y 0).val = 4 * ((y 0).val / 4) + (y 0).val % 4; omega) rfl,
    gram0_at a b (e y) ⟨(y 0).val / 4, by omega⟩ ⟨(y 0).val % 4, by omega⟩ (e y 1) (by show (e y 0).val = 4 * ((y 0).val / 4) + (y 0).val % 4; rw [(he y).1]; omega) rfl]
  simp only [gramRow, rowAt, h0, h1, key]
  rfl

section Blocks
variable (V : (c : Dev nD) → (b : Ref sig .tc) → Buf (Elt Ideal) ((c : Thread nD τ).loc b))

/-- Where an element of the result block at point `t` sits in the array. -/
theorem emb0_2 (t : Fin cfg0.N) (y : S16x32000.Idx) :
    ((((cfg0.win 2).blk t).view.emb y : S16x800000.Idx) 0).val = (y 0).val
    ∧ ((((cfg0.win 2).blk t).view.emb y : S16x800000.Idx) 1).val = 32000 * t.val + (y 1).val := by
  obtain ⟨-, -, -, -, e4, e5⟩ := idx_facts0 t
  constructor
  · show win0_2.index t (0 : Fin 2) * 16 + 1 * (y 0).val = (y 0).val; rw [e4]; omega
  · show win0_2.index t (1 : Fin 2) * 32000 + 1 * (y 1).val = 32000 * t.val + (y 1).val; rw [e5]; omega

/-- The first operand's block at point `t`, read where the result's block sits. -/
theorem iblk0_0_eq (c : Dev nD) (t : Fin cfg0.N) (y : S16x32000.Idx) :
    (iblk0 V c 0 t : S16x32000.Idx → EReal) y = (V c main_v15 : S16x800000.Idx → EReal) (((cfg0.win 2).blk t).view.emb y) := by
  obtain ⟨e0, e1, -, -, e4, e5⟩ := idx_facts0 t
  show (V c main_v15 : S16x800000.Idx → EReal) (((cfg0.win 0).blk t).view.emb y) = V c main_v15 (((cfg0.win 2).blk t).view.emb y)
  refine congrArg _ (funext fun a => Fin.ext ?_)
  match a with
  | ⟨0, _⟩ => show win0_0.index t (0 : Fin 2) * 16 + 1 * (y 0).val = win0_2.index t (0 : Fin 2) * 16 + 1 * (y 0).val; rw [e0, e4]
  | ⟨1, _⟩ => show win0_0.index t (1 : Fin 2) * 32000 + 1 * (y 1).val = win0_2.index t (1 : Fin 2) * 32000 + 1 * (y 1).val; rw [e1, e5]

/-- The second operand's block at point `t`, read where the result's block sits. -/
theorem iblk0_1_eq (c : Dev nD) (t : Fin cfg0.N) (y : S16x32000.Idx) :
    (iblk0 V c 1 t : S16x32000.Idx → EReal) y = (V c main_v17 : S16x800000.Idx → EReal) (((cfg0.win 2).blk t).view.emb y) := by
  obtain ⟨-, -, e2, e3, e4, e5⟩ := idx_facts0 t
  show (V c main_v17 : S16x800000.Idx → EReal) (((cfg0.win 1).blk t).view.emb y) = V c main_v17 (((cfg0.win 2).blk t).view.emb y)
  refine congrArg _ (funext fun a => Fin.ext ?_)
  match a with
  | ⟨0, _⟩ => show win0_1.index t (0 : Fin 2) * 16 + 1 * (y 0).val = win0_2.index t (0 : Fin 2) * 16 + 1 * (y 0).val; rw [e2, e4]
  | ⟨1, _⟩ => show win0_1.index t (1 : Fin 2) * 32000 + 1 * (y 1).val = win0_2.index t (1 : Fin 2) * 32000 + 1 * (y 1).val; rw [e3, e5]

/-- What point `t` writes back is block `t` of `gram0` of the two operand arrays. -/
theorem flushed0_eq (c : Dev nD) (t : Fin cfg0.N) :
    (dat0 (F := Ideal) V c).flushed 2 t
      = ((cfg0.win 2).blk t).view.read (Elt Ideal) (gram0 (V c main_v15) (V c main_v17)) := by
  show (cfg0.win 2).cut (grid0.coords t) ((dat0 V c).after 2 t) = _
  rw [after0_2, out0_2_eq]
  funext y
  exact gram0_block (V c main_v15) (V c main_v17) (iblk0 V c 0 t) (iblk0 V c 1 t) (((cfg0.win 2).blk t).view.emb)
    (32000 * t.val) (emb0_2 t) (iblk0_0_eq V c t) (iblk0_1_eq V c t) y

/-- Every lane of the result array is in some point's block: lane `e` in point `e / 32000`'s. -/
theorem cover0 (i : S16x800000.Idx) :
    ∃ t : Fin cfg0.N, (cfg0.win 2).flush t = true ∧ i ∈ ((cfg0.win 2).blk t).view.set := by
  have hi0 : (i 0).val < 16 := (i 0).isLt
  have hi1 : (i 1).val < 800000 := (i 1).isLt
  have hN : cfg0.N = 25 := N_0
  have ht : (i 1).val / 32000 < cfg0.N := by rw [hN]; omega
  refine ⟨⟨(i 1).val / 32000, ht⟩, flush0_2 _, ?_⟩
  obtain ⟨-, -, -, -, e4, e5⟩ := idx_facts0 ⟨(i 1).val / 32000, ht⟩
  show i ∈ ((View.whole main_v20).slice (win0_2.rect ⟨(i 1).val / 32000, ht⟩)).set
  rw [View.set_slice_whole, Rect.mem_set_unit]
  intro a
  match a with
  | ⟨0, _⟩ => show win0_2.index ⟨(i 1).val / 32000, ht⟩ (0 : Fin 2) * 16 ≤ (i 0).val ∧ (i 0).val < win0_2.index ⟨(i 1).val / 32000, ht⟩ (0 : Fin 2) * 16 + 16; rw [e4]; omega
  | ⟨1, _⟩ => show win0_2.index ⟨(i 1).val / 32000, ht⟩ (1 : Fin 2) * 32000 ≤ (i 1).val ∧ (i 1).val < win0_2.index ⟨(i 1).val / 32000, ht⟩ (1 : Fin 2) * 32000 + 32000; rw [e5]; show (i 1).val / 32000 * 32000 ≤ (i 1).val ∧ (i 1).val < (i 1).val / 32000 * 32000 + 32000; omega

/-- The result array of the first kernel after its run: the negated Gram rows of the two operand arrays. -/
theorem final0 (c : Dev nD) :
    (dat0 (F := Ideal) V c).arrAt 2 cfg0.N = Cert.Spec.gram0 (V c main_v15) (V c main_v17) :=
  (dat0 V c).arrAt_eq_of_cover 2 (gram0 (V c main_v15) (V c main_v17)) (fun t _ => flushed0_eq V c t) cover0

end Blocks

end Cert.KernelIdeal.RegVal
end
-- ==== Proof.IVal1.lean ====
import proofs.«133138_j18459769438526_1_alg».proof.Proof.IOut
import proofs.«133138_j18459769438526_1_alg».proof.Proof.IVal0
import proofs.«133138_j18459769438526_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Cert.KernelIdeal.Reg Cert.Spec
open Idealize.ShloMosaic Idealize.ShloMosaic.TcCoe Idealize.ShloMosaic.ValueIdx
open Idealize.SL.Sem
open Idealize.ShloMosaic.Pipeline (Dat Cfg Window)

/-! # What the second kernel leaves in its result array

Row `4·j + k` of a result block is `Σ_i a(4i+j, l) · a(4i+k, l)` of the one operand block, lane by lane; a block of the
result array is read off the operand array's block at the same lanes, and the 50 blocks of 32000 lanes tile the 1600000
lanes. So the array ends holding `Cert.Spec.gram1` of the operand array. -/

/-- At an index whose row is `4·j + k` and whose lane is `l`, `gram1` is the Gram row `(j, k)` of the array with itself at `l`. -/
theorem gram1_at {n : ℕ} (a : (⟨2, ![16, n]⟩ : Shape).Idx → EReal) (y : (⟨2, ![16, n]⟩ : Shape).Idx) (j k : Fin 4) (l : Fin n)
    (h0 : (y 0).val = 4 * j.val + k.val) (h1 : (y 1).val = l.val) : gram1 a y = gramRow a a j k l := by
  have ej : (y 0).val / 4 = j.val := by omega
  have ek : (y 0).val % 4 = k.val := by omega
  have el : y 1 = l := Fin.ext h1
  unfold gram1
  simp only [ej, ek, el, Fin.eta]

/-! ## The sixteen stored rows

Each stored row is the body's arithmetic on rows of the loaded block: products of two of its rows, added left to right.
Read at lane `l` it is a Gram row of the block with itself. -/

/-- Opens the body's arithmetic at a lane: the load reads the block, the pointwise operations act lane by lane, each cut
    row reads the block at that row. -/
macro "self_row_at_lane" : tactic => `(tactic| (
  rw [View.ld_unit_zero (S := S16x32000) hz]
  simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, shapeCast_self, shapeCast_a_1a_apply,
    mulf_apply, addf_apply, broadcast_apply, rowRead]
  rfl))

theorem row1_0 (x0 : Vec Ideal S16x32000 .f32) (u : Fin 1) (l : Fin 32000) :
    k1_pay4 (View.ld x0 rF) (ix2 u l) = gramRow x0 x0 0 0 l := by
  self_row_at_lane

theorem row1_1 (x0 : Vec Ideal S16x32000 .f32) (u : Fin 1) (l : Fin 32000) :
    k1_pay6 (k1_pay5 (View.ld x0 rF)) (ix2 u l) = gramRow x0 x0 0 1 l := by
  self_row_at_lane

theorem row1_2 (x0 : Vec Ideal S16x32000 .f32) (u : Fin 1) (l : Fin 32000) :
    k1_pay7 (k1_pay3 (View.ld x0 rF)) (ix2 u l) = gramRow x0 x0 0 2 l := by
  self_row_at_lane

theorem row1_3 (x0 : Vec Ideal S16x32000 .f32) (u : Fin 1) (l : Fin 32000) :
    k1_pay8 (k1_pay3 (View.ld x0 rF)) (ix2 u l) = gramRow x0 x0 0 3 l := by
  self_row_at_lane

theorem row1_4 (x0 : Vec Ideal S16x32000 .f32) (u : Fin 1) (l : Fin 32000) :
    k1_pay9 (k1_pay3 (View.ld x0 rF)) (ix2 u l) = gramRow x0 x0 1 0 l := by
  self_row_at_lane

theorem row1_5 (x0 : Vec Ideal S16x32000 .f32) (u : Fin 1) (l : Fin 32000) :
    k1_pay10 (k1_pay3 (View.ld x0 rF)) (ix2 u l) = gramRow x0 x0 1 1 l := by
  self_row_at_lane

theorem row1_6 (x0 : Vec Ideal S16x32000 .f32) (u : Fin 1) (l : Fin 32000) :
    k1_pay12 (k1_pay3 (View.ld x0 rF)) (k1_pay11 (k1_pay3 (View.ld x0 rF))) (ix2 u l) = gramRow x0 x0 1 2 l := by
  self_row_at_lane

theorem row1_7 (x0 : Vec Ideal S16x32000 .f32) (u : Fin 1) (l : Fin 32000) :
    k1_pay13 (k1_pay3 (View.ld x0 rF)) (ix2 u l) = gramRow x0 x0 1 3 l := by
  self_row_at_lane

theorem row1_8 (x0 : Vec Ideal S16x32000 .f32) (u : Fin 1) (l : Fin 32000) :
    k1_pay16 (k1_pay3 (View.ld x0 rF)) (k1_pay14 (k1_pay3 (View.ld x0 rF))) (k1_pay15 (k1_pay3 (View.ld x0 rF))) (ix2 u l) = gramRow x0 x0 2 0 l := by
  self_row_at_lane

theorem row1_9 (x0 : Vec Ideal S16x32000 .f32) (u : Fin 1) (l : Fin 32000) :
    k1_pay17 (k1_pay3 (View.ld x0 rF)) (ix2 u l) = gramRow x0 x0 2 1 l := by
  self_row_at_lane

theorem row1_10 (x0 : Vec Ideal S16x32000 .f32) (u : Fin 1) (l : Fin 32000) :
    k1_pay19 (k1_pay3 (View.ld x0 rF)) (k1_pay18 (k1_pay3 (View.ld x0 rF))) (ix2 u l) = gramRow x0 x0 2 2 l := by
  self_row_at_lane

theorem row1_11 (x0 : Vec Ideal S16x32000 .f32) (u : Fin 1) (l : Fin 32000) :
    k1_pay20 (k1_pay3 (View.ld x0 rF)) (ix2 u l) = gramRow x0 x0 2 3 l := by
  self_row_at_lane

theorem row1_12 (x0 : Vec Ideal S16x32000 .f32) (u : Fin 1) (l : Fin 32000) :
    k1_pay23 (k1_pay3 (View.ld x0 rF)) (k1_pay21 (k1_pay3 (View.ld x0 rF))) (k1_pay22 (k1_pay3 (View.ld x0 rF))) (ix2 u l) = gramRow x0 x0 3 0 l := by
  self_row_at_lane

theorem row1_13 (x0 : Vec Ideal S16x32000 .f32) (u : Fin 1) (l : Fin 32000) :
    k1_pay24 (k1_pay3 (View.ld x0 rF)) (ix2 u l) = gramRow x0 x0 3 1 l := by
  self_row_at_lane

theorem row1_14 (x0 : Vec Ideal S16x32000 .f32) (u : Fin 1) (l : Fin 32000) :
    k1_pay1 (k1_pay3 (View.ld x0 rF)) (k1_pay25 (k1_pay3 (View.ld x0 rF))) (k1_pay26 (k1_pay3 (View.ld x0 rF))) (k1_pay27 (k1_pay3 (View.ld x0 rF))) (ix2 u l) = gramRow x0 x0 3 2 l := by
  self_row_at_lane

theorem row1_15 (x0 : Vec Ideal S16x32000 .f32) (u : Fin 1) (l : Fin 32000) :
    k1_pay2 (k1_pay3 (View.ld x0 rF)) (ix2 u l) = gramRow x0 x0 3 3 l := by
  self_row_at_lane

/-! ## The block the body leaves -/

/-- The result block after the body is `gram1` of the operand block: each of the sixteen stored rows is `gram1` on its
    row, and the rows cover the block. -/
theorem out1_1_eq (x0 : Vec Ideal S16x32000 .f32) : out1_1 x0 = gram1 x0 := by
  funext y
  unfold out1_1
  refine View.canon_apply_of_pieces (Val := Elt Ideal) (S := S16x32000) (e := .f32) (gram1 x0) _ (fun p hp x => ?_) y (cover0_2 _ _ _ _ _ _ _ _ _ _ _ _ _ _ _ _ y)
  simp only [List.mem_cons, List.mem_nil_iff, or_false] at hp
  rcases hp with rfl | rfl | rfl | rfl | rfl | rfl | rfl | rfl | rfl | rfl | rfl | rfl | rfl | rfl | rfl | rfl
  · obtain ⟨u, l, rfl⟩ : ∃ (u : Fin 1) (l : Fin 32000), x = ix2 u l := ⟨x 0, x 1, eq_ix2 x⟩
    refine (row1_15 x0 u l).trans (gram1_at x0 _ 3 3 l ?_ ?_).symm
    · show 15 + 1 * u.val = 4 * 3 + 3; omega
    · show 0 + 1 * l.val = l.val; omega
  · obtain ⟨u, l, rfl⟩ : ∃ (u : Fin 1) (l : Fin 32000), x = ix2 u l := ⟨x 0, x 1, eq_ix2 x⟩
    refine (row1_14 x0 u l).trans (gram1_at x0 _ 3 2 l ?_ ?_).symm
    · show 14 + 1 * u.val = 4 * 3 + 2; omega
    · show 0 + 1 * l.val = l.val; omega
  · obtain ⟨u, l, rfl⟩ : ∃ (u : Fin 1) (l : Fin 32000), x = ix2 u l := ⟨x 0, x 1, eq_ix2 x⟩
    refine (row1_13 x0 u l).trans (gram1_at x0 _ 3 1 l ?_ ?_).symm
    · show 13 + 1 * u.val = 4 * 3 + 1; omega
    · show 0 + 1 * l.val = l.val; omega
  · obtain ⟨u, l, rfl⟩ : ∃ (u : Fin 1) (l : Fin 32000), x = ix2 u l := ⟨x 0, x 1, eq_ix2 x⟩
    refine (row1_12 x0 u l).trans (gram1_at x0 _ 3 0 l ?_ ?_).symm
    · show 12 + 1 * u.val = 4 * 3 + 0; omega
    · show 0 + 1 * l.val = l.val; omega
  · obtain ⟨u, l, rfl⟩ : ∃ (u : Fin 1) (l : Fin 32000), x = ix2 u l := ⟨x 0, x 1, eq_ix2 x⟩
    refine (row1_11 x0 u l).trans (gram1_at x0 _ 2 3 l ?_ ?_).symm
    · show 11 + 1 * u.val = 4 * 2 + 3; omega
    · show 0 + 1 * l.val = l.val; omega
  · obtain ⟨u, l, rfl⟩ : ∃ (u : Fin 1) (l : Fin 32000), x = ix2 u l := ⟨x 0, x 1, eq_ix2 x⟩
    refine (row1_10 x0 u l).trans (gram1_at x0 _ 2 2 l ?_ ?_).symm
    · show 10 + 1 * u.val = 4 * 2 + 2; omega
    · show 0 + 1 * l.val = l.val; omega
  · obtain ⟨u, l, rfl⟩ : ∃ (u : Fin 1) (l : Fin 32000), x = ix2 u l := ⟨x 0, x 1, eq_ix2 x⟩
    refine (row1_9 x0 u l).trans (gram1_at x0 _ 2 1 l ?_ ?_).symm
    · show 9 + 1 * u.val = 4 * 2 + 1; omega
    · show 0 + 1 * l.val = l.val; omega
  · obtain ⟨u, l, rfl⟩ : ∃ (u : Fin 1) (l : Fin 32000), x = ix2 u l := ⟨x 0, x 1, eq_ix2 x⟩
    refine (row1_8 x0 u l).trans (gram1_at x0 _ 2 0 l ?_ ?_).symm
    · show 8 + 1 * u.val = 4 * 2 + 0; omega
    · show 0 + 1 * l.val = l.val; omega
  · obtain ⟨u, l, rfl⟩ : ∃ (u : Fin 1) (l : Fin 32000), x = ix2 u l := ⟨x 0, x 1, eq_ix2 x⟩
    refine (row1_7 x0 u l).trans (gram1_at x0 _ 1 3 l ?_ ?_).symm
    · show 7 + 1 * u.val = 4 * 1 + 3; omega
    · show 0 + 1 * l.val = l.val; omega
  · obtain ⟨u, l, rfl⟩ : ∃ (u : Fin 1) (l : Fin 32000), x = ix2 u l := ⟨x 0, x 1, eq_ix2 x⟩
    refine (row1_6 x0 u l).trans (gram1_at x0 _ 1 2 l ?_ ?_).symm
    · show 6 + 1 * u.val = 4 * 1 + 2; omega
    · show 0 + 1 * l.val = l.val; omega
  · obtain ⟨u, l, rfl⟩ : ∃ (u : Fin 1) (l : Fin 32000), x = ix2 u l := ⟨x 0, x 1, eq_ix2 x⟩
    refine (row1_5 x0 u l).trans (gram1_at x0 _ 1 1 l ?_ ?_).symm
    · show 5 + 1 * u.val = 4 * 1 + 1; omega
    · show 0 + 1 * l.val = l.val; omega
  · obtain ⟨u, l, rfl⟩ : ∃ (u : Fin 1) (l : Fin 32000), x = ix2 u l := ⟨x 0, x 1, eq_ix2 x⟩
    refine (row1_4 x0 u l).trans (gram1_at x0 _ 1 0 l ?_ ?_).symm
    · show 4 + 1 * u.val = 4 * 1 + 0; omega
    · show 0 + 1 * l.val = l.val; omega
  · obtain ⟨u, l, rfl⟩ : ∃ (u : Fin 1) (l : Fin 32000), x = ix2 u l := ⟨x 0, x 1, eq_ix2 x⟩
    refine (row1_3 x0 u l).trans (gram1_at x0 _ 0 3 l ?_ ?_).symm
    · show 3 + 1 * u.val = 4 * 0 + 3; omega
    · show 0 + 1 * l.val = l.val; omega
  · obtain ⟨u, l, rfl⟩ : ∃ (u : Fin 1) (l : Fin 32000), x = ix2 u l := ⟨x 0, x 1, eq_ix2 x⟩
    refine (row1_2 x0 u l).trans (gram1_at x0 _ 0 2 l ?_ ?_).symm
    · show 2 + 1 * u.val = 4 * 0 + 2; omega
    · show 0 + 1 * l.val = l.val; omega
  · obtain ⟨u, l, rfl⟩ : ∃ (u : Fin 1) (l : Fin 32000), x = ix2 u l := ⟨x 0, x 1, eq_ix2 x⟩
    refine (row1_1 x0 u l).trans (gram1_at x0 _ 0 1 l ?_ ?_).symm
    · show 1 + 1 * u.val = 4 * 0 + 1; omega
    · show 0 + 1 * l.val = l.val; omega
  · obtain ⟨u, l, rfl⟩ : ∃ (u : Fin 1) (l : Fin 32000), x = ix2 u l := ⟨x 0, x 1, eq_ix2 x⟩
    refine (row1_0 x0 u l).trans (gram1_at x0 _ 0 0 l ?_ ?_).symm
    · show 0 + 1 * u.val = 4 * 0 + 0; omega
    · show 0 + 1 * l.val = l.val; omega

/-! ## From blocks to the array

Both windows of the second pipeline have the same index map: block `(0, t)` at point `t`. So an element `(r, l)` of a block
at point `t` sits at `(r, 32000·t + l)` of its array, in the operand and in the result alike. -/

/-- The printed index maps, decided over the grid. -/
theorem idx_facts1 : ∀ t : Fin cfg1.N,
    win1_0.index t (0 : Fin 2) = 0 ∧ win1_0.index t (1 : Fin 2) = t.val
    ∧ win1_1.index t (0 : Fin 2) = 0 ∧ win1_1.index t (1 : Fin 2) = t.val :=
  (by decide +kernel : ∀ t : Fin grid1.N, _)

/-- `gram1` of a block that is read off an array at the place `e` — same row, lanes moved by one offset — is `gram1` of
    the array read at `e`: a Gram row only combines entries of one lane. -/
theorem gram1_block {n : ℕ} (a : (⟨2, ![16, n]⟩ : Shape).Idx → EReal) (x0 : S16x32000.Idx → EReal)
    (e : S16x32000.Idx → (⟨2, ![16, n]⟩ : Shape).Idx) (o : ℕ)
    (he : ∀ y, (e y 0).val = (y 0).val ∧ (e y 1).val = o + (y 1).val)
    (h0 : ∀ y, x0 y = a (e y)) (y : S16x32000.Idx) :
    gram1 x0 y = gram1 a (e y) := by
  have hy : (y 0).val < 16 := (y 0).isLt
  have key : ∀ (r : ℕ) (hr : r < 16), e (ix2 ⟨r, hr⟩ (y 1)) = ix2 ⟨r, hr⟩ (e y 1) := fun r hr => by
    funext d; apply Fin.ext
    match d with
    | ⟨0, _⟩ => exact (he _).1
    | ⟨1, _⟩ => show (e (ix2 ⟨r, hr⟩ (y 1)) 1).val = (e y 1).val; rw [(he _).2, (he y).2]
  rw [gram1_at x0 y ⟨(y 0).val / 4, by omega⟩ ⟨(y 0).val % 4, by omega⟩ (y 1) (by show (y 0).val = 4 * ((y 0).val / 4) + (y 0).val % 4; omega) rfl,
    gram1_at a (e y) ⟨(y 0).val / 4, by omega⟩ ⟨(y 0).val % 4, by omega⟩ (e y 1) (by show (e y 0).val = 4 * ((y 0).val / 4) + (y 0).val % 4; rw [(he y).1]; omega) rfl]
  simp only [gramRow, rowAt, h0, key]
  rfl

section Blocks
variable (V : (c : Dev nD) → (b : Ref sig .tc) → Buf (Elt Ideal) ((c : Thread nD τ).loc b))

/-- Where an element of the result block at point `t` sits in the array. -/
theorem emb1_1 (t : Fin cfg1.N) (y : S16x32000.Idx) :
    ((((cfg1.win 1).blk t).view.emb y : S16x1600000.Idx) 0).val = (y 0).val
    ∧ ((((cfg1.win 1).blk t).view.emb y : S16x1600000.Idx) 1).val = 32000 * t.val + (y 1).val := by
  obtain ⟨-, -, e2, e3⟩ := idx_facts1 t
  constructor
  · show win1_1.index t (0 : Fin 2) * 16 + 1 * (y 0).val = (y 0).val; rw [e2]; omega
  · show win1_1.index t (1 : Fin 2) * 32000 + 1 * (y 1).val = 32000 * t.val + (y 1).val; rw [e3]; omega

/-- The operand's block at point `t`, read where the result's block sits. -/
theorem iblk1_0_eq (c : Dev nD) (t : Fin cfg1.N) (y : S16x32000.Idx) :
    (iblk1 V c 0 t : S16x32000.Idx → EReal) y = (V c main_v19 : S16x1600000.Idx → EReal) (((cfg1.win 1).blk t).view.emb y) := by
  obtain ⟨e0, e1, e2, e3⟩ := idx_facts1 t
  show (V c main_v19 : S16x1600000.Idx → EReal) (((cfg1.win 0).blk t).view.emb y) = V c main_v19 (((cfg1.win 1).blk t).view.emb y)
  refine congrArg _ (funext fun a => Fin.ext ?_)
  match a with
  | ⟨0, _⟩ => show win1_0.index t (0 : Fin 2) * 16 + 1 * (y 0).val = win1_1.index t (0 : Fin 2) * 16 + 1 * (y 0).val; rw [e0, e2]
  | ⟨1, _⟩ => show win1_0.index t (1 : Fin 2) * 32000 + 1 * (y 1).val = win1_1.index t (1 : Fin 2) * 32000 + 1 * (y 1).val; rw [e1, e3]

/-- What point `t` writes back is block `t` of `gram1` of the operand array. -/
theorem flushed1_eq (c : Dev nD) (t : Fin cfg1.N) :
    (dat1 (F := Ideal) V c).flushed 1 t
      = ((cfg1.win 1).blk t).view.read (Elt Ideal) (gram1 (V c main_v19)) := by
  show (cfg1.win 1).cut (grid1.coords t) ((dat1 V c).after 1 t) = _
  rw [after1_1, out1_1_eq]
  funext y
  exact gram1_block (V c main_v19) (iblk1 V c 0 t) (((cfg1.win 1).blk t).view.emb)
    (32000 * t.val) (emb1_1 t) (iblk1_0_eq V c t) y

/-- Every lane of the result array is in some point's block: lane `e` in point `e / 32000`'s. -/
theorem cover1 (i : S16x1600000.Idx) :
    ∃ t : Fin cfg1.N, (cfg1.win 1).flush t = true ∧ i ∈ ((cfg1.win 1).blk t).view.set := by
  have hi0 : (i 0).val < 16 := (i 0).isLt
  have hi1 : (i 1).val < 1600000 := (i 1).isLt
  have hN : cfg1.N = 50 := N_1
  have ht : (i 1).val / 32000 < cfg1.N := by rw [hN]; omega
  refine ⟨⟨(i 1).val / 32000, ht⟩, flush1_1 _, ?_⟩
  obtain ⟨-, -, e2, e3⟩ := idx_facts1 ⟨(i 1).val / 32000, ht⟩
  show i ∈ ((View.whole main_v21).slice (win1_1.rect ⟨(i 1).val / 32000, ht⟩)).set
  rw [View.set_slice_whole, Rect.mem_set_unit]
  intro a
  match a with
  | ⟨0, _⟩ => show win1_1.index ⟨(i 1).val / 32000, ht⟩ (0 : Fin 2) * 16 ≤ (i 0).val ∧ (i 0).val < win1_1.index ⟨(i 1).val / 32000, ht⟩ (0 : Fin 2) * 16 + 16; rw [e2]; omega
  | ⟨1, _⟩ => show win1_1.index ⟨(i 1).val / 32000, ht⟩ (1 : Fin 2) * 32000 ≤ (i 1).val ∧ (i 1).val < win1_1.index ⟨(i 1).val / 32000, ht⟩ (1 : Fin 2) * 32000 + 32000; rw [e3]; show (i 1).val / 32000 * 32000 ≤ (i 1).val ∧ (i 1).val < (i 1).val / 32000 * 32000 + 32000; omega

/-- The result array of the second kernel after its run: the Gram rows of the operand array with itself. -/
theorem final1 (c : Dev nD) :
    (dat1 (F := Ideal) V c).arrAt 1 cfg1.N = Cert.Spec.gram1 (V c main_v19) :=
  (dat1 V c).arrAt_eq_of_cover 1 (gram1 (V c main_v19)) (fun t _ => flushed1_eq V c t) cover1

end Blocks

end Cert.KernelIdeal.RegVal
end
-- ==== Proof.Spec2.lean ====
import proofs.«133138_j18459769438526_1_alg».proof.Proof.Spec

/-! # The layouts between an `n × 4 × 4` array of matrices and its `16 × n` form

The host lays an array `x[e, i, j]` out as `16 × n`: row `4·i + j`, lane `e` (a transpose to `[i, j, e]` and a merge of
the two leading axes), and reads a `16 × n` result back as `[e, j, k] ↦` row `4·j + k`, lane `e`. Through these layouts
the kernels' Gram rows are the batched products `Aₑᵀ Bₑ`. -/

noncomputable section

namespace Cert.Spec

open Idealize.ShloMosaic Idealize.ShloMosaic.ValueIdx

/-- An `n × 4 × 4` array laid out as `16 × n`: row `4·i + j`, lane `e` holds `x[e, i, j]`. -/
def lay16 {n : ℕ} (x : (⟨3, ![n, 4, 4]⟩ : Shape).Idx → EReal) : (⟨2, ![16, n]⟩ : Shape).Idx → EReal := fun y =>
  x (ix3 (y 1) ⟨(y 0).val / 4, by have := idx2_lt0 y; omega⟩ ⟨(y 0).val % 4, by omega⟩)

/-- A `16 × n` array read back as `n × 4 × 4`: `[e, j, k]` is row `4·j + k`, lane `e`. -/
def unlay16 {n : ℕ} (g : (⟨2, ![16, n]⟩ : Shape).Idx → EReal) : (⟨3, ![n, 4, 4]⟩ : Shape).Idx → EReal := fun z =>
  g (ix2 ⟨4 * (z 1).val + (z 2).val, by have h1 : (z 1).val < 4 := (z 1).isLt; have h2 : (z 2).val < 4 := (z 2).isLt; omega⟩ (z 0))

/-- The batched product `[e, j, k] ↦ Σ_i l[e, i, j] · r[e, i, k]` (`Aₑᵀ Bₑ`), as a sum over `Fin 4`. -/
def bprod {n : ℕ} (l r : (⟨3, ![n, 4, 4]⟩ : Shape).Idx → EReal) : (⟨3, ![n, 4, 4]⟩ : Shape).Idx → EReal := fun z =>
  ∑ i : Fin 4, l (ix3 (z 0) i (z 1)) * r (ix3 (z 0) i (z 2))

end Cert.Spec

end
-- ==== Proof.IHost.lean ====
import proofs.«133138_j18459769438526_1_alg».proof.Proof.IRun
import proofs.«133138_j18459769438526_1_alg».proof.Proof.Spec2
import proofs.«133138_j18459769438526_1_alg».proof.Proof.RefRead
import Idealize.ShloMosaic.Lib.Pipeline.Value
import Idealize.ShloMosaic.Lib.ValueIdx
import Idealize.ShloMosaic.Lib.ValueLayout
import Idealize.ShloMosaic.Lib.StableHlo.Run

/-! # The host operations around the two kernels, read as functions

Before the kernels the host moves the edge axis of each `n × 4 × 4` operand last and merges the two matrix axes: the
`16 × n` layout `lay16`. After them it splits the row axis of each `16 × n` result in two and moves the edge axis
first: `unlay16`. The two gathered operands are the same functions of the arguments as the reference's. -/

noncomputable section

namespace Cert.Spec

open Idealize.ShloMosaic Idealize.ShloMosaic.ValueIdx

/-- Moving the edge axis last (`[e, i, j] ↦ [i, j, e]`) and merging the two leading axes is the `16 × n` layout:
    row `r`, lane `e` of the result is position `(r / 4, r % 4, e)` of the transposed array, which is `x[e, r / 4, r % 4]`. -/
theorem lay16_of_ops {n : ℕ} (x : (⟨3, ![n, 4, 4]⟩ : Shape).Idx → EReal)
    (ht : (⟨3, ![n, 4, 4]⟩ : Shape).Transposes [1, 2, 0] ⟨3, ![4, 4, n]⟩)
    (hc : (⟨3, ![4, 4, n]⟩ : Shape).ShapeCasts ⟨2, ![16, n]⟩) :
    shapeCast ⟨2, ![16, n]⟩ (transpose ⟨3, ![4, 4, n]⟩ [1, 2, 0] x ht) hc = lay16 x := by
  funext y
  have h0 := idx2_lt0 y
  refine (shapeCast_apply _ hc y (ix3 ⟨(y 0).val / 4, by omega⟩ ⟨(y 0).val % 4, by omega⟩ (y 1)) ?_).trans ?_
  · rw [Shape.rowMajor_val_three, Shape.rowMajor_val_two]
    show ((y 0).val / 4 * 4 + (y 0).val % 4) * n + (y 1).val = (y 0).val * n + (y 1).val
    rw [Nat.div_add_mod']
  · unfold lay16
    exact transpose_apply _ x ht _ _ fun b => match b with | ⟨0, _⟩ => rfl | ⟨1, _⟩ => rfl | ⟨2, _⟩ => rfl

/-- Splitting the row axis of a `16 × n` array in two and moving the edge axis first reads it back as `n × 4 × 4`:
    `[e, j, k]` of the result is position `(j, k, e)` of the split array, which is row `4·j + k`, lane `e`. -/
theorem unlay16_of_ops {n : ℕ} (g : (⟨2, ![16, n]⟩ : Shape).Idx → EReal)
    (hc : (⟨2, ![16, n]⟩ : Shape).ShapeCasts ⟨3, ![4, 4, n]⟩)
    (ht : (⟨3, ![4, 4, n]⟩ : Shape).Transposes [2, 0, 1] ⟨3, ![n, 4, 4]⟩) :
    transpose ⟨3, ![n, 4, 4]⟩ [2, 0, 1] (shapeCast ⟨3, ![4, 4, n]⟩ g hc) ht = unlay16 g := by
  funext z
  refine (transpose_apply _ _ ht z (ix3 (z 1) (z 2) (z 0)) fun b => match b with | ⟨0, _⟩ => rfl | ⟨1, _⟩ => rfl | ⟨2, _⟩ => rfl).trans ?_
  unfold unlay16
  refine shapeCast_apply g hc _ _ ?_
  rw [Shape.rowMajor_val_two, Shape.rowMajor_val_three]
  show (4 * (z 1).val + (z 2).val) * n + (z 0).val = ((z 1).val * 4 + (z 2).val) * n + (z 0).val
  rw [Nat.mul_comm 4]

end Cert.Spec

namespace Cert.KernelIdeal.Host

open Cert.KernelIdeal Cert.KernelIdeal.Gen Cert.KernelIdeal.Run Cert.Spec
open Idealize.ShloMosaic Idealize.ShloMosaic.TcCoe Idealize.ShloMosaic.StableHlo Idealize.ShloMosaic.ValueIdx
open Idealize.SL.Sem

variable (m : (ℓ : Loc nD τ sig) → Buf (Elt Ideal) ℓ) (c : Dev nD)

/-! ## Before the kernels -/

/-- The first kernel's left operand is the gathered left matrices in the `16 × n` layout. -/
theorem v15_eq : V1 m c main_v15 = lay16 (V1 m c main_v6) := by
  show StableHlo.after hostOps0 (fun b => m (c, b)) (Proc.devRef .tc main_v15)
    = lay16 (StableHlo.after hostOps0 (fun b => m (c, b)) (Proc.devRef .tc main_v6))
  after_results_simp
  exact lay16_of_ops _ _ _

/-- The first kernel's right operand is the gathered right matrices in the `16 × n` layout. -/
theorem v17_eq : V1 m c main_v17 = lay16 (V1 m c main_v13) := by
  show StableHlo.after hostOps0 (fun b => m (c, b)) (Proc.devRef .tc main_v17)
    = lay16 (StableHlo.after hostOps0 (fun b => m (c, b)) (Proc.devRef .tc main_v13))
  after_results_simp
  exact lay16_of_ops _ _ _

/-- The second kernel's operand is the whole array of matrices in the `16 × n` layout. -/
theorem v19_eq : V1 m c main_v19 = lay16 (m ((c.tc : Thread nD τ).loc main_arg0)) := by
  show StableHlo.after hostOps0 (fun b => m (c, b)) (Proc.devRef .tc main_v19) = _
  after_results_simp
  exact lay16_of_ops _ _ _

/-- The first kernel writes its own result array only: the second kernel's operand is as the host left it. -/
theorem mid_v19 : Vmid m c main_v19 = V1 m c main_v19 := by
  unfold Vmid
  exact Function.update_of_ne (StableHlo.devRef_ne_of_ne (by decide) : (Proc.devRef .tc main_v19 : DevRef τ sig) ≠ Proc.devRef .tc main_v20) _ _

/-- The gathered left matrices are the reference's: the same gather of the matrices by the same normalised index column. -/
theorem v6_eq : V1 m c main_v6 = Cert.ReferenceIdeal.ReadP.val_main_v6 (F := Ideal) (m ((c.tc : Thread nD τ).loc main_arg0)) (m ((c.tc : Thread nD τ).loc main_arg1)) := by
  show StableHlo.after hostOps0 (fun b => m (c, b)) (Proc.devRef .tc main_v6) = _
  after_results_simp
  unfold Cert.ReferenceIdeal.ReadP.val_main_v6 Cert.ReferenceIdeal.ReadP.val_main_v5 Cert.ReferenceIdeal.ReadP.val_main_v4 Cert.ReferenceIdeal.ReadP.val_main_v3 Cert.ReferenceIdeal.ReadP.val_main_v2
    Cert.ReferenceIdeal.ReadP.val_main_v1 Cert.ReferenceIdeal.ReadP.val_main_v0 Cert.ReferenceIdeal.ReadP.val_main_c Cert.ReferenceIdeal.ReadP.val_main_c_0
  rfl

/-- The gathered right matrices are the reference's. -/
theorem v13_eq : V1 m c main_v13 = Cert.ReferenceIdeal.ReadP.val_main_v13 (F := Ideal) (m ((c.tc : Thread nD τ).loc main_arg0)) (m ((c.tc : Thread nD τ).loc main_arg2)) := by
  show StableHlo.after hostOps0 (fun b => m (c, b)) (Proc.devRef .tc main_v13) = _
  after_results_simp
  unfold Cert.ReferenceIdeal.ReadP.val_main_v13 Cert.ReferenceIdeal.ReadP.val_main_v12 Cert.ReferenceIdeal.ReadP.val_main_v11 Cert.ReferenceIdeal.ReadP.val_main_v10 Cert.ReferenceIdeal.ReadP.val_main_v9
    Cert.ReferenceIdeal.ReadP.val_main_v8 Cert.ReferenceIdeal.ReadP.val_main_v7 Cert.ReferenceIdeal.ReadP.val_main_c_1 Cert.ReferenceIdeal.ReadP.val_main_c_2
  rfl

/-! ## After the kernels -/

/-- The first result, read off whatever the two kernels left: the first kernel's array read back as `n × 4 × 4`. -/
theorem v23_raw (outs : Outs (F := Ideal)) : V4 m outs c main_v23 = unlay16 (V3 m outs c main_v20) := by
  show StableHlo.after hostOps2 (V3 m outs c) (Proc.devRef .tc main_v23) = unlay16 (V3 m outs c main_v20)
  generalize V3 m outs c = w
  after_results_simp
  exact unlay16_of_ops _ _ _

/-- The same for the second kernel's array. -/
theorem v25_raw (outs : Outs (F := Ideal)) : V4 m outs c main_v25 = unlay16 (V3 m outs c main_v21) := by
  show StableHlo.after hostOps2 (V3 m outs c) (Proc.devRef .tc main_v25) = unlay16 (V3 m outs c main_v21)
  generalize V3 m outs c = w
  after_results_simp
  exact unlay16_of_ops _ _ _

/-- At the end the first result holds what the first kernel's write-backs fold to, read back as `n × 4 × 4`: no later
    host operation writes it, and the second kernel does not write the first kernel's array. -/
theorem v23_eq : V8 m (outsOf m) c main_v23 = unlay16 (X0 m c) := by
  rw [V8_of m (outsOf m) c main_v23 (by decide), V7_of m (outsOf m) c main_v23 (by decide),
    V6_of m (outsOf m) c main_v23 (by decide), V5_of m (outsOf m) c main_v23 (by decide), v23_raw,
    V3_of m (outsOf m) c main_v20 (by decide), V2_v20]

/-- At the end the self-products hold what the second kernel's write-backs fold to, read back as `n × 4 × 4`. -/
theorem v25_eq : V8 m (outsOf m) c main_v25 = unlay16 (X1 m c) := by
  rw [V8_of m (outsOf m) c main_v25 (by decide), V7_of m (outsOf m) c main_v25 (by decide),
    V6_of m (outsOf m) c main_v25 (by decide), V5_of m (outsOf m) c main_v25 (by decide), v25_raw, V3_v21]

end Cert.KernelIdeal.Host

end
-- ==== Proof.RefVal.lean ====
import proofs.«133138_j18459769438526_1_alg».proof.Proof.RefRead
import proofs.«133138_j18459769438526_1_alg».proof.Proof.Spec2

/-! # The reference's two float stages are batched products, and its tail is one function of them

The reference negates the batched product `LₑᵀRₑ` of the two gathered operands (the result "tril") and forms the batched
product `AₑᵀAₑ` of the input with itself ("diag"). Everything after these two stages — the scatter-add of "diag", the
reshapes, the concatenation and the final gather along the sorted order — reads the float data only through them, so
the last float result is one fixed function `tailW` of "tril", "diag" and the integer arguments. -/

noncomputable section

namespace Cert.ReferenceIdeal.RefVal

open Cert.ReferenceIdeal Cert.ReferenceIdeal.Gen Cert.ReferenceIdeal.ReadP Idealize.ShloMosaic Idealize.ShloMosaic.TcCoe Idealize.SL.Sem Idealize.ShloMosaic.StableHlo

/-- The gathered left operand `maps[left_idx]`. -/
abbrev leftR (x0 : (⟨S1600000x4x4, .f32⟩ : BufTy).Contents (Elt Ideal)) (x1 : (⟨S800000, .i32⟩ : BufTy).Contents (Elt Ideal)) :
    (⟨S800000x4x4, .f32⟩ : BufTy).Contents (Elt Ideal) := val_main_v6 (F := Ideal) x0 x1

/-- The gathered right operand `maps[right_idx]`. -/
abbrev rightR (x0 : (⟨S1600000x4x4, .f32⟩ : BufTy).Contents (Elt Ideal)) (x2 : (⟨S800000, .i32⟩ : BufTy).Contents (Elt Ideal)) :
    (⟨S800000x4x4, .f32⟩ : BufTy).Contents (Elt Ideal) := val_main_v13 (F := Ideal) x0 x2

/-- "tril": the negated batched product `-(LₑᵀRₑ)` of the two gathered operands. -/
theorem ref_tril (x0 : (⟨S1600000x4x4, .f32⟩ : BufTy).Contents (Elt Ideal)) (x1 x2 : (⟨S800000, .i32⟩ : BufTy).Contents (Elt Ideal)) :
    val_main_v15 (F := Ideal) x0 x1 x2
      = fun z => -(Cert.Spec.bprod (n := 800000) (val_main_v6 (F := Ideal) x0 x1) (val_main_v13 (F := Ideal) x0 x2) z) := by
  funext z
  have el : ∀ k : Fin 4, lidx_main_v14 z k = ValueIdx.ix3 (z 0) k (z 1) := fun k => funext fun a => Fin.ext (by
    match a with | ⟨0, _⟩ => rfl | ⟨1, _⟩ => rfl | ⟨2, _⟩ => rfl)
  have er : ∀ k : Fin 4, ridx_main_v14 z k = ValueIdx.ix3 (z 0) k (z 2) := fun k => funext fun a => Fin.ext (by
    match a with | ⟨0, _⟩ => rfl | ⟨1, _⟩ => rfl | ⟨2, _⟩ => rfl)
  rw [val_main_v15_apply, val_main_v14_apply]
  refine congrArg (fun s : EReal => -s) (Finset.sum_congr rfl fun k _ => ?_)
  rw [el k, er k]
  rfl

/-- "diag": the batched product `AₑᵀAₑ` of the input with itself. -/
theorem ref_diag (x0 : (⟨S1600000x4x4, .f32⟩ : BufTy).Contents (Elt Ideal)) :
    val_main_v16 (F := Ideal) x0 = Cert.Spec.bprod (n := 1600000) x0 x0 := by
  funext z
  have el : ∀ k : Fin 4, lidx_main_v16 z k = ValueIdx.ix3 (z 0) k (z 1) := fun k => funext fun a => Fin.ext (by
    match a with | ⟨0, _⟩ => rfl | ⟨1, _⟩ => rfl | ⟨2, _⟩ => rfl)
  have er : ∀ k : Fin 4, ridx_main_v16 z k = ValueIdx.ix3 (z 0) k (z 2) := fun k => funext fun a => Fin.ext (by
    match a with | ⟨0, _⟩ => rfl | ⟨1, _⟩ => rfl | ⟨2, _⟩ => rfl)
  rw [val_main_v16_apply]
  refine Finset.sum_congr rfl fun k _ => ?_
  rw [el k, er k]
  rfl

/-- The reference's tail as ONE function of "tril", "diag" and the integer arguments: "diag" is scatter-added into a
    zero array along `x3` and flattened; two flattened copies of "tril" and that array are joined; the joined array is
    gathered along the integer stage computed from `x4`, `x5`. -/
def tailW (tril : (⟨S800000x4x4, .f32⟩ : BufTy).Contents (Elt Ideal)) (diag : (⟨S1600000x4x4, .f32⟩ : BufTy).Contents (Elt Ideal))
    (x3 : (⟨S1600000, .i32⟩ : BufTy).Contents (Elt Ideal)) (x4 : (⟨S2x12800000, .i32⟩ : BufTy).Contents (Elt Ideal))
    (x5 : (⟨S2x800000, .i32⟩ : BufTy).Contents (Elt Ideal)) : (⟨S26400000, .f32⟩ : BufTy).Contents (Elt Ideal) :=
  Host.gather gather_S26400000_S26400000x1_S26400000_n_0_n_n_0_1_1
    (concatenate S26400000 0
      [⟨S12800000, (shapeCast _ tril shapeCasts_S800000x4x4_S12800000 : (⟨S12800000, .f32⟩ : BufTy).Contents (Elt Ideal))⟩,
       ⟨S12800000, (shapeCast _ tril shapeCasts_S800000x4x4_S12800000 : (⟨S12800000, .f32⟩ : BufTy).Contents (Elt Ideal))⟩,
       ⟨S800000, (shapeCast _ (Host.scatterAdd (F := Ideal) (φ := .f32) scatter_S50000x4x4_S1600000x1_S1600000x4x4_12_0_0_1 (val_main_v17 (F := Ideal)) (val_main_v18 (F := Ideal) x3) diag : (⟨S50000x4x4, .f32⟩ : BufTy).Contents (Elt Ideal)) shapeCasts_S50000x4x4_S800000 : (⟨S800000, .f32⟩ : BufTy).Contents (Elt Ideal))⟩]
      concatenates_S12800000_S12800000_S800000_S26400000_d0)
    (val_main_v75 (F := Ideal) x4 x5)

/-- The reference's last float result is the tail at its own "tril" and "diag". -/
theorem ref_v76 (x0 : (⟨S1600000x4x4, .f32⟩ : BufTy).Contents (Elt Ideal)) (x1 x2 : (⟨S800000, .i32⟩ : BufTy).Contents (Elt Ideal))
    (x3 : (⟨S1600000, .i32⟩ : BufTy).Contents (Elt Ideal)) (x4 : (⟨S2x12800000, .i32⟩ : BufTy).Contents (Elt Ideal))
    (x5 : (⟨S2x800000, .i32⟩ : BufTy).Contents (Elt Ideal)) :
    val_main_v76 (F := Ideal) x0 x1 x2 x3 x4 x5
      = tailW (val_main_v15 (F := Ideal) x0 x1 x2) (val_main_v16 (F := Ideal) x0) x3 x4 x5 := by
  unfold val_main_v76 val_main_v36 val_main_v20 val_main_v35 val_main_v19 tailW
  rfl

/-- Equal "tril" and "diag" give equal tails. -/
theorem tailW_congr {tril tril' : (⟨S800000x4x4, .f32⟩ : BufTy).Contents (Elt Ideal)} {diag diag' : (⟨S1600000x4x4, .f32⟩ : BufTy).Contents (Elt Ideal)}
    (ht : tril = tril') (hd : diag = diag') (x3 : (⟨S1600000, .i32⟩ : BufTy).Contents (Elt Ideal))
    (x4 : (⟨S2x12800000, .i32⟩ : BufTy).Contents (Elt Ideal)) (x5 : (⟨S2x800000, .i32⟩ : BufTy).Contents (Elt Ideal)) :
    tailW tril diag x3 x4 x5 = tailW tril' diag' x3 x4 x5 := by
  rw [ht, hd]

end Cert.ReferenceIdeal.RefVal

end
-- ==== Proof.Law.lean ====
import proofs.«133138_j18459769438526_1_alg».proof.Proof.Spec2

/-! # The Gram rows, read back through the layouts, are the batched products

Row `4·j + k` of the first kernel's result is `(-1) · Σ_i a(4i+j) · b(4i+k)`; through the layouts `lay16` /
`unlay16` this is `-(AₑᵀBₑ)[j, k]`, and the second kernel's row is `(AₑᵀAₑ)[j, k]`. On the extended reals
`(-1) · x = -x` and the four-term sum, added left to right, is the sum over `Fin 4`. -/

noncomputable section

namespace Cert.Spec

open Idealize.ShloMosaic Idealize.ShloMosaic.ValueIdx

/-- The float word `0xBF800000` denotes `-1`. -/
theorem negOne_eq : (negOne : EReal) = ((-1 : ℝ) : EReal) := by
  show Ideal.ofBits .f32 0xBF800000#32 = ((-1 : ℝ) : EReal)
  simp [Ideal.ofBits, Ideal.ieee, -EReal.coe_mul]; norm_num

/-- `(-1) · x = -x` on the extended reals. -/
theorem negOne_mul (x : EReal) : negOne * x = -x := by
  rw [negOne_eq, EReal.coe_neg, EReal.coe_one, neg_mul, one_mul]

/-- Row `4·i + j`, lane `e` of the laid-out array is `x[e, i, j]`. -/
theorem lay16_at {n : ℕ} (x : (⟨3, ![n, 4, 4]⟩ : Shape).Idx → EReal) (i : ℕ) (hi : i < 4) (j : Fin 4) (e : Fin n)
    (r : ℕ) (hr : r < 16) (h : r = 4 * i + j.val) : lay16 x (ix2 ⟨r, hr⟩ e) = x (ix3 e ⟨i, hi⟩ j) := by
  subst h
  have hj : j.val < 4 := j.isLt
  unfold lay16
  congr 1
  funext a
  match a with
  | ⟨0, _⟩ => rfl
  | ⟨1, _⟩ => exact Fin.ext (show (4 * i + j.val) / 4 = i by omega)
  | ⟨2, _⟩ => exact Fin.ext (show (4 * i + j.val) % 4 = j.val by omega)

/-- The Gram row `(j, k)` of two laid-out arrays is the batched product's entry `(j, k)`. -/
theorem gramRow_lay16 {n : ℕ} (l r : (⟨3, ![n, 4, 4]⟩ : Shape).Idx → EReal) (j k : Fin 4) (e : Fin n) :
    gramRow (lay16 l) (lay16 r) j k e = bprod l r (ix3 e j k) := by
  unfold gramRow rowAt bprod
  rw [Fin.sum_univ_four,
    lay16_at l 0 (by omega) j e j.val _ (by omega), lay16_at r 0 (by omega) k e k.val _ (by omega),
    lay16_at l 1 (by omega) j e (4 + j.val) _ (by omega), lay16_at r 1 (by omega) k e (4 + k.val) _ (by omega),
    lay16_at l 2 (by omega) j e (8 + j.val) _ (by omega), lay16_at r 2 (by omega) k e (8 + k.val) _ (by omega),
    lay16_at l 3 (by omega) j e (12 + j.val) _ (by omega), lay16_at r 3 (by omega) k e (12 + k.val) _ (by omega)]
  rfl

/-- Row `4·j + k` of the first kernel's result is `(-1)` times the Gram row `(j, k)`. -/
theorem gram0_at {n : ℕ} (a b : (⟨2, ![16, n]⟩ : Shape).Idx → EReal) (j k : Fin 4) (e : Fin n)
    (r : ℕ) (hr : r < 16) (h : r = 4 * j.val + k.val) : gram0 a b (ix2 ⟨r, hr⟩ e) = negOne * gramRow a b j k e := by
  subst h
  have hj : j.val < 4 := j.isLt
  have hk : k.val < 4 := k.isLt
  have h1 : (⟨(4 * j.val + k.val) / 4, by omega⟩ : Fin 4) = j := Fin.ext (show (4 * j.val + k.val) / 4 = j.val by omega)
  have h2 : (⟨(4 * j.val + k.val) % 4, by omega⟩ : Fin 4) = k := Fin.ext (show (4 * j.val + k.val) % 4 = k.val by omega)
  show negOne * gramRow a b ⟨(4 * j.val + k.val) / 4, _⟩ ⟨(4 * j.val + k.val) % 4, _⟩ e = _
  rw [h1, h2]

/-- Row `4·j + k` of the second kernel's result is the Gram row `(j, k)`. -/
theorem gram1_at {n : ℕ} (a : (⟨2, ![16, n]⟩ : Shape).Idx → EReal) (j k : Fin 4) (e : Fin n)
    (r : ℕ) (hr : r < 16) (h : r = 4 * j.val + k.val) : gram1 a (ix2 ⟨r, hr⟩ e) = gramRow a a j k e := by
  subst h
  have hj : j.val < 4 := j.isLt
  have hk : k.val < 4 := k.isLt
  have h1 : (⟨(4 * j.val + k.val) / 4, by omega⟩ : Fin 4) = j := Fin.ext (show (4 * j.val + k.val) / 4 = j.val by omega)
  have h2 : (⟨(4 * j.val + k.val) % 4, by omega⟩ : Fin 4) = k := Fin.ext (show (4 * j.val + k.val) % 4 = k.val by omega)
  show gramRow a a ⟨(4 * j.val + k.val) / 4, _⟩ ⟨(4 * j.val + k.val) % 4, _⟩ e = _
  rw [h1, h2]

/-- The first kernel's result on laid-out operands, read back, is the negated batched product. -/
theorem unlay_gram0 {n : ℕ} (l r : (⟨3, ![n, 4, 4]⟩ : Shape).Idx → EReal) :
    unlay16 (gram0 (lay16 l) (lay16 r)) = fun z => -(bprod l r z) := by
  funext z
  obtain ⟨e, j, k, rfl⟩ : ∃ e j k, z = ix3 e j k := ⟨z 0, z 1, z 2, eq_ix3 z⟩
  have h16 : 4 * j.val + k.val < 16 := by have := j.isLt; have := k.isLt; omega
  show gram0 (lay16 l) (lay16 r) (ix2 ⟨4 * j.val + k.val, h16⟩ e) = -(bprod l r (ix3 e j k))
  rw [gram0_at _ _ j k e _ h16 rfl, gramRow_lay16, negOne_mul]

/-- The second kernel's result on a laid-out operand, read back, is the batched product with itself. -/
theorem unlay_gram1 {n : ℕ} (x : (⟨3, ![n, 4, 4]⟩ : Shape).Idx → EReal) :
    unlay16 (gram1 (lay16 x)) = bprod x x := by
  funext z
  obtain ⟨e, j, k, rfl⟩ : ∃ e j k, z = ix3 e j k := ⟨z 0, z 1, z 2, eq_ix3 z⟩
  have h16 : 4 * j.val + k.val < 16 := by have := j.isLt; have := k.isLt; omega
  show gram1 (lay16 x) (ix2 ⟨4 * j.val + k.val, h16⟩ e) = bprod x x (ix3 e j k)
  rw [gram1_at _ j k e _ h16 rfl, gramRow_lay16]

end Cert.Spec

end
-- ==== Proof.Bridge.lean ====
import proofs.«133138_j18459769438526_1_alg».proof.Proof.IRun
import proofs.«133138_j18459769438526_1_alg».proof.Proof.IVal1
import proofs.«133138_j18459769438526_1_alg».proof.Proof.IHost
import proofs.«133138_j18459769438526_1_alg».proof.Proof.RefVal
import proofs.«133138_j18459769438526_1_alg».proof.Proof.Law

/-! # The kernel program's three results are the reference's

Both programs gather the same two stacks of 4 × 4 matrices `L`, `R` out of `maps`. The kernel lays them out as 16 × n
arrays, takes the negated Gram rows block by block and reads the result back as `[e, j, k]`; through the two layouts that
is `-(Lₑᵀ Rₑ)`, the reference's negated batched product. The same holds without the sign for `maps` against itself.
Everything after these two arrays — the scatter-add by source node, the three concatenations, the two stable sorts and the
gathers by the sorted order — is one function of them and of the integer arguments, the same in both programs. -/

noncomputable section

namespace Cert.Proof.Bridge

open Idealize.ShloMosaic Idealize.ShloMosaic.TcCoe Idealize.SL.Sem
open Cert.KernelIdeal Cert.KernelIdeal.Gen Cert.KernelIdeal.Reg Cert.KernelIdeal.Run Cert.Spec
open Cert.ReferenceIdeal.ReadP (val_main_v6 val_main_v13 val_main_v15 val_main_v16 val_main_v69 val_main_v76)

variable (m : (ℓ : Loc nD τ sig) → Buf (Elt Ideal) ℓ) (c : Dev nD)

/-- What the first region leaves: the negated Gram rows of the two gathered stacks in their 16 × n layout. -/
theorem x0_eq : X0 m c = gram0 (lay16 (V1 m c main_v6)) (lay16 (V1 m c main_v13)) := by
  unfold X0
  rw [Cert.KernelIdeal.RegVal.final0 (E1 m) c]
  show gram0 (V1 m c main_v15) (V1 m c main_v17) = _
  rw [Cert.KernelIdeal.Host.v15_eq, Cert.KernelIdeal.Host.v17_eq]

/-- What the second region leaves: the Gram rows of `maps` with itself. -/
theorem x1_eq : X1 m c = gram1 (lay16 (m ((c.tc : Thread nD τ).loc main_arg0))) := by
  unfold X1
  rw [Cert.KernelIdeal.RegVal.final1 (E2 m) c]
  show gram1 (Vmid m c main_v19) = _
  rw [Cert.KernelIdeal.Host.mid_v19, Cert.KernelIdeal.Host.v19_eq]

/-- The kernel's third result is the reference's `-(Lₑᵀ Rₑ)`. -/
theorem tril_eq : V8 m (outsOf m) c main_v23 = val_main_v15 (F := Ideal) (m ((c.tc : Thread nD τ).loc main_arg0)) (m ((c.tc : Thread nD τ).loc main_arg1)) (m ((c.tc : Thread nD τ).loc main_arg2)) := by
  rw [Cert.KernelIdeal.Host.v23_eq, x0_eq, unlay_gram0, Cert.KernelIdeal.Host.v6_eq, Cert.KernelIdeal.Host.v13_eq,
    Cert.ReferenceIdeal.RefVal.ref_tril]

/-- The array the scatter-add consumes is the reference's `Mₑᵀ Mₑ`. -/
theorem diag_eq : V8 m (outsOf m) c main_v25 = val_main_v16 (F := Ideal) (m ((c.tc : Thread nD τ).loc main_arg0)) := by
  rw [Cert.KernelIdeal.Host.v25_eq, x1_eq, unlay_gram1, Cert.ReferenceIdeal.RefVal.ref_diag]

end Cert.Proof.Bridge

end
-- ==== Proof.ITail.lean ====
import proofs.«133138_j18459769438526_1_alg».proof.Proof.IRun
import proofs.«133138_j18459769438526_1_alg».proof.Proof.RefVal
import Idealize.ShloMosaic.Lib.StableHlo.Run

/-! # The kernel program's host tail is the reference's

After its two regions the kernel program runs the same host operations as the reference: the second region's result
is scatter-added into a zero array, two flattened copies of the first region's result and that array are joined, two
sorts of integer keys sliced from the last two arguments give an order, and the joined array and the integer keys are
gathered along it. Each stretch of host operations is read one buffer at a time; the integer stages are the
reference's stage functions of the last two arguments, and the float result is the reference's tail function of the
two regions' (transposed) results. -/

noncomputable section

namespace Cert.KernelIdeal.Tail

open Cert.KernelIdeal Cert.KernelIdeal.Gen Cert.KernelIdeal.Run
open Cert.ReferenceIdeal.ReadP
open Idealize.ShloMosaic Idealize.ShloMosaic.TcCoe Idealize.ShloMosaic.StableHlo
open Idealize.SL.Sem

section Three
variable {τ : Topo} {sig : RefSig} {Val : EltTy → Type} {x a b y : Ref sig .tc}
/-- A three-operand operation's result, each operand's contents read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl
end Three

/-- Reads one buffer after a stretch of host operations: an operation's result at its own buffer is its function's
    value at the operands' contents, and at any other buffer what was there before it. -/
macro "tail_results" : tactic =>
  `(tactic| (simp only [after_cons, after_nil]
             repeat (first
               | rw [nary3_result] | rw [nullary_result] | rw [unary_result] | rw [binary_result] | rw [ternary_result]
               | rw [reshape_result] | rw [nary_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

/-- Steps past one operation that does not write the buffer being read. -/
macro "peel_ne" : tactic =>
  `(tactic| first
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)
      | (rw [nary_result_ne]; rotate_left; decide))

/-! ## The tail's building blocks -/

/-- An order's indices made non-negative (a negative index counts from the end) and laid out as gather indices. -/
def normIdx (v : (⟨S26400000, .i32⟩ : BufTy).Contents (Elt Ideal)) : (⟨S26400000x1, .i32⟩ : BufTy).Contents (Elt Ideal) :=
  broadcastInDim S26400000x1 ![0] bcast_S26400000_S26400000x1_0
    (select (cmpi .slt v (broadcastInDim S26400000 ![] bcast_S_S26400000 (constantI S_ 32 0#32)))
      (addi v (broadcastInDim S26400000 ![] bcast_S_S26400000 (constantI S_ 32 26400000#32))) v)

/-- Three key pieces joined: two slices of the edge keys and one of the vertex keys, flattened. -/
def cat3 (p q : (⟨S1x12800000, .i32⟩ : BufTy).Contents (Elt Ideal)) (r : (⟨S1x800000, .i32⟩ : BufTy).Contents (Elt Ideal)) :
    (⟨S26400000, .i32⟩ : BufTy).Contents (Elt Ideal) :=
  concatenate S26400000 0
    [⟨S12800000, shapeCast _ p shapeCasts_S1x12800000_S12800000⟩,
     ⟨S12800000, shapeCast _ q shapeCasts_S1x12800000_S12800000⟩,
     ⟨S800000, shapeCast _ r shapeCasts_S1x800000_S800000⟩]
    concatenates_S12800000_S12800000_S800000_S26400000_d0

/-- The joined float array: two flattened copies of `tril`, then `diag` scatter-added into zeros along `x3`, flattened. -/
def catW (tril : (⟨S800000x4x4, .f32⟩ : BufTy).Contents (Elt Ideal)) (diag : (⟨S1600000x4x4, .f32⟩ : BufTy).Contents (Elt Ideal))
    (x3 : (⟨S1600000, .i32⟩ : BufTy).Contents (Elt Ideal)) : (⟨S26400000, .f32⟩ : BufTy).Contents (Elt Ideal) :=
  concatenate S26400000 0
    [⟨S12800000, shapeCast _ tril shapeCasts_S800000x4x4_S12800000⟩,
     ⟨S12800000, shapeCast _ tril shapeCasts_S800000x4x4_S12800000⟩,
     ⟨S800000, shapeCast _ (Host.scatterAdd (F := Ideal) scatter_S50000x4x4_S1600000x1_S1600000x4x4_12_0_0_1
        (broadcastInDim S50000x4x4 ![] bcast_S_S50000x4x4 (constant (F := Ideal) S_ .f32 0x00000000#32))
        (broadcastInDim S1600000x1 ![0] bcast_S1600000_S1600000x1_0 x3) diag) shapeCasts_S50000x4x4_S800000⟩]
    concatenates_S12800000_S12800000_S800000_S26400000_d0

/-- A one-row array laid out as a row of the integer result. -/
def row1 (p : (⟨S26400000, .i32⟩ : BufTy).Contents (Elt Ideal)) : (⟨S1x26400000, .i32⟩ : BufTy).Contents (Elt Ideal) :=
  broadcastInDim S1x26400000 ![1] bcast_S26400000_S1x26400000_1 p

/-- Two rows joined. -/
def cat2 (p q : (⟨S1x26400000, .i32⟩ : BufTy).Contents (Elt Ideal)) : (⟨S2x26400000, .i32⟩ : BufTy).Contents (Elt Ideal) :=
  concatenate S2x26400000 0 [⟨S1x26400000, p⟩, ⟨S1x26400000, q⟩] concatenates_S1x26400000_S1x26400000_S2x26400000_d0

/-! ## The stretches, from any contents `W`, in the program's own vocabulary -/

section Stretches
variable (W : Valuation τ sig (Elt Ideal))

set_option maxHeartbeats 2000000 in
theorem k2_v36 : StableHlo.after hostOps2 W (Proc.devRef .tc main_v36)
    = cat3 (extractStridedSlice S1x12800000 ![0, 0] (W (Proc.devRef .tc main_arg4)) slices_S2x12800000_S1x12800000_0_0)
        (extractStridedSlice S1x12800000 ![1, 0] (W (Proc.devRef .tc main_arg4)) slices_S2x12800000_S1x12800000_1_0)
        (extractStridedSlice S1x800000 ![0, 0] (W (Proc.devRef .tc main_arg5)) slices_S2x800000_S1x800000_0_0) := by
  unfold cat3
  tail_results
  rfl

set_option maxHeartbeats 2000000 in
theorem k2_v43 : StableHlo.after hostOps2 W (Proc.devRef .tc main_v43)
    = cat3 (extractStridedSlice S1x12800000 ![1, 0] (W (Proc.devRef .tc main_arg4)) slices_S2x12800000_S1x12800000_1_0)
        (extractStridedSlice S1x12800000 ![0, 0] (W (Proc.devRef .tc main_arg4)) slices_S2x12800000_S1x12800000_0_0)
        (extractStridedSlice S1x800000 ![1, 0] (W (Proc.devRef .tc main_arg5)) slices_S2x800000_S1x800000_1_0) := by
  unfold cat3
  tail_results
  rfl

set_option maxHeartbeats 2000000 in
theorem k2_v45 : StableHlo.after hostOps2 W (Proc.devRef .tc main_v45)
      = catW (StableHlo.after hostOps2 W (Proc.devRef .tc main_v23)) (StableHlo.after hostOps2 W (Proc.devRef .tc main_v25))
          (W (Proc.devRef .tc main_arg3)) := by
  unfold catW
  tail_results
  rfl

set_option maxHeartbeats 2000000 in
theorem k21_v46 : StableHlo.after hostOps2_1 W (Proc.devRef .tc main_v46)
    = (Host.sort2 S26400000 0 comparator_i32_i32_d0 (W (Proc.devRef .tc main_v43)) (iotaInDim S26400000 32 0)).2 := by
  tail_results
  rfl

set_option maxHeartbeats 2000000 in
theorem k22_v53 : StableHlo.after hostOps2_2 W (Proc.devRef .tc main_v53)
    = Host.gather gather_S26400000_S26400000x1_S26400000_n_0_n_n_0_1_1 (W (Proc.devRef .tc main_v36)) (normIdx (W (Proc.devRef .tc main_v46))) := by
  unfold normIdx
  tail_results
  all_goals rfl

set_option maxHeartbeats 2000000 in
theorem k23_v54 : StableHlo.after hostOps2_3 W (Proc.devRef .tc main_v54)
    = (Host.sort2 S26400000 0 comparator_i32_i32_d0 (W (Proc.devRef .tc main_v53)) (iotaInDim S26400000 32 0)).2 := by
  tail_results
  rfl

set_option maxHeartbeats 2000000 in
theorem k24_v61 : StableHlo.after hostOps2_4 W (Proc.devRef .tc main_v61)
    = Host.gather gather_S26400000_S26400000x1_S26400000_n_0_n_n_0_1_1 (W (Proc.devRef .tc main_v46)) (normIdx (W (Proc.devRef .tc main_v54))) := by
  unfold normIdx
  after_results_simp

set_option maxHeartbeats 2000000 in
theorem k24_v68 : StableHlo.after hostOps2_4 W (Proc.devRef .tc main_v68)
    = Host.gather gather_S26400000_S26400000x1_S26400000_n_0_n_n_0_1_1 (W (Proc.devRef .tc main_v36)) (normIdx (StableHlo.after hostOps2_4 W (Proc.devRef .tc main_v61))) := by
  unfold normIdx
  after_results_simp

set_option maxHeartbeats 2000000 in
theorem k24_v75 : StableHlo.after hostOps2_4 W (Proc.devRef .tc main_v75)
    = Host.gather gather_S26400000_S26400000x1_S26400000_n_0_n_n_0_1_1 (W (Proc.devRef .tc main_v43)) (normIdx (StableHlo.after hostOps2_4 W (Proc.devRef .tc main_v61))) := by
  unfold normIdx
  after_results_simp

set_option maxHeartbeats 2000000 in
theorem k24_v76 : StableHlo.after hostOps2_4 W (Proc.devRef .tc main_v76) = row1 (StableHlo.after hostOps2_4 W (Proc.devRef .tc main_v68)) := by
  unfold row1
  after_results_simp

set_option maxHeartbeats 2000000 in
theorem k24_v77 : StableHlo.after hostOps2_4 W (Proc.devRef .tc main_v77) = row1 (StableHlo.after hostOps2_4 W (Proc.devRef .tc main_v75)) := by
  unfold row1
  after_results_simp

set_option maxHeartbeats 2000000 in
theorem k24_v78 : StableHlo.after hostOps2_4 W (Proc.devRef .tc main_v78)
    = cat2 (StableHlo.after hostOps2_4 W (Proc.devRef .tc main_v76)) (StableHlo.after hostOps2_4 W (Proc.devRef .tc main_v77)) := by
  unfold cat2
  simp only [after_cons, after_nil]
  repeat peel_ne
  rw [binary_result]
  repeat peel_ne
  all_goals rfl

set_option maxHeartbeats 2000000 in
theorem k24_v85 : StableHlo.after hostOps2_4 W (Proc.devRef .tc main_v85)
    = Host.gather gather_S26400000_S26400000x1_S26400000_n_0_n_n_0_1_1 (W (Proc.devRef .tc main_v45)) (normIdx (StableHlo.after hostOps2_4 W (Proc.devRef .tc main_v61))) := by
  unfold normIdx
  after_results_simp

end Stretches

/-! ## The same blocks in the reference's vocabulary

The two programs end in the same host operations, so each block above is a stage of the reference once the two programs'
dimension records are identified: the records are equal by unfolding, the shapes are the same literals. -/

section Bridge
variable (x3 : (⟨S1600000, .i32⟩ : BufTy).Contents (Elt Ideal)) (x4 : (⟨S2x12800000, .i32⟩ : BufTy).Contents (Elt Ideal))
  (x5 : (⟨S2x800000, .i32⟩ : BufTy).Contents (Elt Ideal))

theorem g_eq : gather_S26400000_S26400000x1_S26400000_n_0_n_n_0_1_1 = Cert.ReferenceIdeal.gather_S26400000_S26400000x1_S26400000_n_0_n_n_0_1_1 := rfl
theorem cmp_eq : comparator_i32_i32_d0 = Cert.ReferenceIdeal.comparator_i32_i32_d0 := rfl
theorem scat_eq : scatter_S50000x4x4_S1600000x1_S1600000x4x4_12_0_0_1 = Cert.ReferenceIdeal.scatter_S50000x4x4_S1600000x1_S1600000x4x4_12_0_0_1 := rfl

theorem r_v27 : cat3 (extractStridedSlice S1x12800000 ![0, 0] x4 slices_S2x12800000_S1x12800000_0_0)
      (extractStridedSlice S1x12800000 ![1, 0] x4 slices_S2x12800000_S1x12800000_1_0)
      (extractStridedSlice S1x800000 ![0, 0] x5 slices_S2x800000_S1x800000_0_0) = val_main_v27 (F := Ideal) x4 x5 := by
  unfold cat3 val_main_v27 val_main_v22 val_main_v21 val_main_v24 val_main_v23 val_main_v26 val_main_v25
  with_reducible rfl

theorem r_v34 : cat3 (extractStridedSlice S1x12800000 ![1, 0] x4 slices_S2x12800000_S1x12800000_1_0)
      (extractStridedSlice S1x12800000 ![0, 0] x4 slices_S2x12800000_S1x12800000_0_0)
      (extractStridedSlice S1x800000 ![1, 0] x5 slices_S2x800000_S1x800000_1_0) = val_main_v34 (F := Ideal) x4 x5 := by
  unfold cat3 val_main_v34 val_main_v29 val_main_v28 val_main_v31 val_main_v30 val_main_v33 val_main_v32
  with_reducible rfl

theorem r_v37 : (Host.sort2 S26400000 0 comparator_i32_i32_d0 (val_main_v34 (F := Ideal) x4 x5) (iotaInDim S26400000 32 0)).2
    = val_main_v37 (F := Ideal) x4 x5 := by
  unfold val_main_v37 val_main_call0_v0
  rw [cmp_eq]

theorem r_v43 : normIdx (val_main_v37 (F := Ideal) x4 x5) = val_main_v43 (F := Ideal) x4 x5 := by
  unfold normIdx val_main_v43 val_main_v42 val_main_v39 val_main_v41 val_main_v38 val_main_v40 val_main_c_3 val_main_c_4
  with_reducible rfl

theorem r_v44 : Host.gather gather_S26400000_S26400000x1_S26400000_n_0_n_n_0_1_1 (val_main_v27 (F := Ideal) x4 x5) (val_main_v43 (F := Ideal) x4 x5)
    = val_main_v44 (F := Ideal) x4 x5 := by
  unfold val_main_v44
  rw [g_eq]

theorem r_v45 : (Host.sort2 S26400000 0 comparator_i32_i32_d0 (val_main_v44 (F := Ideal) x4 x5) (iotaInDim S26400000 32 0)).2
    = val_main_v45 (F := Ideal) x4 x5 := by
  unfold val_main_v45 val_main_call1_v0
  rw [cmp_eq]

theorem r_v51 : normIdx (val_main_v45 (F := Ideal) x4 x5) = val_main_v51 (F := Ideal) x4 x5 := by
  unfold normIdx val_main_v51 val_main_v50 val_main_v47 val_main_v49 val_main_v46 val_main_v48 val_main_c_5 val_main_c_6
  with_reducible rfl

theorem r_v52 : Host.gather gather_S26400000_S26400000x1_S26400000_n_0_n_n_0_1_1 (val_main_v37 (F := Ideal) x4 x5) (val_main_v51 (F := Ideal) x4 x5)
    = val_main_v52 (F := Ideal) x4 x5 := by
  unfold val_main_v52
  rw [g_eq]

theorem r_v58 : normIdx (val_main_v52 (F := Ideal) x4 x5) = val_main_v58 (F := Ideal) x4 x5 := by
  unfold normIdx val_main_v58 val_main_v57 val_main_v54 val_main_v56 val_main_v53 val_main_v55 val_main_c_7 val_main_c_8
  with_reducible rfl

theorem r_v59 : Host.gather gather_S26400000_S26400000x1_S26400000_n_0_n_n_0_1_1 (val_main_v27 (F := Ideal) x4 x5) (val_main_v58 (F := Ideal) x4 x5)
    = val_main_v59 (F := Ideal) x4 x5 := by
  unfold val_main_v59
  rw [g_eq]

theorem r_v65 : normIdx (val_main_v52 (F := Ideal) x4 x5) = val_main_v65 (F := Ideal) x4 x5 := by
  unfold normIdx val_main_v65 val_main_v64 val_main_v61 val_main_v63 val_main_v60 val_main_v62 val_main_c_9 val_main_c_10
  with_reducible rfl

theorem r_v66 : Host.gather gather_S26400000_S26400000x1_S26400000_n_0_n_n_0_1_1 (val_main_v34 (F := Ideal) x4 x5) (val_main_v65 (F := Ideal) x4 x5)
    = val_main_v66 (F := Ideal) x4 x5 := by
  unfold val_main_v66
  rw [g_eq]

theorem r_v69 : cat2 (row1 (val_main_v59 (F := Ideal) x4 x5)) (row1 (val_main_v66 (F := Ideal) x4 x5)) = val_main_v69 (F := Ideal) x4 x5 := by
  unfold cat2 row1 val_main_v69 val_main_v67 val_main_v68
  with_reducible rfl

theorem r_v75 : normIdx (val_main_v52 (F := Ideal) x4 x5) = val_main_v75 (F := Ideal) x4 x5 := by
  unfold normIdx val_main_v75 val_main_v74 val_main_v71 val_main_v73 val_main_v70 val_main_v72 val_main_c_11 val_main_c_12
  with_reducible rfl

end Bridge

/-! ## The run's valuations, one stretch after another -/

section Chain
variable (m : (ℓ : Loc nD τ sig) → Buf (Elt Ideal) ℓ) (outs : Outs (F := Ideal)) (c : Dev nD)

theorem V3_arg3 : V3 m outs c main_arg3 = (m ((c.tc : Thread nD τ).loc main_arg3)) :=
  (V3_of m outs c main_arg3 (by decide)).trans <| (V2_of m outs c main_arg3 (by decide)).trans <| (V1_of m c main_arg3 (by decide)).trans rfl
theorem V3_arg4 : V3 m outs c main_arg4 = (m ((c.tc : Thread nD τ).loc main_arg4)) :=
  (V3_of m outs c main_arg4 (by decide)).trans <| (V2_of m outs c main_arg4 (by decide)).trans <| (V1_of m c main_arg4 (by decide)).trans rfl
theorem V3_arg5 : V3 m outs c main_arg5 = (m ((c.tc : Thread nD τ).loc main_arg5)) :=
  (V3_of m outs c main_arg5 (by decide)).trans <| (V2_of m outs c main_arg5 (by decide)).trans <| (V1_of m c main_arg5 (by decide)).trans rfl

/-- After the first host stretch past the regions: the two joined key arrays are the reference's. -/
theorem V4_v36 : V4 m outs c main_v36 = val_main_v27 (F := Ideal) (m ((c.tc : Thread nD τ).loc main_arg4)) (m ((c.tc : Thread nD τ).loc main_arg5)) :=
  (k2_v36 (V3 m outs c)).trans (by rw [V3_arg4 m outs c, V3_arg5 m outs c]; exact r_v27 _ _)
theorem V4_v43 : V4 m outs c main_v43 = val_main_v34 (F := Ideal) (m ((c.tc : Thread nD τ).loc main_arg4)) (m ((c.tc : Thread nD τ).loc main_arg5)) :=
  (k2_v43 (V3 m outs c)).trans (by rw [V3_arg4 m outs c, V3_arg5 m outs c]; exact r_v34 _ _)
/-- and the joined float array is `catW` of the two transposed region results. -/
theorem V4_v45 : V4 m outs c main_v45 = catW (V4 m outs c main_v23) (V4 m outs c main_v25) (m ((c.tc : Thread nD τ).loc main_arg3)) :=
  (k2_v45 (V3 m outs c)).trans (by rw [V3_arg3 m outs c])

theorem V5_v36 : V5 m outs c main_v36 = val_main_v27 (F := Ideal) (m ((c.tc : Thread nD τ).loc main_arg4)) (m ((c.tc : Thread nD τ).loc main_arg5)) :=
  (V5_of m outs c main_v36 (by decide)).trans (V4_v36 m outs c)
/-- The first sort's order. -/
theorem V5_v46 : V5 m outs c main_v46 = val_main_v37 (F := Ideal) (m ((c.tc : Thread nD τ).loc main_arg4)) (m ((c.tc : Thread nD τ).loc main_arg5)) :=
  (k21_v46 (V4 m outs c)).trans (by rw [V4_v43 m outs c]; exact r_v37 _ _)
/-- The first key array along the first order. -/
theorem V6_v53 : V6 m outs c main_v53 = val_main_v44 (F := Ideal) (m ((c.tc : Thread nD τ).loc main_arg4)) (m ((c.tc : Thread nD τ).loc main_arg5)) :=
  (k22_v53 (V5 m outs c)).trans (by rw [V5_v36 m outs c, V5_v46 m outs c, r_v43]; exact r_v44 _ _)
/-- The second sort's order. -/
theorem V7_v54 : V7 m outs c main_v54 = val_main_v45 (F := Ideal) (m ((c.tc : Thread nD τ).loc main_arg4)) (m ((c.tc : Thread nD τ).loc main_arg5)) :=
  (k23_v54 (V6 m outs c)).trans (by rw [V6_v53 m outs c]; exact r_v45 _ _)
theorem V7_v36 : V7 m outs c main_v36 = val_main_v27 (F := Ideal) (m ((c.tc : Thread nD τ).loc main_arg4)) (m ((c.tc : Thread nD τ).loc main_arg5)) :=
  (V7_of m outs c main_v36 (by decide)).trans <| (V6_of m outs c main_v36 (by decide)).trans (V5_v36 m outs c)
theorem V7_v43 : V7 m outs c main_v43 = val_main_v34 (F := Ideal) (m ((c.tc : Thread nD τ).loc main_arg4)) (m ((c.tc : Thread nD τ).loc main_arg5)) :=
  (V7_of m outs c main_v43 (by decide)).trans <| (V6_of m outs c main_v43 (by decide)).trans <| (V5_of m outs c main_v43 (by decide)).trans (V4_v43 m outs c)
theorem V7_v46 : V7 m outs c main_v46 = val_main_v37 (F := Ideal) (m ((c.tc : Thread nD τ).loc main_arg4)) (m ((c.tc : Thread nD τ).loc main_arg5)) :=
  (V7_of m outs c main_v46 (by decide)).trans <| (V6_of m outs c main_v46 (by decide)).trans (V5_v46 m outs c)
theorem V8_v23 : V8 m outs c main_v23 = V4 m outs c main_v23 :=
  (V8_of m outs c main_v23 (by decide)).trans <| (V7_of m outs c main_v23 (by decide)).trans <| (V6_of m outs c main_v23 (by decide)).trans (V5_of m outs c main_v23 (by decide))
theorem V8_v25 : V8 m outs c main_v25 = V4 m outs c main_v25 :=
  (V8_of m outs c main_v25 (by decide)).trans <| (V7_of m outs c main_v25 (by decide)).trans <| (V6_of m outs c main_v25 (by decide)).trans (V5_of m outs c main_v25 (by decide))
theorem V7_v45 : V7 m outs c main_v45 = catW (V8 m outs c main_v23) (V8 m outs c main_v25) (m ((c.tc : Thread nD τ).loc main_arg3)) := by
  rw [V8_v23 m outs c, V8_v25 m outs c]
  exact (V7_of m outs c main_v45 (by decide)).trans <| (V6_of m outs c main_v45 (by decide)).trans <| (V5_of m outs c main_v45 (by decide)).trans (V4_v45 m outs c)

/-- In the last stretch: the second order read along the first. -/
theorem V8_v61 : V8 m outs c main_v61 = val_main_v52 (F := Ideal) (m ((c.tc : Thread nD τ).loc main_arg4)) (m ((c.tc : Thread nD τ).loc main_arg5)) :=
  (k24_v61 (V7 m outs c)).trans (by rw [V7_v46 m outs c, V7_v54 m outs c, r_v51]; exact r_v52 _ _)
theorem V8_v68 : V8 m outs c main_v68 = val_main_v59 (F := Ideal) (m ((c.tc : Thread nD τ).loc main_arg4)) (m ((c.tc : Thread nD τ).loc main_arg5)) :=
  (k24_v68 (V7 m outs c)).trans (by
    rw [show StableHlo.after hostOps2_4 (V7 m outs c) (Proc.devRef .tc main_v61) = _ from V8_v61 m outs c, V7_v36 m outs c, r_v58]
    exact r_v59 _ _)
theorem V8_v75 : V8 m outs c main_v75 = val_main_v66 (F := Ideal) (m ((c.tc : Thread nD τ).loc main_arg4)) (m ((c.tc : Thread nD τ).loc main_arg5)) :=
  (k24_v75 (V7 m outs c)).trans (by
    rw [show StableHlo.after hostOps2_4 (V7 m outs c) (Proc.devRef .tc main_v61) = _ from V8_v61 m outs c, V7_v43 m outs c, r_v65]
    exact r_v66 _ _)

theorem V8_v76 : V8 m outs c main_v76 = row1 (val_main_v59 (F := Ideal) (m ((c.tc : Thread nD τ).loc main_arg4)) (m ((c.tc : Thread nD τ).loc main_arg5))) :=
  (k24_v76 (V7 m outs c)).trans (by
    rw [show StableHlo.after hostOps2_4 (V7 m outs c) (Proc.devRef .tc main_v68) = _ from V8_v68 m outs c])
theorem V8_v77 : V8 m outs c main_v77 = row1 (val_main_v66 (F := Ideal) (m ((c.tc : Thread nD τ).loc main_arg4)) (m ((c.tc : Thread nD τ).loc main_arg5))) :=
  (k24_v77 (V7 m outs c)).trans (by
    rw [show StableHlo.after hostOps2_4 (V7 m outs c) (Proc.devRef .tc main_v75) = _ from V8_v75 m outs c])

/-- The integer result is the reference's integer stage of the last two arguments. -/
theorem v78_any : V8 m outs c main_v78 = val_main_v69 (F := Ideal) (m ((c.tc : Thread nD τ).loc main_arg4)) (m ((c.tc : Thread nD τ).loc main_arg5)) :=
  (k24_v78 (V7 m outs c)).trans (by
    rw [show StableHlo.after hostOps2_4 (V7 m outs c) (Proc.devRef .tc main_v76) = _ from V8_v76 m outs c,
      show StableHlo.after hostOps2_4 (V7 m outs c) (Proc.devRef .tc main_v77) = _ from V8_v77 m outs c]
    exact r_v69 _ _)

/-- The float result is the joined float array gathered along the reference's last index stage. -/
theorem v85_any : V8 m outs c main_v85
    = Host.gather gather_S26400000_S26400000x1_S26400000_n_0_n_n_0_1_1 (catW (V8 m outs c main_v23) (V8 m outs c main_v25) (m ((c.tc : Thread nD τ).loc main_arg3)))
        (val_main_v75 (F := Ideal) (m ((c.tc : Thread nD τ).loc main_arg4)) (m ((c.tc : Thread nD τ).loc main_arg5))) :=
  (k24_v85 (V7 m outs c)).trans (by
    rw [show StableHlo.after hostOps2_4 (V7 m outs c) (Proc.devRef .tc main_v61) = _ from V8_v61 m outs c, V7_v45 m outs c, r_v75])

end Chain

/-! ## The two results -/

section Results
variable (m : (ℓ : Loc nD τ sig) → Buf (Elt Ideal) ℓ) (c : Dev nD)

/-- The reference's tail function is the gather of `catW` along its last index stage. -/
theorem tailW_eq (tril : (⟨S800000x4x4, .f32⟩ : BufTy).Contents (Elt Ideal)) (diag : (⟨S1600000x4x4, .f32⟩ : BufTy).Contents (Elt Ideal))
    (x3 : (⟨S1600000, .i32⟩ : BufTy).Contents (Elt Ideal)) (x4 : (⟨S2x12800000, .i32⟩ : BufTy).Contents (Elt Ideal))
    (x5 : (⟨S2x800000, .i32⟩ : BufTy).Contents (Elt Ideal)) :
    Cert.ReferenceIdeal.RefVal.tailW tril diag x3 x4 x5
      = Host.gather gather_S26400000_S26400000x1_S26400000_n_0_n_n_0_1_1 (catW tril diag x3) (val_main_v75 (F := Ideal) x4 x5) := by
  unfold Cert.ReferenceIdeal.RefVal.tailW catW val_main_v17 val_main_v18 val_main_cst
  rw [g_eq, scat_eq]
  all_goals with_reducible rfl

theorem v78_eq : V8 m (outsOf m) c main_v78 = Cert.ReferenceIdeal.ReadP.val_main_v69 (F := Ideal) (m ((c.tc : Thread nD τ).loc main_arg4)) (m ((c.tc : Thread nD τ).loc main_arg5)) :=
  v78_any m (outsOf m) c

theorem v85_eq : V8 m (outsOf m) c main_v85 = Cert.ReferenceIdeal.RefVal.tailW (V8 m (outsOf m) c main_v23) (V8 m (outsOf m) c main_v25) (m ((c.tc : Thread nD τ).loc main_arg3)) (m ((c.tc : Thread nD τ).loc main_arg4)) (m ((c.tc : Thread nD τ).loc main_arg5)) := by
  rw [tailW_eq]
  exact v85_any m (outsOf m) c

end Results

end Cert.KernelIdeal.Tail

end
-- ==== Proof.lean ====
/-
  The certificate of the sheaf-Laplacian assembly kernel against its jnp reference, over the extended reals.

  Both programs gather two stacks of 4 × 4 matrices `L = maps[left_idx]`, `R = maps[right_idx]`. The reference forms
  `-(Lₑᵀ Rₑ)` and `Mₑᵀ Mₑ` (for every edge `e` of `maps`) by batched products. The kernel lays each stack out as a
  16 × n array (row `4·i + j`, lane `e`), and two Pallas kernels walk it in blocks of 32000 lanes, writing row `4·j + k`
  of the result as the lane-wise sum over `i` of row `4·i + j` times row `4·i + k` — the first kernel times the word of
  `-1.0` —; read back as `[e, j, k]` these are the same two arrays: a sum of four terms in the same order, and
  `(-1)·x = -x`, laws that hold at the infinities too, so the finiteness of the inputs is never used. From the two arrays
  on, both programs apply one and the same function: the scatter-add by source node, three concatenations, two stable
  sorts of integer keys and the gathers by the sorted order. The integer result depends on the integer arguments only.

  The kernel programs' frames (every weakly fair execution ends, faults nowhere, leaves the arguments as they were) come
  from the run of @main as eight items — host stretches and the two kernel regions —, each region entered by splitting
  its windows' arrays out of the held buffers and left by putting them back; the reference's from its run read back stretch by stretch.
-/
import proofs.«133138_j18459769438526_1_alg».proof.Defs
import proofs.«133138_j18459769438526_1_alg».proof.Proof.Gen.Kernel
import proofs.«133138_j18459769438526_1_alg».proof.Proof.Gen.KernelIdeal
import proofs.«133138_j18459769438526_1_alg».proof.Proof.Gen.ReferenceIdeal
import proofs.«133138_j18459769438526_1_alg».proof.Proof.Gen.Pre_finite_inputs
import proofs.«133138_j18459769438526_1_alg».proof.Proof.KRun
import proofs.«133138_j18459769438526_1_alg».proof.Proof.IRun
import proofs.«133138_j18459769438526_1_alg».proof.Proof.RefChainB
import proofs.«133138_j18459769438526_1_alg».proof.Proof.Bridge
import proofs.«133138_j18459769438526_1_alg».proof.Proof.ITail
import Idealize.ShloMosaic.Adequacy
import Idealize.ShloMosaic.Init

noncomputable section

namespace Cert.Proof

open Idealize.ShloMosaic Idealize.ShloMosaic.TcCoe Idealize.SL.Sem

/-- The word-level kernel program runs to its end and leaves its arguments unchanged. -/
theorem frame_k : Cert.frame_Kernel := fun m ρ _ => Cert.Kernel.Run.frame m ρ

/-- So does the idealized kernel program. -/
theorem frame_ki : Cert.frame_KernelIdeal := fun m ρ _ => Cert.KernelIdeal.Run.frame m ρ

/-- The reference's frame is its run with the results dropped. -/
theorem frame_ri : Cert.frame_ReferenceIdeal := fun m ρ _ =>
  (θ_run Cert.ReferenceIdeal.defs _ _).mono (fun _ h c => (h c).2.2.2) (Cert.ReferenceIdeal.RefChain.ref_run m ρ)

/-- The ideal pass rewrote nothing. -/
theorem preserves : Cert.preserves_Kernel_KernelIdeal := trivial

section

open Cert.KernelIdeal Cert.KernelIdeal.Gen Cert.KernelIdeal.Run
open Cert.ReferenceIdeal.ReadP (val_main_v15 val_main_v16 val_main_v69 val_main_v76)

/-- The kernel's second result is the reference's: the shared tail applied to equal arrays. -/
theorem weights_eq (m : (ℓ : Loc nD τ sig) → Buf (Elt Ideal) ℓ) (c : Dev nD) :
    V8 m (outsOf m) c main_v85 = val_main_v76 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := by
  rw [Cert.KernelIdeal.Tail.v85_eq, Cert.Proof.Bridge.tril_eq, Cert.Proof.Bridge.diag_eq, Cert.ReferenceIdeal.RefVal.ref_v76]

end

/-- From memories agreeing on the arguments both idealized programs end with equal results: the kernel's three results
    are what the last valuation of its run gives them, the reference's its stage functions of the arguments, and these
    are equal — the integer result and the shared tail by the programs' common text, the two float arrays by the layout
    law. -/
theorem algebraic : Cert.algebraic_KernelIdeal_ReferenceIdeal := by
  intro m ρ m' ρ' _ hagree
  refine ⟨fun c => Cert.KernelIdeal.Gen.V8 m (Cert.KernelIdeal.Run.outsOf m) c Cert.KernelIdeal.main_v78,
    fun c => Cert.KernelIdeal.Gen.V8 m (Cert.KernelIdeal.Run.outsOf m) c Cert.KernelIdeal.main_v85,
    fun c => Cert.KernelIdeal.Gen.V8 m (Cert.KernelIdeal.Run.outsOf m) c Cert.KernelIdeal.main_v23,
    Cert.KernelIdeal.Run.run_results m ρ, ?_⟩
  refine (θ_run Cert.ReferenceIdeal.defs _ _).mono (fun _ h c => ?_) (Cert.ReferenceIdeal.RefChain.ref_run m' ρ')
  obtain ⟨h69, h76, h15, hargs⟩ := h c
  obtain ⟨e0, e1, e2, e3, e4, e5⟩ := hagree c
  refine ⟨h69.trans ?_, h76.trans ?_, h15.trans ?_, hargs⟩
  · rw [e4, e5]
    exact (Cert.KernelIdeal.Tail.v78_eq m c).symm
  · rw [e0, e1, e2, e3, e4, e5]
    exact (weights_eq m c).symm
  · rw [e0, e1, e2]
    exact (Cert.Proof.Bridge.tril_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
